-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x600000 32) (main_arg2 : FVec F S128x128 .f32) (main_arg3 : FVec F S128 .f32) (main_arg4 : FVec F S128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_v13 main_v16
-- ==== Kernel.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S5000x128 : Shape := ⟨2, ![5000, 128]⟩
abbrev S100000 : Shape := ⟨1, ![100000]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S700000x128 : Shape := ⟨2, ![700000, 128]⟩
abbrev S1x128 : Shape := ⟨2, ![1, 128]⟩

abbrev nBuf : Space → Nat
  | .hbm => 77
  | .vmem => 19
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S100000x128, .f32⟩
  | .hbm, ⟨7, _⟩ => ⟨S100000, .i32⟩
  | .hbm, ⟨8, _⟩ => ⟨S1x600000, .i32⟩
  | .hbm, ⟨9, _⟩ => ⟨S600000, .i32⟩
  | .hbm, ⟨10, _⟩ => ⟨S700000, .i32⟩
  | .hbm, ⟨11, _⟩ => ⟨S1x600000, .i32⟩
  | .hbm, ⟨12, _⟩ => ⟨S600000, .i32⟩
  | .hbm, ⟨13, _⟩ => ⟨S700000, .i32⟩
  | .hbm, ⟨14, _⟩ => ⟨S_, .f32⟩
  | .hbm, ⟨15, _⟩ => ⟨S700000, .f32⟩
  | .hbm, ⟨16, _⟩ => ⟨S_, .f32⟩
  | .hbm, ⟨17, _⟩ => ⟨S100000, .f32⟩
  | .hbm, ⟨18, _⟩ => ⟨S700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S700000, .i32⟩
  | .hbm, ⟨30, _⟩ => ⟨S700000, .i1⟩
  | .hbm, ⟨31, _⟩ => ⟨S_, .i32⟩
  | .hbm, ⟨32, _⟩ => ⟨S700000, .i32⟩
  | .hbm, ⟨33, _⟩ => ⟨S700000, .i32⟩
  | .hbm, ⟨34, _⟩ => ⟨S700000, .i32⟩
  | .hbm, ⟨35, _⟩ => ⟨S700000x1, .i32⟩
  | .hbm, ⟨36, _⟩ => ⟨S700000, .f32⟩
  | .hbm, ⟨37, _⟩ => ⟨S_, .i32⟩
  | .hbm, ⟨38, _⟩ => ⟨S700000, .i32⟩
  | .hbm, ⟨39, _⟩ => ⟨S700000, .i1⟩
  | .hbm, ⟨40, _⟩ => ⟨S_, .i32⟩
  | .hbm, ⟨41, _⟩ => ⟨S700000, .i32⟩
  | .hbm, ⟨42, _⟩ => ⟨S700000, .i32⟩
  | .hbm, ⟨43, _⟩ => ⟨S700000, .i32⟩
  | .hbm, ⟨44, _⟩ => ⟨S700000x1, .i32⟩
  | .hbm, ⟨45, _⟩ => ⟨S700000, .f32⟩
  | .hbm, ⟨46, _⟩ => ⟨S700000, .f32⟩
  | .hbm, ⟨47, _⟩ => ⟨S700000x1, .f32⟩
  | .hbm, ⟨48, _⟩ => ⟨S_, .i32⟩
  | .hbm, ⟨49, _⟩ => ⟨S700000, .i32⟩
  | .hbm, ⟨50, _⟩ => ⟨S700000, .i1⟩
  | .hbm, ⟨51, _⟩ => ⟨S_, .i32⟩
  | .hbm, ⟨52, _⟩ => ⟨S700000, .i32⟩
  | .hbm, ⟨53, _⟩ => ⟨S700000, .i32⟩
  | .hbm, ⟨54, _⟩ => ⟨S700000, .i32⟩
  | .hbm, ⟨55, _⟩ => ⟨S700000x1, .i32⟩
  | .hbm, ⟨56, _⟩ => ⟨S700000x128, .f32⟩
  | .hbm, ⟨57, _⟩ => ⟨S700000x128, .f32⟩
  | .hbm, ⟨58, _⟩ => ⟨S700000x128, .f32⟩
  | .hbm, ⟨59, _⟩ => ⟨S_, .f32⟩
  | .hbm, ⟨60, _⟩ => ⟨S100000x128, .f32⟩
  | .hbm, ⟨61, _⟩ => ⟨S700000x1, .i32⟩
  | .hbm, ⟨62, _⟩ => ⟨S100000x128, .f32⟩
  | .hbm, ⟨63, _⟩ => ⟨S1x128, .f32⟩
  | .hbm, ⟨64, _⟩ => ⟨S1x128, .f32⟩
  | .hbm, ⟨65, _⟩ => ⟨S1x128, .f32⟩
  | .hbm, ⟨66, _⟩ => ⟨S1x128, .f32⟩
  | .hbm, ⟨67, _⟩ => ⟨S1x128, .f32⟩
  | .hbm, ⟨68, _⟩ => ⟨S_, .f32⟩
  | .hbm, ⟨69, _⟩ => ⟨S1x128, .f32⟩
  | .hbm, ⟨70, _⟩ => ⟨S1x128, .f32⟩
  | .hbm, ⟨71, _⟩ => ⟨S_, .f32⟩
  | .hbm, ⟨72, _⟩ => ⟨S1x128, .f32⟩
  | .hbm, ⟨73, _⟩ => ⟨S1x128, .f32⟩
  | .hbm, ⟨74, _⟩ => ⟨S1x128, .f32⟩
  | .hbm, ⟨75, _⟩ => ⟨S1x128, .f32⟩
  | .hbm, ⟨76, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S5000x128, .f32⟩
  | .local _ .vmem, ⟨18, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47_0 : Ref sig .tc := ⟨.hbm, 66, rfl⟩
abbrev main_v47_1 : Ref sig .tc := ⟨.hbm, 67, rfl⟩
abbrev main_cst_9 : Ref sig .tc := ⟨.hbm, 68, rfl⟩
abbrev main_v48 : Ref sig .tc := ⟨.hbm, 69, rfl⟩
abbrev main_v49 : Ref sig .tc := ⟨.hbm, 70, rfl⟩
abbrev main_cst_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg6_0 : Ref sig .tc := ⟨.vmem, 17, rfl⟩
abbrev cc2_stg6_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem6_1 : DmaSem sig := 18

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S5000x128_S5000x128 : S5000x128.ShapeCasts S5000x128
  shapeCasts_S1x128_S1x128 : S1x128.ShapeCasts S1x128
  broadcasts_S1x128_S5000x128 : S1x128.Broadcasts S5000x128
  reduces_S5000x128_S128 : S5000x128.Reduces [0] S128
  bcast_S_S1x128 : S_.BroadcastsInDim S1x128 (![] : Fin 0 → Fin S1x128.rank)
  dot_S5000x128_S128x128_S5000x128_1_0_0_1_n_n_wf : DotDims.WF S5000x128 S128x128 S5000x128 [1] [0] [0] [1] [] []
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47_0) S1x128.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47_1) S1x128.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v43) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v45) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v46) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v54) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S_ : Shape := ⟨0, ![]⟩
abbrev S100000 : Shape := ⟨1, ![100000]⟩
abbrev S1x600000 : Shape := ⟨2, ![1, 600000]⟩
abbrev S600000 : Shape := ⟨1, ![600000]⟩
abbrev S700000 : Shape := ⟨1, ![700000]⟩
abbrev S700000x1 : Shape := ⟨2, ![700000, 1]⟩
abbrev S700000x128 : Shape := ⟨2, ![700000, 128]⟩
abbrev S1x128 : Shape := ⟨2, ![1, 128]⟩

abbrev nBuf : Space → Nat
  | .hbm => 113
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S_, .f32⟩
  | .hbm, ⟨7, _⟩ => ⟨S100000x128, .f32⟩
  | .hbm, ⟨8, _⟩ => ⟨S100000x128, .f32⟩
  | .hbm, ⟨9, _⟩ => ⟨S100000x128, .f32⟩
  | .hbm, ⟨10, _⟩ => ⟨S100000, .i32⟩
  | .hbm, ⟨11, _⟩ => ⟨S1x600000, .i32⟩
  | .hbm, ⟨12, _⟩ => ⟨S600000, .i32⟩
  | .hbm, ⟨13, _⟩ => ⟨S700000, .i32⟩
  | .hbm, ⟨14, _⟩ => ⟨S1x600000, .i32⟩
  | .hbm, ⟨15, _⟩ => ⟨S600000, .i32⟩
  | .hbm, ⟨16, _⟩ => ⟨S700000, .i32⟩
  | .hbm, ⟨17, _⟩ => ⟨S_, .f32⟩
  | .hbm, ⟨18, _⟩ => ⟨S700000, .f32⟩
  | .hbm, ⟨19, _⟩ => ⟨S_, .f32⟩
  | .hbm, ⟨20, _⟩ => ⟨S100000, .f32⟩
  | .hbm, ⟨21, _⟩ => ⟨S700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S700000, .i32⟩
  | .hbm, ⟨33, _⟩ => ⟨S700000, .i1⟩
  | .hbm, ⟨34, _⟩ => ⟨S_, .i32⟩
  | .hbm, ⟨35, _⟩ => ⟨S700000, .i32⟩
  | .hbm, ⟨36, _⟩ => ⟨S700000, .i32⟩
  | .hbm, ⟨37, _⟩ => ⟨S700000, .i32⟩
  | .hbm, ⟨38, _⟩ => ⟨S700000x1, .i32⟩
  | .hbm, ⟨39, _⟩ => ⟨S700000, .f32⟩
  | .hbm, ⟨40, _⟩ => ⟨S_, .i32⟩
  | .hbm, ⟨41, _⟩ => ⟨S700000, .i32⟩
  | .hbm, ⟨42, _⟩ => ⟨S700000, .i1⟩
  | .hbm, ⟨43, _⟩ => ⟨S_, .i32⟩
  | .hbm, ⟨44, _⟩ => ⟨S700000, .i32⟩
  | .hbm, ⟨45, _⟩ => ⟨S700000, .i32⟩
  | .hbm, ⟨46, _⟩ => ⟨S700000, .i32⟩
  | .hbm, ⟨47, _⟩ => ⟨S700000x1, .i32⟩
  | .hbm, ⟨48, _⟩ => ⟨S700000, .f32⟩
  | .hbm, ⟨49, _⟩ => ⟨S700000, .f32⟩
  | .hbm, ⟨50, _⟩ => ⟨S700000x1, .f32⟩
  | .hbm, ⟨51, _⟩ => ⟨S_, .i32⟩
  | .hbm, ⟨52, _⟩ => ⟨S700000, .i32⟩
  | .hbm, ⟨53, _⟩ => ⟨S700000, .i1⟩
  | .hbm, ⟨54, _⟩ => ⟨S_, .i32⟩
  | .hbm, ⟨55, _⟩ => ⟨S700000, .i32⟩
  | .hbm, ⟨56, _⟩ => ⟨S700000, .i32⟩
  | .hbm, ⟨57, _⟩ => ⟨S700000, .i32⟩
  | .hbm, ⟨58, _⟩ => ⟨S700000x1, .i32⟩
  | .hbm, ⟨59, _⟩ => ⟨S700000x128, .f32⟩
  | .hbm, ⟨60, _⟩ => ⟨S700000x128, .f32⟩
  | .hbm, ⟨61, _⟩ => ⟨S700000x128, .f32⟩
  | .hbm, ⟨62, _⟩ => ⟨S_, .f32⟩
  | .hbm, ⟨63, _⟩ => ⟨S100000x128, .f32⟩
  | .hbm, ⟨64, _⟩ => ⟨S700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S128, .f32⟩
  | .hbm, ⟨71, _⟩ => ⟨S_, .f32⟩
  | .hbm, ⟨72, _⟩ => ⟨S128, .f32⟩
  | .hbm, ⟨73, _⟩ => ⟨S128, .f32⟩
  | .hbm, ⟨74, _⟩ => ⟨S_, .i32⟩
  | .hbm, ⟨75, _⟩ => ⟨S_, .f32⟩
  | .hbm, ⟨76, _⟩ => ⟨S128, .f32⟩
  | .hbm, ⟨77, _⟩ => ⟨S1x128, .f32⟩
  | .hbm, ⟨78, _⟩ => ⟨S_, .f32⟩
  | .hbm, ⟨79, _⟩ => ⟨S1x128, .f32⟩
  | .hbm, ⟨80, _⟩ => ⟨S1x128, .f32⟩
  | .hbm, ⟨81, _⟩ => ⟨S100000x128, .f32⟩
  | .hbm, ⟨82, _⟩ => ⟨S100000x128, .f32⟩
  | .hbm, ⟨83, _⟩ => ⟨S100000x128, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S128, .f32⟩
  | .hbm, ⟨89, _⟩ => ⟨S128, .f32⟩
  | .hbm, ⟨90, _⟩ => ⟨S128, .f32⟩
  | .hbm, ⟨91, _⟩ => ⟨S_, .f32⟩
  | .hbm, ⟨92, _⟩ => ⟨S_, .i1⟩
  | .hbm, ⟨93, _⟩ => ⟨S_, .f32⟩
  | .hbm, ⟨94, _⟩ => ⟨S_, .f32⟩
  | .hbm, ⟨95, _⟩ => ⟨S128, .f32⟩
  | .hbm, ⟨96, _⟩ => ⟨S128, .f32⟩
  | .hbm, ⟨97, _⟩ => ⟨S1x128, .f32⟩
  | .hbm, ⟨98, _⟩ => ⟨S100000x128, .f32⟩
  | .hbm, ⟨99, _⟩ => ⟨S100000x128, .f32⟩
  | .hbm, ⟨100, _⟩ => ⟨S1x128, .f32⟩
  | .hbm, ⟨101, _⟩ => ⟨S100000x128, .f32⟩
  | .hbm, ⟨102, _⟩ => ⟨S100000x128, .f32⟩
  | .hbm, ⟨103, _⟩ => ⟨S_, .f32⟩
  | .hbm, ⟨104, _⟩ => ⟨S128, .f32⟩
  | .hbm, ⟨105, _⟩ => ⟨S128, .f32⟩
  | .hbm, ⟨106, _⟩ => ⟨S128, .f32⟩
  | .hbm, ⟨107, _⟩ => ⟨S1x128, .f32⟩
  | .hbm, ⟨108, _⟩ => ⟨S100000x128, .f32⟩
  | .hbm, ⟨109, _⟩ => ⟨S100000x128, .f32⟩
  | .hbm, ⟨110, _⟩ => ⟨S1x128, .f32⟩
  | .hbm, ⟨111, _⟩ => ⟨S100000x128, .f32⟩
  | .hbm, ⟨112, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_cst : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_call1_v0 : Ref sig .tc := ⟨.hbm, 28, rfl⟩
abbrev main_call1_v1 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_6 : Ref sig .tc := ⟨.hbm, 51, rfl⟩
abbrev main_v33 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_c_11 : Ref sig .tc := ⟨.hbm, 74, rfl⟩
abbrev main_call2_cst : Ref sig .tc := ⟨.hbm, 75, rfl⟩
abbrev main_call2_v0 : Ref sig .tc := ⟨.hbm, 76, rfl⟩
abbrev main_call2_v1 : Ref sig .tc := ⟨.hbm, 77, rfl⟩
abbrev main_call2_cst_0 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_call2_v5 : Ref sig .tc := ⟨.hbm, 82, rfl⟩
abbrev main_call2_v6 : Ref sig .tc := ⟨.hbm, 83, rfl⟩
abbrev main_call2_v7 : Ref sig .tc := ⟨.hbm, 84, rfl⟩
abbrev main_call2_cst_1 : Ref sig .tc := ⟨.hbm, 85, rfl⟩
abbrev main_call2_v8 : Ref sig .tc := ⟨.hbm, 86, rfl⟩
abbrev main_call2_cst_2 : Ref sig .tc := ⟨.hbm, 87, rfl⟩
abbrev main_call2_v9 : Ref sig .tc := ⟨.hbm, 88, rfl⟩
abbrev main_call2_v10 : Ref sig .tc := ⟨.hbm, 89, rfl⟩
abbrev main_call2_v11 : Ref sig .tc := ⟨.hbm, 90, rfl⟩
abbrev main_call2_cst_3 : Ref sig .tc := ⟨.hbm, 91, rfl⟩
abbrev main_call2_v12 : Ref sig .tc := ⟨.hbm, 92, rfl⟩
abbrev main_call2_cst_4 : Ref sig .tc := ⟨.hbm, 93, rfl⟩
abbrev main_call2_call0_v0 : Ref sig .tc := ⟨.hbm, 94, rfl⟩
abbrev main_call2_call0_v1 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_cst_12 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩

abbrev nD : Nat := 1
abbrev τ : Topo := Topo.v7x

variable {F : FTy → Type} [FloatOps F]

class Facts₀ : Prop where
  bcast_S_S100000x128 : S_.BroadcastsInDim S100000x128 (![] : Fin 0 → Fin S100000x128.rank)
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  bcast_S700000x1_S700000x128_0_1 : S700000x1.BroadcastsInDim S700000x128 (![0, 1] : Fin 2 → Fin S700000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  dot_S100000x128_S128x128_S100000x128_1_0_0_1_n_n_wf : DotDims.WF S100000x128 S128x128 S100000x128 [1] [0] [0] [1] [] []
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf

class Facts : Prop extends Facts₀ where

variable [Facts]
-- ==== Proof.Agg.lean ====
/-
  The graph aggregation both programs share, as one function of the hidden features h (100000 × 128) and the
  edge list ei (2 × 600000, 32-bit integers).

  Every node gets a self loop: the source and target lists are the two rows of ei followed by 0 … 99999. The
  degree of a node is the number of list positions whose target is that node; its weight is deg^(−1/2) where the
  degree is positive and 0 elsewhere. Position e carries the coefficient weight(src e) · weight(dst e), reads the row
  src e of h (negative numbers wrapped by 100000, then clamped by the gather), and adds coefficient · row into the row
  dst e of a zero matrix (positions whose target is no row are dropped by the scatter).
-/
import proofs.«159551_j41910290874470_1_alg».proof.KernelIdeal
import Idealize.ShloMosaic.PureOps.Ideal

noncomputable section

namespace Cert.Agg

open Idealize.ShloMosaic Cert.KernelIdeal

variable [hK : Cert.KernelIdeal.Facts]
open Cert.KernelIdeal.Facts₀ Cert.KernelIdeal.Facts

/-- Source node of every list position: row 0 of the edge list, then the self loops. -/
def srcIdx (ei : IVec S2x600000 32) : IVec S700000 32 :=
  concatenate S700000 0 [⟨S600000, shapeCast S600000 (extractStridedSlice S1x600000 ![0, 0] ei slices_S2x600000_S1x600000_0_0) shapeCasts_S1x600000_S600000⟩, ⟨S100000, iotaInDim S100000 32 0⟩] concatenates_S600000_S100000_S700000_d0

/-- Target node of every list position: row 1 of the edge list, then the self loops. -/
def dstIdx (ei : IVec S2x600000 32) : IVec S700000 32 :=
  concatenate S700000 0 [⟨S600000, shapeCast S600000 (extractStridedSlice S1x600000 ![1, 0] ei slices_S2x600000_S1x600000_1_0) shapeCasts_S1x600000_S600000⟩, ⟨S100000, iotaInDim S100000 32 0⟩] concatenates_S600000_S100000_S700000_d0

/-- A list of node numbers as the one-column index array a gather or a scatter takes. -/
def col (v : IVec S700000 32) : IVec S700000x1 32 := broadcastInDim S700000x1 ![0] bcast_S700000_S700000x1_0 v

/-- The degree of every node: ones added into zeros at the targets. -/
def deg (ei : IVec S2x600000 32) : FVec Ideal S100000 .f32 :=
  Host.scatterAdd scatter_S100000_S700000x1_S700000_n_0_0_1
    (broadcastInDim S100000 ![] bcast_S_S100000 (constant (F := Ideal) S_ .f32 0x00000000#32))
    (col (dstIdx ei))
    (broadcastInDim S700000 ![] bcast_S_S700000 (constant (F := Ideal) S_ .f32 0x3F800000#32))

/-- The weight of every node: deg^(−1/2) where the degree is positive, 0 elsewhere. -/
def weight (ei : IVec S2x600000 32) : FVec Ideal S100000 .f32 :=
  select (cmpf .ogt (deg ei) (broadcastInDim S100000 ![] bcast_S_S100000 (constant (F := Ideal) S_ .f32 0x00000000#32)))
    (Host.rsqrt (deg ei))
    (broadcastInDim S100000 ![] bcast_S_S100000 (id (constant (F := Ideal) S_ .f32 0x00000000#32)))

/-- Negative node numbers wrapped by the number of nodes, as an index column. -/
def wrapped (v : IVec S700000 32) : IVec S700000x1 32 :=
  col (select (cmpi .slt v (broadcastInDim S700000 ![] bcast_S_S700000 (constantI S_ 32 0#32)))
    (addi v (broadcastInDim S700000 ![] bcast_S_S700000 (constantI S_ 32 100000#32))) v)

/-- The coefficient of every list position: weight of its source times weight of its target. -/
def coef (ei : IVec S2x600000 32) : FVec Ideal S700000 .f32 :=
  mulf (Host.gather gather_S100000_S700000x1_S700000_n_0_n_n_0_1_1 (weight ei) (wrapped (srcIdx ei)))
    (Host.gather gather_S100000_S700000x1_S700000_n_0_n_n_0_1_1 (weight ei) (wrapped (dstIdx ei)))

/-- What every list position contributes: its coefficient times the row of h at its source. -/
def contrib (h : FVec Ideal S100000x128 .f32) (ei : IVec S2x600000 32) : FVec Ideal S700000x128 .f32 :=
  mulf (broadcastInDim S700000x128 ![0, 1] bcast_S700000x1_S700000x128_0_1
      (broadcastInDim S700000x1 ![0] bcast_S700000_S700000x1_0 (coef ei)))
    (Host.gather gather_S100000x128_S700000x1_S700000x128_1_0_n_n_0_1_1128 h (wrapped (srcIdx ei)))

/-- The aggregated features: the contributions added into a zero matrix at the rows of their targets. -/
def agg (h : FVec Ideal S100000x128 .f32) (ei : IVec S2x600000 32) : FVec Ideal S100000x128 .f32 :=
  Host.scatterAdd scatter_S100000x128_S700000x1_S700000x128_1_0_0_1
    (broadcastInDim S100000x128 ![] bcast_S_S100000x128 (constant (F := Ideal) S_ .f32 0x00000000#32))
    (col (dstIdx ei))
    (contrib h ei)

end Cert.Agg

end
-- ==== Proof.KFold.lean ====
/-
  The buffer contents between the kernel regions, read back to the launch memory.

  The idealized kernel program is: region 0 (hidden features); a stretch of host operations (the graph
  aggregation, and the three parameter vectors laid out as 1 × 128 rows); region 1 (column sums and column sums
  of squares); a stretch of host operations (mean = sum / N, variance = sum of squares / N − mean²); region 2
  (normalise). The generated frame names the contents of every buffer at each of the eight boundaries (W0 … W7).
  This module reads, at each boundary, the buffers the next region takes: an output of a region is what its
  write-backs leave; an input window's array is as the region found it; a buffer a stretch does not write is
  unchanged; a buffer it writes is the operation's function of its operands.
-/
import proofs.«159551_j41910290874470_1_alg».proof.Proof.Gen.KernelIdeal.Frame
import proofs.«159551_j41910290874470_1_alg».proof.Proof.Agg
import Idealize.ShloMosaic.Lib.StableHlo.Run

set_option maxRecDepth 16384

noncomputable section

namespace Cert.KSide

open Idealize.ShloMosaic Idealize.ShloMosaic.TcCoe Idealize.SL.Sem
open Cert.KernelIdeal Cert.KernelIdeal.Gen

/-! ## The aggregation stretch, one part at a time, from any contents `U` -/

section Stretch
variable (U : Valuation τ sig (Elt Ideal))

/-- First part: the source list. -/
theorem s1_v4 : StableHlo.after hostOps1 U (Proc.devRef .tc main_v4) = Cert.Agg.srcIdx (U (Proc.devRef .tc main_arg1)) := by
  after_results <;> rfl
/-- First part: the target list. -/
theorem s1_v7 : StableHlo.after hostOps1 U (Proc.devRef .tc main_v7) = Cert.Agg.dstIdx (U (Proc.devRef .tc main_arg1)) := by
  after_results <;> rfl
/-- First part: where the degree is positive. -/
theorem s1_v13 : StableHlo.after hostOps1 U (Proc.devRef .tc main_v13)
    = cmpf .ogt (Cert.Agg.deg (U (Proc.devRef .tc main_arg1))) (broadcastInDim S100000 ![] Facts₀.bcast_S_S100000 (constant (F := Ideal) S_ .f32 0x00000000#32)) := by
  after_results <;> rfl
/-- First part: the inverse square root of the degree. -/
theorem s1_v14 : StableHlo.after hostOps1 U (Proc.devRef .tc main_v14) = Host.rsqrt (Cert.Agg.deg (U (Proc.devRef .tc main_arg1))) := by
  after_results <;> rfl
/-- First part: the zero the weight takes elsewhere. -/
theorem s1_cst2 : StableHlo.after hostOps1 U (Proc.devRef .tc main_cst_2) = constant (F := Ideal) S_ .f32 0x00000000#32 := by
  after_results <;> rfl
/-- The first part writes none of these. -/
theorem s1_v0 : StableHlo.after hostOps1 U (Proc.devRef .tc main_v0) = U (Proc.devRef .tc main_v0) := by after_results
theorem s1_arg3 : StableHlo.after hostOps1 U (Proc.devRef .tc main_arg3) = U (Proc.devRef .tc main_arg3) := by after_results
theorem s1_arg4 : StableHlo.after hostOps1 U (Proc.devRef .tc main_arg4) = U (Proc.devRef .tc main_arg4) := by after_results
theorem s1_arg5 : StableHlo.after hostOps1 U (Proc.devRef .tc main_arg5) = U (Proc.devRef .tc main_arg5) := by after_results

/-- Second part: the weight, deg^(−1/2) where the degree is positive and zero elsewhere. -/
theorem s2_v15 : StableHlo.after hostOps1_1 U (Proc.devRef .tc main_v15)
    = select (U (Proc.devRef .tc main_v13)) (U (Proc.devRef .tc main_v14)) (broadcastInDim S100000 ![] Facts₀.bcast_S_S100000 (id (U (Proc.devRef .tc main_cst_2)))) := by
  after_results <;> rfl
/-- The second part writes none of these. -/
theorem s2_v4 : StableHlo.after hostOps1_1 U (Proc.devRef .tc main_v4) = U (Proc.devRef .tc main_v4) := by after_results
theorem s2_v7 : StableHlo.after hostOps1_1 U (Proc.devRef .tc main_v7) = U (Proc.devRef .tc main_v7) := by after_results
theorem s2_v0 : StableHlo.after hostOps1_1 U (Proc.devRef .tc main_v0) = U (Proc.devRef .tc main_v0) := by after_results
theorem s2_arg3 : StableHlo.after hostOps1_1 U (Proc.devRef .tc main_arg3) = U (Proc.devRef .tc main_arg3) := by after_results
theorem s2_arg4 : StableHlo.after hostOps1_1 U (Proc.devRef .tc main_arg4) = U (Proc.devRef .tc main_arg4) := by after_results
theorem s2_arg5 : StableHlo.after hostOps1_1 U (Proc.devRef .tc main_arg5) = U (Proc.devRef .tc main_arg5) := by after_results

set_option maxHeartbeats 4000000 in
/-- Third part: the aggregated features, from the two lists, the weights and the hidden features. -/
theorem s3_v43 : StableHlo.after hostOps1_2 U (Proc.devRef .tc main_v43)
    = Host.scatterAdd scatter_S100000x128_S700000x1_S700000x128_1_0_0_1
        (broadcastInDim S100000x128 ![] Facts₀.bcast_S_S100000x128 (constant (F := Ideal) S_ .f32 0x00000000#32))
        (Cert.Agg.col (U (Proc.devRef .tc main_v7)))
        (mulf (broadcastInDim S700000x128 ![0, 1] Facts₀.bcast_S700000x1_S700000x128_0_1
            (broadcastInDim S700000x1 ![0] Facts₀.bcast_S700000_S700000x1_0
              (mulf (Host.gather gather_S100000_S700000x1_S700000_n_0_n_n_0_1_1 (U (Proc.devRef .tc main_v15)) (Cert.Agg.wrapped (U (Proc.devRef .tc main_v4))))
                (Host.gather gather_S100000_S700000x1_S700000_n_0_n_n_0_1_1 (U (Proc.devRef .tc main_v15)) (Cert.Agg.wrapped (U (Proc.devRef .tc main_v7)))))))
          (Host.gather gather_S100000x128_S700000x1_S700000x128_1_0_n_n_0_1_1128 (U (Proc.devRef .tc main_v0)) (Cert.Agg.wrapped (U (Proc.devRef .tc main_v4))))) := by
  after_results_simp <;> rfl
/-- Third part: a parameter vector as a 1 × 128 row. -/
theorem s3_v44 : StableHlo.after hostOps1_2 U (Proc.devRef .tc main_v44) = (shapeCast S1x128 (U (Proc.devRef .tc main_arg3)) Facts₀.shapeCasts_S128_S1x128 : FVec Ideal S1x128 .f32) := by
  after_results <;> rfl
theorem s3_v45 : StableHlo.after hostOps1_2 U (Proc.devRef .tc main_v45) = (shapeCast S1x128 (U (Proc.devRef .tc main_arg4)) Facts₀.shapeCasts_S128_S1x128 : FVec Ideal S1x128 .f32) := by
  after_results <;> rfl
theorem s3_v46 : StableHlo.after hostOps1_2 U (Proc.devRef .tc main_v46) = (shapeCast S1x128 (U (Proc.devRef .tc main_arg5)) Facts₀.shapeCasts_S128_S1x128 : FVec Ideal S1x128 .f32) := by
  after_results <;> rfl

/-- The statistics stretch: the mean row. -/
theorem s4_v49 : StableHlo.after hostOps2 U (Proc.devRef .tc main_v49)
    = Host.divf (U (Proc.devRef .tc main_v47_0)) (broadcastInDim S1x128 ![] Facts₀.bcast_S_S1x128 (constant (F := Ideal) S_ .f32 0x47C35000#32)) := by
  after_results <;> rfl
/-- The statistics stretch: the variance row, mean of squares minus squared mean. -/
theorem s4_v53 : StableHlo.after hostOps2 U (Proc.devRef .tc main_v53)
    = subf (Host.divf (U (Proc.devRef .tc main_v47_1)) (broadcastInDim S1x128 ![] Facts₀.bcast_S_S1x128 (constant (F := Ideal) S_ .f32 0x47C35000#32)))
        (mulf (Host.divf (U (Proc.devRef .tc main_v47_0)) (broadcastInDim S1x128 ![] Facts₀.bcast_S_S1x128 (constant (F := Ideal) S_ .f32 0x47C35000#32)))
          (Host.divf (U (Proc.devRef .tc main_v47_0)) (broadcastInDim S1x128 ![] Facts₀.bcast_S_S1x128 (constant (F := Ideal) S_ .f32 0x47C35000#32)))) := by
  after_results <;> rfl
/-- The statistics stretch writes none of these. -/
theorem s4_v43 : StableHlo.after hostOps2 U (Proc.devRef .tc main_v43) = U (Proc.devRef .tc main_v43) := by after_results
theorem s4_v44 : StableHlo.after hostOps2 U (Proc.devRef .tc main_v44) = U (Proc.devRef .tc main_v44) := by after_results
theorem s4_v45 : StableHlo.after hostOps2 U (Proc.devRef .tc main_v45) = U (Proc.devRef .tc main_v45) := by after_results
theorem s4_v46 : StableHlo.after hostOps2 U (Proc.devRef .tc main_v46) = U (Proc.devRef .tc main_v46) := by after_results

end Stretch

/-! ## The walk, boundary by boundary -/

section Walk
variable (m : (ℓ : Loc nD τ sig) → Buf (Elt Ideal) ℓ) (ρ : Dev nD → PrngReg) (c : Dev nD)

/-- After region 0 its output array is what its write-backs leave. -/
theorem W1_v0 : W1 m ρ c (Proc.devRef .tc main_v0) = (dat0 (V0 m ρ) c).arrAt 2 cfg0.N := W1_arr m ρ c 2
/-- Region 0 touches none of these. -/
theorem W1_arg1 : W1 m ρ c (Proc.devRef .tc main_arg1) = m ((c : Thread nD τ).loc main_arg1) := W1_of_ne m ρ c main_arg1 (by decide)
theorem W1_arg3 : W1 m ρ c (Proc.devRef .tc main_arg3) = m ((c : Thread nD τ).loc main_arg3) := W1_of_ne m ρ c main_arg3 (by decide)
theorem W1_arg4 : W1 m ρ c (Proc.devRef .tc main_arg4) = m ((c : Thread nD τ).loc main_arg4) := W1_of_ne m ρ c main_arg4 (by decide)
theorem W1_arg5 : W1 m ρ c (Proc.devRef .tc main_arg5) = m ((c : Thread nD τ).loc main_arg5) := W1_of_ne m ρ c main_arg5 (by decide)

/-- At region 1's entry the aggregated features are the shared aggregation of region 0's output along the edge list. -/
theorem W4_v43 : W4 m ρ c (Proc.devRef .tc main_v43) = Cert.Agg.agg (W1 m ρ c (Proc.devRef .tc main_v0)) (m ((c : Thread nD τ).loc main_arg1)) := by
  show StableHlo.after hostOps1_2 (StableHlo.after hostOps1_1 (StableHlo.after hostOps1 (W1 m ρ c))) (Proc.devRef .tc main_v43) = _
  rw [s3_v43, s2_v15, s2_v4, s2_v7, s2_v0, s1_v4, s1_v7, s1_v13, s1_v14, s1_cst2, s1_v0, W1_arg1]
  rfl
/-- At region 1's entry each parameter vector is laid out as a 1 × 128 row. -/
theorem W4_v44 : W4 m ρ c (Proc.devRef .tc main_v44) = (shapeCast S1x128 (m ((c : Thread nD τ).loc main_arg3)) Facts₀.shapeCasts_S128_S1x128 : FVec Ideal S1x128 .f32) := by
  show StableHlo.after hostOps1_2 (StableHlo.after hostOps1_1 (StableHlo.after hostOps1 (W1 m ρ c))) (Proc.devRef .tc main_v44) = _
  rw [s3_v44, s2_arg3, s1_arg3, W1_arg3]
theorem W4_v45 : W4 m ρ c (Proc.devRef .tc main_v45) = (shapeCast S1x128 (m ((c : Thread nD τ).loc main_arg4)) Facts₀.shapeCasts_S128_S1x128 : FVec Ideal S1x128 .f32) := by
  show StableHlo.after hostOps1_2 (StableHlo.after hostOps1_1 (StableHlo.after hostOps1 (W1 m ρ c))) (Proc.devRef .tc main_v45) = _
  rw [s3_v45, s2_arg4, s1_arg4, W1_arg4]
theorem W4_v46 : W4 m ρ c (Proc.devRef .tc main_v46) = (shapeCast S1x128 (m ((c : Thread nD τ).loc main_arg5)) Facts₀.shapeCasts_S128_S1x128 : FVec Ideal S1x128 .f32) := by
  show StableHlo.after hostOps1_2 (StableHlo.after hostOps1_1 (StableHlo.after hostOps1 (W1 m ρ c))) (Proc.devRef .tc main_v46) = _
  rw [s3_v46, s2_arg5, s1_arg5, W1_arg5]

/-- After region 1 its two outputs are what its write-backs leave. -/
theorem W5_v47_0 : W5 m ρ c (Proc.devRef .tc main_v47_0) = (dat1 (V4 m ρ) c).arrAt 2 cfg1.N := W5_arr m ρ c 2
theorem W5_v47_1 : W5 m ρ c (Proc.devRef .tc main_v47_1) = (dat1 (V4 m ρ) c).arrAt 3 cfg1.N := W5_arr m ρ c 3
/-- Region 1 only reads its two input arrays. -/
theorem W5_v43 : W5 m ρ c (Proc.devRef .tc main_v43) = W4 m ρ c (Proc.devRef .tc main_v43) :=
  (W5_arr m ρ c 0).trans (((dat1 (V4 m ρ) c).arrAt_in 0 rfl _).trans (A_eq1 (V4 m ρ) c 0))
theorem W5_v44 : W5 m ρ c (Proc.devRef .tc main_v44) = W4 m ρ c (Proc.devRef .tc main_v44) :=
  (W5_arr m ρ c 1).trans (((dat1 (V4 m ρ) c).arrAt_in 1 rfl _).trans (A_eq1 (V4 m ρ) c 1))
/-- Region 1 touches neither of these. -/
theorem W5_v45 : W5 m ρ c (Proc.devRef .tc main_v45) = W4 m ρ c (Proc.devRef .tc main_v45) := W5_of_ne m ρ c main_v45 (by decide)
theorem W5_v46 : W5 m ρ c (Proc.devRef .tc main_v46) = W4 m ρ c (Proc.devRef .tc main_v46) := W5_of_ne m ρ c main_v46 (by decide)

/-- At region 2's entry: the mean row is the sums row divided by the number of rows. -/
theorem W6_v49 : W6 m ρ c (Proc.devRef .tc main_v49)
    = Host.divf ((dat1 (V4 m ρ) c).arrAt 2 cfg1.N) (broadcastInDim S1x128 ![] Facts₀.bcast_S_S1x128 (constant (F := Ideal) S_ .f32 0x47C35000#32)) := by
  show StableHlo.after hostOps2 (W5 m ρ c) (Proc.devRef .tc main_v49) = _
  rw [s4_v49, W5_v47_0]
/-- At region 2's entry: the variance row is the mean of the squares minus the squared mean. -/
theorem W6_v53 : W6 m ρ c (Proc.devRef .tc main_v53)
    = subf (Host.divf ((dat1 (V4 m ρ) c).arrAt 3 cfg1.N) (broadcastInDim S1x128 ![] Facts₀.bcast_S_S1x128 (constant (F := Ideal) S_ .f32 0x47C35000#32)))
        (mulf (Host.divf ((dat1 (V4 m ρ) c).arrAt 2 cfg1.N) (broadcastInDim S1x128 ![] Facts₀.bcast_S_S1x128 (constant (F := Ideal) S_ .f32 0x47C35000#32)))
          (Host.divf ((dat1 (V4 m ρ) c).arrAt 2 cfg1.N) (broadcastInDim S1x128 ![] Facts₀.bcast_S_S1x128 (constant (F := Ideal) S_ .f32 0x47C35000#32)))) := by
  show StableHlo.after hostOps2 (W5 m ρ c) (Proc.devRef .tc main_v53) = _
  rw [s4_v53, W5_v47_0, W5_v47_1]
/-- At region 2's entry the aggregated features and the three parameter rows are as region 1 found them. -/
theorem W6_v43 : W6 m ρ c (Proc.devRef .tc main_v43) = W4 m ρ c (Proc.devRef .tc main_v43) := by
  show StableHlo.after hostOps2 (W5 m ρ c) (Proc.devRef .tc main_v43) = _
  rw [s4_v43, W5_v43]
theorem W6_v44 : W6 m ρ c (Proc.devRef .tc main_v44) = W4 m ρ c (Proc.devRef .tc main_v44) := by
  show StableHlo.after hostOps2 (W5 m ρ c) (Proc.devRef .tc main_v44) = _
  rw [s4_v44, W5_v44]
theorem W6_v45 : W6 m ρ c (Proc.devRef .tc main_v45) = W4 m ρ c (Proc.devRef .tc main_v45) := by
  show StableHlo.after hostOps2 (W5 m ρ c) (Proc.devRef .tc main_v45) = _
  rw [s4_v45, W5_v45]
theorem W6_v46 : W6 m ρ c (Proc.devRef .tc main_v46) = W4 m ρ c (Proc.devRef .tc main_v46) := by
  show StableHlo.after hostOps2 (W5 m ρ c) (Proc.devRef .tc main_v46) = _
  rw [s4_v46, W5_v46]

/-- After region 2 the result array is what its write-backs leave. -/
theorem W7_v54 : W7 m ρ c (Proc.devRef .tc main_v54) = (dat2 (V6 m ρ) c).arrAt 6 cfg2.N := W7_arr m ρ c 6

end Walk

end Cert.KSide

end
-- ==== Proof.Spec.lean ====
/-
  What both programs compute, as functions of coordinates over the extended reals.

  A node feature matrix x (100000 × 128) is rectified and multiplied by a weight matrix W (128 × 128); the
  result is aggregated over a graph (the aggregation is one shared chain of host operations, treated elsewhere);
  a bias is added per column; each column is then normalised by its mean and variance over the 100000 rows, scaled
  and shifted. The two programs differ in how the variance of a column is obtained: from the centred values,
  (1/N) Σ_i (v_ij − μ_j)², or from the first two moments, (1/N) Σ_i v_ij² − μ_j². Both are stated here; that they
  agree on real-valued columns is proved in a module of its own.
-/
import Idealize.ShloMosaic.PureOps.Ideal
import Idealize.ShloMosaic.Lib.ValueIdx

noncomputable section

namespace Cert.Spec

open Idealize.ShloMosaic

/-- The number of rows as both programs write it: the binary32 word of 100000. -/
def nW : EReal := Ideal.ofBits .f32 0x47C35000#32

/-- The regulariser added to a variance before the inverse square root, as both programs write it. -/
def epsW : EReal := Ideal.ofBits .f32 0x3727C5AC#32

/-- Row i, column j of relu(x) · W: the sum over k of max(x_ik, 0) · W_kj. -/
def hid (x : Fin 100000 → Fin 128 → EReal) (W : Fin 128 → Fin 128 → EReal) (i : Fin 100000) (j : Fin 128) : EReal :=
  ∑ k : Fin 128, max (x i k) 0 * W k j

/-- The sum of column j over all rows. -/
def colSum (v : Fin 100000 → Fin 128 → EReal) (j : Fin 128) : EReal := ∑ i : Fin 100000, v i j

/-- The mean of column j. -/
def mean (v : Fin 100000 → Fin 128 → EReal) (j : Fin 128) : EReal := Ideal.div (colSum v j) nW

/-- The variance of column j from the centred values: (1/N) Σ_i (v_ij − μ_j)². -/
def varCentered (v : Fin 100000 → Fin 128 → EReal) (j : Fin 128) : EReal :=
  Ideal.div (∑ i : Fin 100000, (v i j - mean v j) * (v i j - mean v j)) nW

/-- The variance of column j from the first two moments: (1/N) Σ_i v_ij² − μ_j². -/
def varMoments (v : Fin 100000 → Fin 128 → EReal) (j : Fin 128) : EReal :=
  Ideal.div (∑ i : Fin 100000, v i j * v i j) nW - mean v j * mean v j

/-- The normalised, scaled and shifted entry: γ_j · (v_ij − μ_j) · (var_j + ε)^(−1/2) + β_j. -/
def normalized (var : Fin 128 → EReal) (v : Fin 100000 → Fin 128 → EReal) (g be : Fin 128 → EReal)
    (i : Fin 100000) (j : Fin 128) : EReal :=
  g j * (v i j - mean v j) * Ideal.rsqrt (var j + epsW) + be j

end Cert.Spec

end
-- ==== Proof.KSpec.lean ====
/-
  The three kernel regions' results as functions of their input arrays.

  Region 0 writes relu(x) · W; region 1 leaves, per column, the sum and the sum of squares of (aggregated features
  + bias) over all rows; region 2 writes γ · ((aggregated features + bias) − mean) · (variance + ε)^(−1/2) + β, the
  five 128-vectors laid out as 1 × 128 rows. Each is stated over whole arrays of declared shapes, so that an entry
  is an extended real whatever buffer the array is read from.
-/
import proofs.«159551_j41910290874470_1_alg».proof.KernelIdeal
import proofs.«159551_j41910290874470_1_alg».proof.Proof.Spec

noncomputable section

namespace Cert.KSide

open Idealize.ShloMosaic Idealize.ShloMosaic.ValueIdx Cert.KernelIdeal

/-- An entry of a 100000 × 128 array. -/
def atN (x : FVec Ideal S100000x128 .f32) (i : Fin 100000) (j : Fin 128) : EReal := x (ix2 i j)

/-- An entry of a 1 × 128 row. -/
def atRow (x : FVec Ideal S1x128 .f32) (j : Fin 128) : EReal := x (ix2 (0 : Fin 1) j)

/-- Region 0: row i, column j of relu(x) · W. -/
def hidOf (x : FVec Ideal S100000x128 .f32) (W : FVec Ideal S128x128 .f32) (i : Fin 100000) (j : Fin 128) : EReal :=
  Cert.Spec.hid (fun i k => x (ix2 i k)) (fun k j => W (ix2 k j)) i j

/-- Region 1, first output: the sum of column j of (a + bias row). -/
def sumOf (a : FVec Ideal S100000x128 .f32) (b : FVec Ideal S1x128 .f32) (j : Fin 128) : EReal :=
  ∑ i : Fin 100000, (a (ix2 i j) + b (ix2 (0 : Fin 1) j))

/-- Region 1, second output: the sum of the squares of column j of (a + bias row). -/
def sumsqOf (a : FVec Ideal S100000x128 .f32) (b : FVec Ideal S1x128 .f32) (j : Fin 128) : EReal :=
  ∑ i : Fin 100000, (a (ix2 i j) + b (ix2 (0 : Fin 1) j)) * (a (ix2 i j) + b (ix2 (0 : Fin 1) j))

/-- Region 2: the normalised, scaled and shifted entry (i, j). -/
def normOf (a : FVec Ideal S100000x128 .f32) (b mean var g be : FVec Ideal S1x128 .f32) (i : Fin 100000) (j : Fin 128) : EReal :=
  g (ix2 (0 : Fin 1) j) * ((a (ix2 i j) + b (ix2 (0 : Fin 1) j)) - mean (ix2 (0 : Fin 1) j))
    * Ideal.rsqrt (var (ix2 (0 : Fin 1) j) + Cert.Spec.epsW) + be (ix2 (0 : Fin 1) j)

end Cert.KSide

end
-- ==== Proof.KValue.lean ====
/-
  The idealized kernel program's result, entry by entry, in the shape of the specification.

  With v_ij = (aggregated features)_ij + bias_j, region 1 leaves S_j = Σ_i v_ij and Q_j = Σ_i v_ij², the host
  forms μ_j = S_j / N and the variance Q_j / N − μ_j², and region 2 writes γ_j · (v_ij − μ_j) · (var_j + ε)^(−1/2) + β_j.
  Each region's array is taken here as a hypothesis in exactly the form its own module proves; this module only
  chains them through the boundaries' contents and reads the small host operations at an index.
-/
import proofs.«159551_j41910290874470_1_alg».proof.Proof.KFold
import proofs.«159551_j41910290874470_1_alg».proof.Proof.KSpec
import Idealize.ShloMosaic.Lib.IdealHost
import Idealize.ShloMosaic.Lib.ValueLayout

set_option maxRecDepth 16384

noncomputable section

namespace Cert.KSide

open Idealize.ShloMosaic Idealize.ShloMosaic.TcCoe Idealize.SL.Sem Idealize.ShloMosaic.ValueIdx
open Cert.KernelIdeal Cert.KernelIdeal.Gen

/-- An entry of a 128-vector. -/
def atVec (x : FVec Ideal S128 .f32) (j : Fin 128) : EReal := x (ix1 j)

variable (m : (ℓ : Loc nD τ sig) → Buf (Elt Ideal) ℓ) (ρ : Dev nD → PrngReg) (c : Dev nD)

/-- Region 0's output array: the hidden features the kernel program computes. -/
def hidK : FVec Ideal S100000x128 .f32 := W1 m ρ c (Proc.devRef .tc main_v0)

/-- The matrix whose columns are normalised: aggregated features plus bias. -/
def biasedK : Fin 100000 → Fin 128 → EReal := fun i j =>
  atN (Cert.Agg.agg (hidK m ρ c) (m ((c : Thread nD τ).loc main_arg1))) i j + atVec (m ((c : Thread nD τ).loc main_arg3)) j

/-- A parameter vector laid out as a 1 × 128 row reads the vector. -/
theorem row_apply (v : FVec Ideal S128 .f32) (u : Fin 1) (j : Fin 128) :
    (shapeCast S1x128 v Facts₀.shapeCasts_S128_S1x128 : FVec Ideal S1x128 .f32) (ix2 u j) = v (ix1 j) :=
  shapeCast_a_1a_apply v _ u j

/-- The row-count word broadcast to a 1 × 128 row reads the word. -/
theorem nrow_apply (u : Fin 1) (j : Fin 128) :
    ((broadcastInDim S1x128 ![] Facts₀.bcast_S_S1x128 (constant (F := Ideal) S_ .f32 0x47C35000#32)) : FVec Ideal S1x128 .f32) (ix2 u j) = Cert.Spec.nW :=
  broadcastInDim_scalar_apply _ _ _

/-- The kernel program's result at (i, j), given each region's array in the form its module proves. -/
theorem kernel_value
    (h1s : ∀ j : Fin 128, atRow ((dat1 (F := Ideal) (V4 m ρ) c).arrAt 2 cfg1.N) j = sumOf (V4 m ρ c main_v43) (V4 m ρ c main_v44) j)
    (h1q : ∀ j : Fin 128, atRow ((dat1 (F := Ideal) (V4 m ρ) c).arrAt 3 cfg1.N) j = sumsqOf (V4 m ρ c main_v43) (V4 m ρ c main_v44) j)
    (h2 : ∀ (i : Fin 100000) (j : Fin 128), atN ((dat2 (F := Ideal) (V6 m ρ) c).arrAt 6 cfg2.N) i j
      = normOf (V6 m ρ c main_v43) (V6 m ρ c main_v44) (V6 m ρ c main_v49) (V6 m ρ c main_v53) (V6 m ρ c main_v45) (V6 m ρ c main_v46) i j)
    (i : Fin 100000) (j : Fin 128) :
    atN (W7 m ρ c (Proc.devRef .tc main_v54)) i j
      = Cert.Spec.normalized (Cert.Spec.varMoments (biasedK m ρ c)) (biasedK m ρ c)
          (atVec (m ((c : Thread nD τ).loc main_arg4))) (atVec (m ((c : Thread nD τ).loc main_arg5))) i j := by
  -- the arrays regions 1 and 2 take, read back to the launch memory
  have b43 : V4 m ρ c main_v43 = Cert.Agg.agg (hidK m ρ c) (m ((c : Thread nD τ).loc main_arg1)) := W4_v43 m ρ c
  have b44 : V4 m ρ c main_v44 = (shapeCast S1x128 (m ((c : Thread nD τ).loc main_arg3)) Facts₀.shapeCasts_S128_S1x128 : FVec Ideal S1x128 .f32) := W4_v44 m ρ c
  have a43 : V6 m ρ c main_v43 = Cert.Agg.agg (hidK m ρ c) (m ((c : Thread nD τ).loc main_arg1)) := (W6_v43 m ρ c).trans (W4_v43 m ρ c)
  have a44 : V6 m ρ c main_v44 = (shapeCast S1x128 (m ((c : Thread nD τ).loc main_arg3)) Facts₀.shapeCasts_S128_S1x128 : FVec Ideal S1x128 .f32) := (W6_v44 m ρ c).trans (W4_v44 m ρ c)
  have a45 : V6 m ρ c main_v45 = (shapeCast S1x128 (m ((c : Thread nD τ).loc main_arg4)) Facts₀.shapeCasts_S128_S1x128 : FVec Ideal S1x128 .f32) := (W6_v45 m ρ c).trans (W4_v45 m ρ c)
  have a46 : V6 m ρ c main_v46 = (shapeCast S1x128 (m ((c : Thread nD τ).loc main_arg5)) Facts₀.shapeCasts_S128_S1x128 : FVec Ideal S1x128 .f32) := (W6_v46 m ρ c).trans (W4_v46 m ρ c)
  have a49 : V6 m ρ c main_v49 = Host.divf ((dat1 (V4 m ρ) c).arrAt 2 cfg1.N) (broadcastInDim S1x128 ![] Facts₀.bcast_S_S1x128 (constant (F := Ideal) S_ .f32 0x47C35000#32)) := W6_v49 m ρ c
  have a53 : V6 m ρ c main_v53 = subf (Host.divf ((dat1 (V4 m ρ) c).arrAt 3 cfg1.N) (broadcastInDim S1x128 ![] Facts₀.bcast_S_S1x128 (constant (F := Ideal) S_ .f32 0x47C35000#32)))
      (mulf (Host.divf ((dat1 (V4 m ρ) c).arrAt 2 cfg1.N) (broadcastInDim S1x128 ![] Facts₀.bcast_S_S1x128 (constant (F := Ideal) S_ .f32 0x47C35000#32))) (Host.divf ((dat1 (V4 m ρ) c).arrAt 2 cfg1.N) (broadcastInDim S1x128 ![] Facts₀.bcast_S_S1x128 (constant (F := Ideal) S_ .f32 0x47C35000#32)))) := W6_v53 m ρ c
  -- the two rows region 1 leaves, as column sums of the biased matrix
  have hS : ∀ j : Fin 128, atRow ((dat1 (F := Ideal) (V4 m ρ) c).arrAt 2 cfg1.N) j = Cert.Spec.colSum (biasedK m ρ c) j := by
    intro j; rw [h1s j, b43, b44]; unfold sumOf Cert.Spec.colSum biasedK atN atVec
    exact Finset.sum_congr rfl fun i _ => by rw [row_apply]
  have hQ : ∀ j : Fin 128, atRow ((dat1 (F := Ideal) (V4 m ρ) c).arrAt 3 cfg1.N) j = ∑ i : Fin 100000, biasedK m ρ c i j * biasedK m ρ c i j := by
    intro j; rw [h1q j, b43, b44]; unfold sumsqOf biasedK atN atVec
    exact Finset.sum_congr rfl fun i _ => by rw [row_apply]
  rw [W7_v54, h2 i j, a43, a44, a45, a46, a49, a53]
  unfold normOf
  simp only [subf_apply, mulf_apply, hostDivf_apply, row_apply, nrow_apply]
  have hS' := hS j
  have hQ' := hQ j
  unfold atRow at hS' hQ'
  rw [hS', hQ']
  rfl

end Cert.KSide

end
-- ==== Proof.LibDot.lean ====
/-
  A matrix product with one contracted axis, read at an entry: the sum over the contraction index of a
  dimension-numbers record is the sum over `k : Fin K` of row entry `(r, k)` times column entry `(k, c)`,
  for rank-two operands [M, K] × [K, N] → [M, N] whose record contracts axis 1 of the left operand with
  axis 0 of the right one. The four coordinate facts about the record's operand indices are hypotheses; for a
  record with literal dimension lists each is `fun _ _ => rfl` or the library's single-axis lemma. The kernel's
  product into a zero accumulator (`matmul_ix2`) and the host's product (`dotGeneral_ix2`) are both that sum.
-/
import Mathlib
import Idealize.ShloMosaic.Lib.ValueIdx
import Idealize.ShloMosaic.PureOps.Ideal.Laws

namespace Cert.LibDot

open Idealize.ShloMosaic Idealize.ShloMosaic.ValueIdx

/-- The coordinate facts of a plain rows-by-columns product's dimension numbers. -/
structure Plain {M K N : Nat} (d : DotDims ⟨2, ![M, K]⟩ ⟨2, ![K, N]⟩ ⟨2, ![M, N]⟩) : Prop where
  hrank : d.contr.rank = 1
  hs : d.contr.size ⟨0, by omega⟩ = K
  hl0 : ∀ j k, (d.lhsIdx j k 0).val = (j 0).val
  hl1 : ∀ j k, (d.lhsIdx j k 1).val = (k ⟨0, by omega⟩).val
  hr0 : ∀ j k, (d.rhsIdx j k 0).val = (k ⟨0, by omega⟩).val
  hr1 : ∀ j k, (d.rhsIdx j k 1).val = (j 1).val

theorem dot_sum {M K N : Nat} {d : DotDims ⟨2, ![M, K]⟩ ⟨2, ![K, N]⟩ ⟨2, ![M, N]⟩} (hd : Plain d)
    (lhs : (⟨2, ![M, K]⟩ : Shape).Idx → EReal) (rhs : (⟨2, ![K, N]⟩ : Shape).Idx → EReal)
    (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K hd.hrank hd.hs).symm]
  refine Finset.sum_congr rfl fun k _ => ?_
  have e := contrEquiv1_symm_val d K hd.hrank hd.hs k
  have el : d.lhsIdx (ix2 r c) ((contrEquiv1 d K hd.hrank hd.hs).symm k) = ix2 r k := by
    funext a; apply Fin.ext
    match a with
    | ⟨0, _⟩ => exact hd.hl0 _ _
    | ⟨1, _⟩ => exact (hd.hl1 _ _).trans e
  have er : d.rhsIdx (ix2 r c) ((contrEquiv1 d K hd.hrank hd.hs).symm k) = ix2 k c := by
    funext a; apply Fin.ext
    match a with
    | ⟨0, _⟩ => exact (hd.hr0 _ _).trans e
    | ⟨1, _⟩ => exact hd.hr1 _ _
  rw [el, er]

/-- The kernel's matrix product into a zero accumulator, at entry (r, c). -/
theorem matmul_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    matmul d prec a b (constant ⟨2, ![M, N]⟩ .f32 0x00000000#32) (ix2 r c) = ∑ k : Fin K, a (ix2 r k) * b (ix2 k c) :=
  (Ideal.matmul_constant_zero_apply d prec a b (ix2 r c)).trans (dot_sum hd a b r c)

/-- The host's matrix product, at entry (r, c). -/
theorem dotGeneral_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    Host.dotGeneral d prec a b (ix2 r c) = ∑ k : Fin K, a (ix2 r k) * b (ix2 k c) :=
  (Ideal.dotGeneral_apply d prec _ a b (ix2 r c)).trans (dot_sum hd a b r c)

end Cert.LibDot
-- ==== Proof.KRegion0.lean ====
/-
  The rectify-and-multiply region, read as one function of its index.

  The region walks twenty row blocks of 5000 rows of a 100000 × 128 input; the 128 × 128 weight matrix is the same at
  every block. At each block the body replaces every entry by its maximum with zero and multiplies the block by the
  weights into a zero accumulator, so the body's result at row p, column q of block t is the sum over k of
  max(x, 0) at row 5000·t + p, column k, times the weight (k, q). Since the twenty blocks tile the array, the array
  the region leaves is that sum at every index.
-/
import proofs.«159551_j41910290874470_1_alg».proof.Proof.Gen.KernelIdeal.Frame
import proofs.«159551_j41910290874470_1_alg».proof.Proof.Spec
import Idealize.ShloMosaic.Lib.Pipeline.Value
import Idealize.ShloMosaic.Lib.ValueIdx
import Idealize.ShloMosaic.PureOps.Ideal.Laws
import proofs.«159551_j41910290874470_1_alg».proof.Proof.LibDot
import proofs.«159551_j41910290874470_1_alg».proof.Proof.KSpec

noncomputable section

namespace Cert.KSide

open Idealize.ShloMosaic Idealize.ShloMosaic.ValueIdx Idealize.ShloMosaic.TcCoe Idealize.SL.Sem
open Idealize.ShloMosaic.Pipeline (Dat)
open Cert.KernelIdeal Cert.KernelIdeal.Gen

/-- The product's dimension numbers contract column k of the left operand with row k of the right one and keep the
    left operand's row and the right operand's column. -/
theorem hid_dims_plain [Cert.KernelIdeal.Facts] :
    Cert.LibDot.Plain (M := 5000) (K := 128) (N := 128) dot_S5000x128_S128x128_S5000x128_1_0_0_1_n_n where
  hrank := rfl
  hs := rfl
  hl0 := fun _ _ => rfl
  hl1 := fun j k => DotDims.lhsIdx_val_of_single _ rfl j k
  hr0 := fun j k => DotDims.rhsIdx_val_of_single _ rfl j k
  hr1 := fun _ _ => rfl

/-- The body's arithmetic at row p, column q of a block: the sum over k of the rectified entry (p, k) times the
    weight (k, q). -/
theorem hid_payload_apply [Cert.KernelIdeal.Facts] (x0 : Vec Ideal S5000x128 .f32) (x1 : Vec Ideal S128x128 .f32)
    (p : Fin 5000) (q : Fin 128) :
    k0_pay1 x0 x1 (ix2 p q) = ∑ k : Fin 128, max (x0 (ix2 p k)) 0 * x1 (ix2 k q) := by
  unfold k0_pay1
  refine (Cert.LibDot.matmul_ix2 hid_dims_plain none _ _ p q).trans ?_
  refine Finset.sum_congr rfl fun k _ => ?_
  simp only [truncf_apply, maximumf_apply, broadcast_apply]
  show max (x0 (ix2 p k)) (Ideal.ofBits .f32 0x00000000#32) * x1 (ix2 k q) = _
  rw [Ideal.ofBits_zero_f32]

variable (V : (c : Dev nD) → (b : Ref sig .tc) → Buf (Elt Ideal) ((c : Thread nD τ).loc b))

/-- The offset (0, 0), as the constant zero function. -/
theorem hid_hz : (![0, 0] : Fin 2 → Nat) = fun _ => 0 := funext fun a => by fin_cases a <;> rfl

/-- The windows' block indices at each of the twenty grid points: the input rows and the output rows sit at block
    (t, 0), the weights at block (0, 0). -/
theorem hid_index_facts : ∀ t : Fin cfg0.N,
    win0_0.index t (0 : Fin 2) = t.val ∧ win0_0.index t (1 : Fin 2) = 0
    ∧ win0_2.index t (0 : Fin 2) = t.val ∧ win0_2.index t (1 : Fin 2) = 0
    ∧ win0_1.index t (0 : Fin 2) = 0 ∧ win0_1.index t (1 : Fin 2) = 0 :=
  (by decide +kernel : ∀ t : Fin grid0.N, _)

/-- Row p, column k of the input's block at point t is row 5000·t + p of the input. -/
theorem x_block_apply (c : Dev nD) (t : Fin cfg0.N) (p : Fin 5000) (k : Fin 128) (r : Fin 100000)
    (hr : r.val = t.val * 5000 + p.val) :
    (iblk0 V c 0 t : Vec Ideal S5000x128 .f32) (ix2 p k) = (V c main_arg0 : S100000x128.Idx → EReal) (ix2 r k) := by
  obtain ⟨e0, e1, -⟩ := hid_index_facts t
  unfold iblk0
  rw [View.read_apply]
  show V c main_arg0 _ = V c main_arg0 _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- The weight window's block at every point is the whole weight matrix. -/
theorem w_block_apply (c : Dev nD) (t : Fin cfg0.N) (k q : Fin 128) :
    (iblk0 V c 1 t : Vec Ideal S128x128 .f32) (ix2 k q) = (V c main_arg2 : S128x128.Idx → EReal) (ix2 k q) := by
  have e := hid_index_facts t
  unfold iblk0
  rw [View.read_apply]
  show V c main_arg2 _ = V c main_arg2 _
  congr 1
  funext a
  apply Fin.ext
  match a with
  | ⟨0, _⟩ => show win0_1.index t (0 : Fin 2) * 128 + 1 * k.val = k.val; omega
  | ⟨1, _⟩ => show win0_1.index t (1 : Fin 2) * 128 + 1 * q.val = q.val; omega

/-- Entry (i, j) of what the region writes, in terms of the arrays it finds: row i of the rectified input times
    column j of the weights. -/
def hidEntry (c : Dev nD) (i : Fin 100000) (j : Fin 128) : EReal :=
  Cert.Spec.hid (fun i k => V c main_arg0 (ix2 i k)) (fun k j => V c main_arg2 (ix2 k j)) i j

/-- The whole output array as one function of its index. -/
def hidArr (c : Dev nD) : S100000x128.Idx → EReal :=
  fun idx => hidEntry V c ⟨(idx 0).val, idx2_lt0 idx⟩ ⟨(idx 1).val, idx2_lt1 idx⟩

/-- What point t writes back is block t of that one function: rows 5000·t … 5000·t + 4999. -/
theorem hid_flushed_eq [Cert.KernelIdeal.Facts] (c : Dev nD) (t : Fin cfg0.N) :
    (dat0 (F := Ideal) V c).flushed 2 t = ((cfg0.win 2).blk t).view.read (Elt Ideal) (hidArr V c) := by
  show (cfg0.win 2).cut (grid0.coords t) ((dat0 V c).after 2 t) = _
  rw [after0_2]
  unfold out0_2
  rw [View.canon_unit_zero hid_hz]
  simp only [View.ld_unit_zero (S := S5000x128) hid_hz, View.ld_unit_zero (S := S128x128) hid_hz]
  funext y
  have hy0 : (y (0 : Fin 2)).val < 5000 := (y (0 : Fin 2)).isLt
  have hy1 : (y (1 : Fin 2)).val < 128 := (y (1 : Fin 2)).isLt
  have hN : t.val < 20 := by have h1 := t.isLt; have h2 : cfg0.N = 20 := N_0; omega
  obtain ⟨-, -, e0, e1, -⟩ := hid_index_facts t
  have hx : (cfg0.win 2).xinj (grid0.coords t) y = ix2 (⟨(y (0 : Fin 2)).val, hy0⟩ : Fin 5000) (⟨(y (1 : Fin 2)).val, hy1⟩ : Fin 128) := by
    funext a; match a with | ⟨0, _⟩ => rfl | ⟨1, _⟩ => rfl
  refine (congrArg (k0_pay1 (iblk0 V c 0 t) (iblk0 V c 1 t)) hx).trans ?_
  refine (hid_payload_apply (iblk0 V c 0 t) (iblk0 V c 1 t) ⟨(y (0 : Fin 2)).val, hy0⟩ ⟨(y (1 : Fin 2)).val, hy1⟩).trans ?_
  have hr : (⟨((((cfg0.win 2).blk t).view.emb y) (0 : Fin 2)).val, idx2_lt0 _⟩ : Fin 100000) = ⟨t.val * 5000 + (y (0 : Fin 2)).val, by omega⟩ :=
    Fin.ext (by show win0_2.index t (0 : Fin 2) * 5000 + 1 * (y (0 : Fin 2)).val = t.val * 5000 + (y (0 : Fin 2)).val; rw [e0]; omega)
  have hq : (⟨((((cfg0.win 2).blk t).view.emb y) (1 : Fin 2)).val, idx2_lt1 _⟩ : Fin 128) = ⟨(y (1 : Fin 2)).val, hy1⟩ :=
    Fin.ext (by show win0_2.index t (1 : Fin 2) * 128 + 1 * (y (1 : Fin 2)).val = (y (1 : Fin 2)).val; rw [e1]; omega)
  show _ = hidEntry V c ⟨((((cfg0.win 2).blk t).view.emb y) (0 : Fin 2)).val, idx2_lt0 _⟩ ⟨((((cfg0.win 2).blk t).view.emb y) (1 : Fin 2)).val, idx2_lt1 _⟩
  rw [hr, hq]
  unfold hidEntry Cert.Spec.hid
  refine Finset.sum_congr rfl fun k _ => ?_
  rw [x_block_apply V c t ⟨(y (0 : Fin 2)).val, hy0⟩ k ⟨t.val * 5000 + (y (0 : Fin 2)).val, by omega⟩ rfl,
    w_block_apply V c t k ⟨(y (1 : Fin 2)).val, hy1⟩]

/-- An index of the array is in point t's block iff each coordinate is in the block's range on its axis. -/
theorem hid_mem_blk (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v0).slice (win0_2.rect t)).set ↔ _
  rw [View.set_slice_whole, Rect.mem_set_unit]
  exact Iff.rfl

/-- Every index of the array is in some point's block: row r is in the block of point r / 5000. -/
theorem hid_cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by omega⟩, rfl⟩
  obtain ⟨-, -, e0, e1, -⟩ := hid_index_facts t
  refine ⟨t, flush0_2 t, ?_⟩
  rw [hid_mem_blk]
  intro a
  match a with
  | ⟨0, _⟩ =>
    show win0_2.index t (0 : Fin 2) * 5000 ≤ (i 0).val ∧ (i 0).val < win0_2.index t (0 : Fin 2) * 5000 + 5000
    rw [e0, ht]; omega
  | ⟨1, _⟩ =>
    show win0_2.index t (1 : Fin 2) * 128 ≤ (i 1).val ∧ (i 1).val < win0_2.index t (1 : Fin 2) * 128 + 128
    rw [e1]; omega

/-- The array after the region: the one function, everywhere. -/
theorem hid_final [Cert.KernelIdeal.Facts] (c : Dev nD) : (dat0 (F := Ideal) V c).arrAt 2 cfg0.N = hidArr V c :=
  (dat0 V c).arrAt_eq_of_cover 2 (hidArr V c) (fun t _ => hid_flushed_eq V c t) hid_cover

/-- Entry (i, j) of the region's output array: row i of the rectified input the region finds times column j of the
    weights it finds. -/
theorem region0_value [Cert.KernelIdeal.Facts] (c : Dev nD) (i : Fin 100000) (j : Fin 128) :
    atN ((Gen.dat0 (F := Ideal) V c).arrAt 2 cfg0.N) i j = hidOf (V c main_arg0) (V c main_arg2) i j := by
  unfold atN hidOf
  refine (congrFun (hid_final V c) (ix2 i j)).trans ?_
  unfold hidArr hidEntry
  rfl

end Cert.KSide

end
-- ==== Proof.KRegion1a.lean ====
/-
  The accumulating region's body, case by case, as pure terms.

  The region keeps two 1×128 buffers (column sums and column sums of squares). At the first grid point the body
  stores a zero block into each, reads it back, and adds the block's contribution; at every later point it adds the
  block's contribution to what the buffer held. Each case's stores cover the buffer with ONE final store, so what the
  case leaves is that store's payload, its loads reading the whole staging buffers.
-/
import proofs.«159551_j41910290874470_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KSide.R1

open Cert.KernelIdeal Cert.KernelIdeal.Gen

variable {F : FTy → Type} [FloatOps F]

/-- The zero offsets of a rank-2 access, as the constant-zero function. -/
theorem hz2 : (![0, 0] : Fin 2 → Nat) = fun _ => 0 := funext fun a => by fin_cases a <;> rfl

/-- At a point after the first, the sums' buffer, holding `xo2`, is left at the running sums plus this block's
    column sums: the one covering store's payload, its loads reading the whole buffers. -/
theorem out_B_2 [Cert.KernelIdeal.Facts] (c : Dev nD) (i : grid1.Coords)
    (a1 : Memref sig .tc .vmem S5000x128 .f32) (h1 : a1.IsWhole) (a2 : Memref sig .tc .vmem S1x128 .f32) (h2 : a2.IsWhole)
    (a3 : Memref sig .tc .vmem S1x128 .f32) (h3 : a3.IsWhole) (a4 : Memref sig .tc .vmem S1x128 .f32) (h4 : a4.IsWhole)
    (hc : ¬cond1_0 i) (x0 : Vec F S5000x128 .f32) (x1 xo2 xo3 : Vec F S1x128 .f32) :
    out1_B_2 c i a1 h1 a2 h2 a3 h3 a4 h4 hc x0 x1 xo2 xo3 = k1_pay4 x0 x1 xo2 := by
  unfold out1_B_2
  rw [View.read_writes_eq_canon _ _ _ (cover1_B_2 c i a1 h1 a2 h2 a3 h3 a4 h4 hc x0 x1 xo2 xo3)]
  unfold kernelRun1_B
  dsimp only
  sl_unfold_words
  rw [View.canon_unit_zero hz2]
  simp only [View.readAt_eq_ld, h1.read_unread, h2.read_unread, h3.read_unread,
    View.ld_unit_zero (S := S5000x128) hz2, View.ld_unit_zero (S := S1x128) hz2]

/-- At a point after the first, the sums of squares' buffer, holding `xo3`, likewise. -/
theorem out_B_3 [Cert.KernelIdeal.Facts] (c : Dev nD) (i : grid1.Coords)
    (a1 : Memref sig .tc .vmem S5000x128 .f32) (h1 : a1.IsWhole) (a2 : Memref sig .tc .vmem S1x128 .f32) (h2 : a2.IsWhole)
    (a3 : Memref sig .tc .vmem S1x128 .f32) (h3 : a3.IsWhole) (a4 : Memref sig .tc .vmem S1x128 .f32) (h4 : a4.IsWhole)
    (hc : ¬cond1_0 i) (x0 : Vec F S5000x128 .f32) (x1 xo2 xo3 : Vec F S1x128 .f32) :
    out1_B_3 c i a1 h1 a2 h2 a3 h3 a4 h4 hc x0 x1 xo2 xo3 = k1_pay5 x0 x1 xo3 := by
  unfold out1_B_3
  rw [View.read_writes_eq_canon _ _ _ (cover1_B_3 c i a1 h1 a2 h2 a3 h3 a4 h4 hc x0 x1 xo2 xo3)]
  unfold kernelRun1_B
  dsimp only
  sl_unfold_words
  rw [View.canon_unit_zero hz2]
  simp only [View.readAt_eq_ld, h1.read_unread, h2.read_unread, h4.read_unread,
    View.ld_unit_zero (S := S5000x128) hz2, View.ld_unit_zero (S := S1x128) hz2]

/-- At the first point the sums' buffer is zeroed, read back, and left at zero plus this block's column sums. -/
theorem out_A_2 [Cert.KernelIdeal.Facts] (c : Dev nD) (i : grid1.Coords)
    (a1 : Memref sig .tc .vmem S5000x128 .f32) (h1 : a1.IsWhole) (a2 : Memref sig .tc .vmem S1x128 .f32) (h2 : a2.IsWhole)
    (a3 : Memref sig .tc .vmem S1x128 .f32) (h3 : a3.IsWhole) (a4 : Memref sig .tc .vmem S1x128 .f32) (h4 : a4.IsWhole)
    (hc : cond1_0 i) (x0 : Vec F S5000x128 .f32) (x1 : Vec F S1x128 .f32) :
    out1_A_2 c i a1 h1 a2 h2 a3 h3 a4 h4 hc x0 x1 = k1_pay4 x0 x1 (k1_pay1 (F := F)) := by
  unfold out1_A_2
  rw [View.read_writes_eq_canon _ _ _ (cover1_A_2 c i a1 h1 a2 h2 a3 h3 a4 h4 hc x0 x1)]
  unfold kernelRun1_A
  dsimp only
  sl_unfold_words
  rw [View.canon_cons_unit_zero (S := S1x128) hz2, View.readCov_unit_zero (S := S1x128) _ hz2]
  simp only [View.readAt_eq_ld, h1.read_unread, h2.read_unread,
    View.ld_unit_zero (S := S5000x128) hz2, View.ld_unit_zero (S := S1x128) hz2]

/-- At the first point the sums of squares' buffer likewise. -/
theorem out_A_3 [Cert.KernelIdeal.Facts] (c : Dev nD) (i : grid1.Coords)
    (a1 : Memref sig .tc .vmem S5000x128 .f32) (h1 : a1.IsWhole) (a2 : Memref sig .tc .vmem S1x128 .f32) (h2 : a2.IsWhole)
    (a3 : Memref sig .tc .vmem S1x128 .f32) (h3 : a3.IsWhole) (a4 : Memref sig .tc .vmem S1x128 .f32) (h4 : a4.IsWhole)
    (hc : cond1_0 i) (x0 : Vec F S5000x128 .f32) (x1 : Vec F S1x128 .f32) :
    out1_A_3 c i a1 h1 a2 h2 a3 h3 a4 h4 hc x0 x1 = k1_pay5 x0 x1 (k1_pay2 (F := F)) := by
  unfold out1_A_3
  rw [View.read_writes_eq_canon _ _ _ (cover1_A_3 c i a1 h1 a2 h2 a3 h3 a4 h4 hc x0 x1)]
  unfold kernelRun1_A
  dsimp only
  sl_unfold_words
  rw [View.canon_cons_unit_zero (S := S1x128) hz2, View.readCov_unit_zero (S := S1x128) _ hz2]
  simp only [View.readAt_eq_ld, h1.read_unread, h2.read_unread,
    View.ld_unit_zero (S := S5000x128) hz2, View.ld_unit_zero (S := S1x128) hz2]

end Cert.KSide.R1
-- ==== Proof.LibRowSum.lean ====
/-
  Indices named by their coordinates, and a sum along the second axis of a matrix read at a row.

  An index of a rank-1 or rank-2 shape is determined by its coordinates' values, whatever term spells it (a composed
  index map of a broadcast, a lifted index of a reduction, a block's embedded index).  A lane reduction
  `multi_reduction <add>` of an [a, K] array along its second axis, from the zero word, read at row r over the
  extended reals, is the sum over k of the entries (r, k).
-/
import Idealize.ShloMosaic.PureOps.Ideal.Laws
import Idealize.ShloMosaic.Lib.ValueIdx

namespace Idealize.ShloMosaic.ValueIdx

open Idealize.ShloMosaic

/-- An index of a rank-2 shape is the one with the same two coordinates. -/
theorem idx2_ext {n0 n1 : Nat} (j : (⟨2, ![n0, n1]⟩ : Shape).Idx) (a : Fin n0) (b : Fin n1)
    (h0 : (j 0).val = a.val) (h1 : (j 1).val = b.val) : j = ix2 a b :=
  funext fun d => Fin.ext (by match d with | ⟨0, _⟩ => exact h0 | ⟨1, _⟩ => exact h1)

/-- An index of a rank-1 shape is the one with the same coordinate. -/
theorem idx1_ext {n : Nat} (j : (⟨1, ![n]⟩ : Shape).Idx) (a : Fin n) (h0 : (j 0).val = a.val) : j = ix1 a :=
  funext fun d => Fin.ext (by match d with | ⟨0, _⟩ => exact h0)

/-- A sum along the second axis of an [a, K] array, from the zero word, read at row `r`: `∑ k, src (r, k)`. The shape
    fact, the format fact and the accumulator's neutrality are whatever proofs the printed operation carries. -/
theorem multiReduction_add_rows_apply {a K : ℕ} (src : FVec Ideal ⟨2, ![a, K]⟩ .f32)
    (hr : (⟨2, ![a, K]⟩ : Shape).Reduces [1] ⟨1, ![a]⟩) (hφ : FKind.Formats .f32)
    (hacc : (0x00000000#32 : BitVec 32) = FKind.add.neutral .f32 hφ) (r : Fin a) :
    multiReduction .add [1] ⟨1, ![a]⟩ src 0x00000000#32 hr hφ hacc (ix1 r) = ∑ k : Fin K, src (ix2 r k) :=
  (Ideal.multiReduction_add_single src _ hr hφ hacc (ix1 r)).trans
    (Finset.sum_congr rfl fun k _ => congrArg src (idx2_ext _ r k rfl rfl))

end Idealize.ShloMosaic.ValueIdx
-- ==== Proof.LibColSum.lean ====
/-
  A sum along the FIRST axis of a matrix read at a column.

  A sublane reduction `multi_reduction <add>` of a [K, b] array along its first axis, from the zero word, read at
  column j over the extended reals, is the sum over k of the entries (k, j).
-/
import proofs.«159551_j41910290874470_1_alg».proof.Proof.LibRowSum

namespace Idealize.ShloMosaic.ValueIdx

open Idealize.ShloMosaic

/-- A sum along the first axis of a [K, b] array, from the zero word, read at column `j`: `∑ k, src (k, j)`. The shape
    fact, the format fact and the accumulator's neutrality are whatever proofs the printed operation carries. -/
theorem multiReduction_add_cols_apply {K b : ℕ} (src : FVec Ideal ⟨2, ![K, b]⟩ .f32)
    (hr : (⟨2, ![K, b]⟩ : Shape).Reduces [0] ⟨1, ![b]⟩) (hφ : FKind.Formats .f32)
    (hacc : (0x00000000#32 : BitVec 32) = FKind.add.neutral .f32 hφ) (j : Fin b) :
    multiReduction .add [0] ⟨1, ![b]⟩ src 0x00000000#32 hr hφ hacc (ix1 j) = ∑ k : Fin K, src (ix2 k j) :=
  (Ideal.multiReduction_add_single src _ hr hφ hacc (ix1 j)).trans
    (Finset.sum_congr rfl fun k _ => congrArg src (idx2_ext _ k j rfl rfl))

end Idealize.ShloMosaic.ValueIdx
-- ==== Proof.KRegion1b.lean ====
/-
  The accumulating region's arithmetic read at an index, over the extended reals.

  With `a` the 5000×128 block of the first operand and `b` the 1×128 row of the second, the body forms
  `v (p, q) = a (p, q) + b (0, q)`, and adds to the running sums at column `q` the column sum `∑ p, v (p, q)`, to the
  running sums of squares `∑ p, v (p, q) * v (p, q)`. The zero block read at any index is `0`.
-/
import proofs.«159551_j41910290874470_1_alg».proof.Proof.Gen.KernelIdeal.Skeleton
import proofs.«159551_j41910290874470_1_alg».proof.Proof.LibColSum
import Idealize.ShloMosaic.Lib.ValueLayout

noncomputable section

open Idealize.ShloMosaic Idealize.ShloMosaic.ValueIdx

namespace Cert.KSide.R1

open Cert.KernelIdeal Cert.KernelIdeal.Gen

/-- The zero block of the sums, read at an index, is `0`. -/
theorem pay1_apply [Cert.KernelIdeal.Facts] (u : Fin 1) (q : Fin 128) : k1_pay1 (F := Ideal) (ix2 u q) = 0 :=
  Ideal.ofBits_zero_f32

/-- The zero block of the sums of squares, read at an index, is `0`. -/
theorem pay2_apply [Cert.KernelIdeal.Facts] (u : Fin 1) (q : Fin 128) : k1_pay2 (F := Ideal) (ix2 u q) = 0 :=
  Ideal.ofBits_zero_f32

/-- The block plus the row broadcast over it, at `(p, q)`. -/
theorem pay3_apply [Cert.KernelIdeal.Facts] (x0 : Vec Ideal S5000x128 .f32) (x1 : Vec Ideal S1x128 .f32)
    (p : Fin 5000) (q : Fin 128) :
    k1_pay3 (F := Ideal) x0 x1 (ix2 p q) = x0 (ix2 p q) + x1 (ix2 (0 : Fin 1) q) := by
  unfold k1_pay3
  refine (addf_apply _ _ _).trans ?_
  refine congrArg₂ (· + ·) (congrFun (shapeCast_self x0 _) _) ?_
  refine (broadcastTo_1b_ab_apply _ _ p q).trans ?_
  exact congrFun (shapeCast_self x1 _) _

/-- The running sums plus the block's column sums, at column `q`. -/
theorem pay4_apply [Cert.KernelIdeal.Facts] (x0 : Vec Ideal S5000x128 .f32) (x1 xo : Vec Ideal S1x128 .f32) (q : Fin 128) :
    k1_pay4 (F := Ideal) x0 x1 xo (ix2 (0 : Fin 1) q)
      = xo (ix2 (0 : Fin 1) q) + ∑ p : Fin 5000, (x0 (ix2 p q) + x1 (ix2 (0 : Fin 1) q)) := by
  unfold k1_pay4
  refine (addf_apply _ _ _).trans ?_
  refine congrArg₂ (· + ·) (congrFun (shapeCast_self xo _) _) ?_
  refine (shapeCast_a_1a_apply _ _ (0 : Fin 1) q).trans ?_
  refine (multiReduction_add_cols_apply (K := 5000) (b := 128) (k1_pay3 (F := Ideal) x0 x1) _ _ _ q).trans ?_
  exact Finset.sum_congr rfl fun p _ => pay3_apply x0 x1 p q

/-- The running sums of squares plus the block's column sums of squares, at column `q`. -/
theorem pay5_apply [Cert.KernelIdeal.Facts] (x0 : Vec Ideal S5000x128 .f32) (x1 xo : Vec Ideal S1x128 .f32) (q : Fin 128) :
    k1_pay5 (F := Ideal) x0 x1 xo (ix2 (0 : Fin 1) q)
      = xo (ix2 (0 : Fin 1) q) + ∑ p : Fin 5000, (x0 (ix2 p q) + x1 (ix2 (0 : Fin 1) q)) * (x0 (ix2 p q) + x1 (ix2 (0 : Fin 1) q)) := by
  unfold k1_pay5
  refine (addf_apply _ _ _).trans ?_
  refine congrArg₂ (· + ·) (congrFun (shapeCast_self xo _) _) ?_
  refine (shapeCast_a_1a_apply _ _ (0 : Fin 1) q).trans ?_
  refine (multiReduction_add_cols_apply (K := 5000) (b := 128)
    (mulf (k1_pay3 (F := Ideal) x0 x1) (k1_pay3 (F := Ideal) x0 x1)) _ _ _ q).trans ?_
  refine Finset.sum_congr rfl fun p _ => ?_
  refine (mulf_apply _ _ _).trans ?_
  rw [pay3_apply x0 x1 p q]

end Cert.KSide.R1
-- ==== Proof.KRegion1c.lean ====
/-
  The accumulating region's invariant: after grid point n the two 1×128 buffers hold, at column q, the sum over the
  first n + 1 row blocks of the block's column sum, respectively column sum of squares, of v (i, q) = a (i, q) + b (0, q).

  The first operand's window hands point t rows 5000 t … 5000 t + 4999 of its array; the row operand's window hands
  every point the whole row. The first point zeroes the buffers and adds block 0's contribution (0 + s₀); each later
  point adds its block's to what the point before left. Addition on the extended reals is commutative and associative,
  so the induction asks for nothing else.
-/
import proofs.«159551_j41910290874470_1_alg».proof.Proof.KRegion1a
import proofs.«159551_j41910290874470_1_alg».proof.Proof.KRegion1b

noncomputable section

open Idealize.ShloMosaic Idealize.ShloMosaic.TcCoe Idealize.SL.Sem Idealize.ShloMosaic.ValueIdx
open Idealize.ShloMosaic.Pipeline (Dat)

namespace Cert.KSide.R1

open Cert.KernelIdeal Cert.KernelIdeal.Gen

/-- The windows' index maps, decided once over the grid: the first operand's block moves down with the point, the
    row operand's and both results' blocks never move. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

variable [Cert.KernelIdeal.Facts]
variable (V : (c : Dev nD) → (b : Ref sig .tc) → Buf (Elt Ideal) ((c : Thread nD τ).loc b))

/-- The region's four windows sit over the first operand, the row operand, the sums and the sums of squares. -/
theorem arrRef1 : Pipeline.arrRef spec1 0 = main_v43 ∧ Pipeline.arrRef spec1 1 = main_v44
    ∧ Pipeline.arrRef spec1 2 = main_v47_0 ∧ Pipeline.arrRef spec1 3 = main_v47_1 := ⟨rfl, rfl, rfl, rfl⟩

/-- The first operand's block at point `t`, at `(p, q)`, is the array at row `5000 t + p`. -/
theorem blk0_apply (c : Dev nD) (t : Fin cfg1.N) (p : Fin 5000) (q : Fin 128) (i : Fin 100000)
    (hi : i.val = t.val * 5000 + p.val) :
    (iblk1 (F := Ideal) V c 0 t : Vec Ideal S5000x128 .f32) (ix2 p q) = V c main_v43 (ix2 i q) := by
  unfold iblk1
  rw [View.read_apply]
  show V c main_v43 (((cfg1.win 0).blk t).view.emb (ix2 p q)) = V c main_v43 (ix2 i q)
  refine congrArg _ ?_
  obtain ⟨e0, e1, -⟩ := idx_facts1 t
  funext a; apply Fin.ext
  match a with
  | ⟨0, _⟩ => show win1_0.index t (0 : Fin 2) * 5000 + 1 * p.val = i.val; omega
  | ⟨1, _⟩ => show win1_0.index t (1 : Fin 2) * 128 + 1 * q.val = q.val; omega

/-- The row operand's block at any point is the row. -/
theorem blk1_apply (c : Dev nD) (t : Fin cfg1.N) (q : Fin 128) :
    (iblk1 (F := Ideal) V c 1 t : Vec Ideal S1x128 .f32) (ix2 (0 : Fin 1) q) = V c main_v44 (ix2 (0 : Fin 1) q) := by
  unfold iblk1
  rw [View.read_apply]
  show V c main_v44 (((cfg1.win 1).blk t).view.emb (ix2 (0 : Fin 1) q)) = V c main_v44 (ix2 (0 : Fin 1) q)
  refine congrArg _ ?_
  obtain ⟨-, -, e0, e1, -⟩ := idx_facts1 t
  funext a; apply Fin.ext
  match a with
  | ⟨0, _⟩ => show win1_1.index t (0 : Fin 2) * 1 + 1 * 0 = 0; omega
  | ⟨1, _⟩ => show win1_1.index t (1 : Fin 2) * 128 + 1 * q.val = q.val; omega

/-! ## The blocks' contributions -/

/-- The first operand as the region finds it, at row `i` and column `j`, as an extended real. -/
abbrev aggAt (c : Dev nD) (i : Fin 100000) (j : Fin 128) : EReal := V c main_v43 (ix2 i j)

/-- The row operand as the region finds it, at column `j`, as an extended real. -/
abbrev biasAt (c : Dev nD) (j : Fin 128) : EReal := V c main_v44 (ix2 (0 : Fin 1) j)

/-- Row `i`'s entry at column `q`: the first operand plus the row operand. -/
abbrev rowv (c : Dev nD) (q : Fin 128) (i : Fin 100000) : EReal := aggAt V c i q + biasAt V c q

/-- Block `s`'s column sum at column `q`: rows `5000 s` to `5000 s + 4999` (zero past the last block). -/
def blockSum (c : Dev nD) (q : Fin 128) (s : ℕ) : EReal :=
  if h : s < 20 then ∑ p : Fin 5000, rowv V c q ⟨s * 5000 + p.val, by have := p.isLt; omega⟩ else 0

/-- Block `s`'s column sum of squares at column `q`. -/
def blockSq (c : Dev nD) (q : Fin 128) (s : ℕ) : EReal :=
  if h : s < 20 then ∑ p : Fin 5000, rowv V c q ⟨s * 5000 + p.val, by have := p.isLt; omega⟩
    * rowv V c q ⟨s * 5000 + p.val, by have := p.isLt; omega⟩ else 0

/-- Row `p` of the blocks `x0`, `x1` handed to point `t` is row `5000 t + p` of the arrays. -/
theorem blk_row (c : Dev nD) (q : Fin 128) (t : Fin cfg1.N) (x0 : Vec Ideal S5000x128 .f32) (x1 : Vec Ideal S1x128 .f32)
    (h0 : x0 = iblk1 (F := Ideal) V c 0 t) (h1 : x1 = iblk1 (F := Ideal) V c 1 t) (p : Fin 5000) (i : Fin 100000)
    (hi : i.val = t.val * 5000 + p.val) :
    x0 (ix2 p q) + x1 (ix2 (0 : Fin 1) q) = rowv V c q i := by
  subst h0 h1
  exact congrArg₂ (· + ·) (blk0_apply V c t p q i hi) (blk1_apply V c t q)

/-- What point `t` adds to the sums, over the blocks `x0`, `x1` it is handed, is block `t`'s column sum. -/
theorem blk_sum (c : Dev nD) (q : Fin 128) (t : Fin cfg1.N) (x0 : Vec Ideal S5000x128 .f32) (x1 : Vec Ideal S1x128 .f32)
    (h0 : x0 = iblk1 (F := Ideal) V c 0 t) (h1 : x1 = iblk1 (F := Ideal) V c 1 t) :
    ∑ p : Fin 5000, (x0 (ix2 p q) + x1 (ix2 (0 : Fin 1) q)) = blockSum V c q t.val := by
  have hN : t.val < 20 := lt_of_lt_of_eq t.isLt (show cfg1.N = 20 from N_1)
  unfold blockSum
  rw [dif_pos hN]
  exact Finset.sum_congr rfl fun p _ => blk_row V c q t x0 x1 h0 h1 p _ rfl

/-- What point `t` adds to the sums of squares is block `t`'s column sum of squares. -/
theorem blk_sq (c : Dev nD) (q : Fin 128) (t : Fin cfg1.N) (x0 : Vec Ideal S5000x128 .f32) (x1 : Vec Ideal S1x128 .f32)
    (h0 : x0 = iblk1 (F := Ideal) V c 0 t) (h1 : x1 = iblk1 (F := Ideal) V c 1 t) :
    ∑ p : Fin 5000, (x0 (ix2 p q) + x1 (ix2 (0 : Fin 1) q)) * (x0 (ix2 p q) + x1 (ix2 (0 : Fin 1) q))
      = blockSq V c q t.val := by
  have hN : t.val < 20 := lt_of_lt_of_eq t.isLt (show cfg1.N = 20 from N_1)
  unfold blockSq
  rw [dif_pos hN]
  exact Finset.sum_congr rfl fun p _ =>
    congrArg₂ (· * ·) (blk_row V c q t x0 x1 h0 h1 p _ rfl) (blk_row V c q t x0 x1 h0 h1 p _ rfl)

/-! ## One point's step -/

/-- A later point adds its block's column sum to what the point before left. -/
theorem stepB_sum (c : Dev nD) (q : Fin 128) (t : Fin cfg1.N) (h0 : ¬t.val % 20 = 0) :
    (outsAt1 (F := Ideal) V c t.val t.isLt).1 (ix2 (0 : Fin 1) q)
      = (outsAt1 (F := Ideal) V c (t.val - 1) (Nat.lt_of_le_of_lt (Nat.sub_le _ _) t.isLt)).1 (ix2 (0 : Fin 1) q) + blockSum V c q t.val := by
  rw [outsAt1_B V c t h0]
  dsimp only
  refine (congrFun (out_B_2 (F := Ideal) c (grid1.coords t) (ms1_0 t) (hs1_0 t) (ms1_1 t) (hs1_1 t) (ms1_2 t) (hs1_2 t) (ms1_3 t) (hs1_3 t) (fun h => h0 ((hcond1_0 t).mp h)) (iblk1 V c 0 t) (iblk1 V c 1 t)
    (outsAt1 V c (t.val - 1) (Nat.lt_of_le_of_lt (Nat.sub_le _ _) t.isLt)).1 (outsAt1 V c (t.val - 1) (Nat.lt_of_le_of_lt (Nat.sub_le _ _) t.isLt)).2) (ix2 (0 : Fin 1) q)).trans ?_
  refine (pay4_apply (iblk1 V c 0 t) (iblk1 V c 1 t) (outsAt1 V c (t.val - 1) (Nat.lt_of_le_of_lt (Nat.sub_le _ _) t.isLt)).1 q).trans ?_
  exact congrArg (_ + ·) (blk_sum V c q t (iblk1 V c 0 t) (iblk1 V c 1 t) rfl rfl)

/-- A later point adds its block's column sum of squares to what the point before left. -/
theorem stepB_sq (c : Dev nD) (q : Fin 128) (t : Fin cfg1.N) (h0 : ¬t.val % 20 = 0) :
    (outsAt1 (F := Ideal) V c t.val t.isLt).2 (ix2 (0 : Fin 1) q)
      = (outsAt1 (F := Ideal) V c (t.val - 1) (Nat.lt_of_le_of_lt (Nat.sub_le _ _) t.isLt)).2 (ix2 (0 : Fin 1) q) + blockSq V c q t.val := by
  rw [outsAt1_B V c t h0]
  dsimp only
  refine (congrFun (out_B_3 (F := Ideal) c (grid1.coords t) (ms1_0 t) (hs1_0 t) (ms1_1 t) (hs1_1 t) (ms1_2 t) (hs1_2 t) (ms1_3 t) (hs1_3 t) (fun h => h0 ((hcond1_0 t).mp h)) (iblk1 V c 0 t) (iblk1 V c 1 t)
    (outsAt1 V c (t.val - 1) (Nat.lt_of_le_of_lt (Nat.sub_le _ _) t.isLt)).1 (outsAt1 V c (t.val - 1) (Nat.lt_of_le_of_lt (Nat.sub_le _ _) t.isLt)).2) (ix2 (0 : Fin 1) q)).trans ?_
  refine (pay5_apply (iblk1 V c 0 t) (iblk1 V c 1 t) (outsAt1 V c (t.val - 1) (Nat.lt_of_le_of_lt (Nat.sub_le _ _) t.isLt)).2 q).trans ?_
  exact congrArg (_ + ·) (blk_sq V c q t (iblk1 V c 0 t) (iblk1 V c 1 t) rfl rfl)

/-- The first point leaves zero plus its block's column sum. -/
theorem stepA_sum (c : Dev nD) (q : Fin 128) (t : Fin cfg1.N) (h0 : t.val % 20 = 0) :
    (outsAt1 (F := Ideal) V c t.val t.isLt).1 (ix2 (0 : Fin 1) q) = 0 + blockSum V c q t.val := by
  rw [outsAt1_A V c t h0]
  dsimp only
  refine (congrFun (out_A_2 (F := Ideal) c (grid1.coords t) (ms1_0 t) (hs1_0 t) (ms1_1 t) (hs1_1 t) (ms1_2 t) (hs1_2 t) (ms1_3 t) (hs1_3 t) ((hcond1_0 t).mpr h0) (iblk1 V c 0 t) (iblk1 V c 1 t)) (ix2 (0 : Fin 1) q)).trans ?_
  refine (pay4_apply (iblk1 V c 0 t) (iblk1 V c 1 t) (k1_pay1 (F := Ideal)) q).trans ?_
  exact congrArg₂ (· + ·) (pay1_apply (0 : Fin 1) q) (blk_sum V c q t (iblk1 V c 0 t) (iblk1 V c 1 t) rfl rfl)

/-- The first point leaves zero plus its block's column sum of squares. -/
theorem stepA_sq (c : Dev nD) (q : Fin 128) (t : Fin cfg1.N) (h0 : t.val % 20 = 0) :
    (outsAt1 (F := Ideal) V c t.val t.isLt).2 (ix2 (0 : Fin 1) q) = 0 + blockSq V c q t.val := by
  rw [outsAt1_A V c t h0]
  dsimp only
  refine (congrFun (out_A_3 (F := Ideal) c (grid1.coords t) (ms1_0 t) (hs1_0 t) (ms1_1 t) (hs1_1 t) (ms1_2 t) (hs1_2 t) (ms1_3 t) (hs1_3 t) ((hcond1_0 t).mpr h0) (iblk1 V c 0 t) (iblk1 V c 1 t)) (ix2 (0 : Fin 1) q)).trans ?_
  refine (pay5_apply (iblk1 V c 0 t) (iblk1 V c 1 t) (k1_pay2 (F := Ideal)) q).trans ?_
  exact congrArg₂ (· + ·) (pay2_apply (0 : Fin 1) q) (blk_sq V c q t (iblk1 V c 0 t) (iblk1 V c 1 t) rfl rfl)

/-! ## The invariant: after point `n` the buffers hold the first `n + 1` blocks' sums -/

theorem outsAt_sum (c : Dev nD) (q : Fin 128) : ∀ (n : ℕ) (h : n < cfg1.N),
    (outsAt1 (F := Ideal) V c n h).1 (ix2 (0 : Fin 1) q) = ∑ s ∈ Finset.range (n + 1), blockSum V c q s
  | 0, h => by
    rw [Finset.sum_range_one]
    exact (stepA_sum V c q ⟨0, h⟩ rfl).trans (zero_add _)
  | n + 1, h => by
    have hN : cfg1.N = 20 := N_1
    have hB : ¬(⟨n + 1, h⟩ : Fin cfg1.N).val % 20 = 0 := by dsimp only; omega
    rw [Finset.sum_range_succ, ← outsAt_sum c q n (Nat.lt_of_succ_lt h)]
    exact stepB_sum V c q ⟨n + 1, h⟩ hB

theorem outsAt_sq (c : Dev nD) (q : Fin 128) : ∀ (n : ℕ) (h : n < cfg1.N),
    (outsAt1 (F := Ideal) V c n h).2 (ix2 (0 : Fin 1) q) = ∑ s ∈ Finset.range (n + 1), blockSq V c q s
  | 0, h => by
    rw [Finset.sum_range_one]
    exact (stepA_sq V c q ⟨0, h⟩ rfl).trans (zero_add _)
  | n + 1, h => by
    have hN : cfg1.N = 20 := N_1
    have hB : ¬(⟨n + 1, h⟩ : Fin cfg1.N).val % 20 = 0 := by dsimp only; omega
    rw [Finset.sum_range_succ, ← outsAt_sq c q n (Nat.lt_of_succ_lt h)]
    exact stepB_sq V c q ⟨n + 1, h⟩ hB

end Cert.KSide.R1
-- ==== Proof.LibSumBlocks.lean ====
/-
  A sum over an index range cut into equal consecutive blocks: the sum over `Fin N`, `N = a·b`, is the sum
  over the `a` blocks of the sums over the `b` positions inside each, position `k` of block `t` being the index
  `t·b + k`. In any commutative additive monoid (the extended reals among them), so no finiteness is asked.
-/
import Mathlib

namespace Cert.LibSumBlocks

/-- Position `k` of block `t` lies inside the range. -/
theorem block_lt {a b : ℕ} (t : Fin a) (k : Fin b) : t.val * b + k.val < a * b := by
  have h1 : t.val + 1 ≤ a := t.isLt
  have h2 : k.val < b := k.isLt
  calc t.val * b + k.val < t.val * b + b := by omega
    _ = (t.val + 1) * b := by ring
    _ ≤ a * b := Nat.mul_le_mul_right b h1

/-- The sum over `Fin N`, `N = a·b`, block by block. -/
theorem sum_blocks {M : Type*} [AddCommMonoid M] (a b N : ℕ) (h : N = a * b) (f : Fin N → M) :
    ∑ n : Fin N, f n = ∑ t : Fin a, ∑ k : Fin b, f ⟨t.val * b + k.val, h ▸ block_lt t k⟩ := by
  subst h
  rw [← Equiv.sum_comp finProdFinEquiv f, Fintype.sum_prod_type]
  refine Finset.sum_congr rfl fun t _ => Finset.sum_congr rfl fun k _ => ?_
  congr 1
  apply Fin.ext
  simp only [finProdFinEquiv_apply_val]
  ring

end Cert.LibSumBlocks
-- ==== Proof.KRegion1.lean ====
/-
  The accumulating region's result arrays.

  Both result windows keep one fixed 1×128 block and are written back after the last grid point only, so each result
  array ends holding what point 19 leaves in its buffer: the sum over all twenty row blocks of the block's column sum
  (column sum of squares). Twenty consecutive blocks of 5000 rows are the 100000 rows, so that is the sum over all rows.
-/
import proofs.«159551_j41910290874470_1_alg».proof.Proof.KRegion1c
import proofs.«159551_j41910290874470_1_alg».proof.Proof.LibSumBlocks
import proofs.«159551_j41910290874470_1_alg».proof.Proof.KSpec

noncomputable section

open Idealize.ShloMosaic Idealize.ShloMosaic.TcCoe Idealize.SL.Sem Idealize.ShloMosaic.ValueIdx
open Idealize.ShloMosaic.Pipeline (Dat)

namespace Cert.KSide.R1

open Cert.KernelIdeal Cert.KernelIdeal.Gen

variable [Cert.KernelIdeal.Facts]
variable (V : (c : Dev nD) → (b : Ref sig .tc) → Buf (Elt Ideal) ((c : Thread nD τ).loc b))

/-- The grid has a twentieth point. -/
theorem lt19 : 19 < cfg1.N := by rw [show cfg1.N = 20 from N_1]; decide

/-! ## Twenty blocks of 5000 rows are the 100000 rows -/

theorem total_sum (c : Dev nD) (q : Fin 128) :
    ∑ s ∈ Finset.range 20, blockSum V c q s = ∑ i : Fin 100000, rowv V c q i := by
  rw [Cert.LibSumBlocks.sum_blocks 20 5000 100000 (by norm_num) (rowv V c q), Finset.sum_range]
  refine Finset.sum_congr rfl fun t _ => ?_
  unfold blockSum
  rw [dif_pos t.isLt]

theorem total_sq (c : Dev nD) (q : Fin 128) :
    ∑ s ∈ Finset.range 20, blockSq V c q s = ∑ i : Fin 100000, rowv V c q i * rowv V c q i := by
  rw [Cert.LibSumBlocks.sum_blocks 20 5000 100000 (by norm_num) (fun i => rowv V c q i * rowv V c q i), Finset.sum_range]
  refine Finset.sum_congr rfl fun t _ => ?_
  unfold blockSq
  rw [dif_pos t.isLt]

/-! ## The result arrays after the run -/

/-- What the last point leaves in result window 2's buffer. -/
abbrev res2 (c : Dev nD) : Vec Ideal S1x128 .f32 := (outsAt1 (F := Ideal) V c 19 lt19).1

/-- The one write-back of result window 2, after the last point, writes it: the window's block is the whole array. -/
theorem flushed2_eq (c : Dev nD) (t : Fin cfg1.N) (hf : (cfg1.win 2).flush t = true) :
    (dat1 (F := Ideal) V c).flushed 2 t = ((cfg1.win 2).blk t).view.read (Elt Ideal) (res2 V c) := by
  have hN : cfg1.N = 20 := N_1
  have h19 : t.val = 19 := by have := (flush1_2 t).mp hf; have := t.isLt; omega
  obtain ⟨n, hn⟩ := t
  dsimp only at h19
  subst h19
  show (cfg1.win 2).cut (grid1.coords ⟨19, hn⟩) ((dat1 V c).after 2 ⟨19, hn⟩) = _
  rw [after1_2]
  have hz' : (fun a => win1_2.index ⟨19, hn⟩ a * main_v47_0.ty.shape.size a) = fun _ => 0 := funext fun a => by
    obtain ⟨-, -, -, -, e20, e21, e30, e31⟩ := idx_facts1 ⟨19, hn⟩
    match a with
    | ⟨0, _⟩ => show win1_2.index ⟨19, hn⟩ (0 : Fin 2) * 1 = 0; omega
    | ⟨1, _⟩ => show win1_2.index ⟨19, hn⟩ (1 : Fin 2) * 128 = 0; omega
  exact (Memref.read_access_unit_zero (Elt Ideal) main_v47_0 hz' (fun a => by rw [congrFun hz' a]; simp) (res2 V c)).symm

/-- An index of result array 2 is in point `t`'s block iff each coordinate is in the block's range on its axis. -/
theorem mem_blk2 (t : Fin cfg1.N) (i : S1x128.Idx) :
    i ∈ ((cfg1.win 2).blk t).view.set ↔ ∀ a : Fin 2, win1_2.index t a * S1x128.size a ≤ (i a).val
      ∧ (i a).val < win1_2.index t a * S1x128.size a + S1x128.size a := by
  show i ∈ ((View.whole main_v47_0).slice (win1_2.rect t)).set ↔ _
  rw [View.set_slice_whole, Rect.mem_set_unit]
  exact Iff.rfl

/-- The last point's block covers result array 2. -/
theorem cover2 (i : S1x128.Idx) :
    ∃ t : Fin cfg1.N, (cfg1.win 2).flush t = true ∧ i ∈ ((cfg1.win 2).blk t).view.set := by
  refine ⟨⟨19, lt19⟩, (flush1_2 _).mpr rfl, ?_⟩
  rw [mem_blk2]
  obtain ⟨-, -, -, -, e20, e21, e30, e31⟩ := idx_facts1 ⟨19, lt19⟩
  have h0 : (i 0).val < 1 := (i 0).isLt
  have h1 : (i 1).val < 128 := (i 1).isLt
  intro a
  match a with
  | ⟨0, _⟩ =>
    show win1_2.index ⟨19, lt19⟩ (0 : Fin 2) * 1 ≤ (i 0).val ∧ (i 0).val < win1_2.index ⟨19, lt19⟩ (0 : Fin 2) * 1 + 1
    omega
  | ⟨1, _⟩ =>
    show win1_2.index ⟨19, lt19⟩ (1 : Fin 2) * 128 ≤ (i 1).val ∧ (i 1).val < win1_2.index ⟨19, lt19⟩ (1 : Fin 2) * 128 + 128
    omega

/-- Result array 2 after the run is what the last point leaves. -/
theorem final2 (c : Dev nD) : (dat1 (F := Ideal) V c).arrAt 2 cfg1.N = res2 V c :=
  (dat1 V c).arrAt_eq_of_cover 2 (res2 V c) (flushed2_eq V c) cover2

/-- What the last point leaves in result window 3's buffer. -/
abbrev res3 (c : Dev nD) : Vec Ideal S1x128 .f32 := (outsAt1 (F := Ideal) V c 19 lt19).2

/-- The one write-back of result window 3, after the last point, writes it: the window's block is the whole array. -/
theorem flushed3_eq (c : Dev nD) (t : Fin cfg1.N) (hf : (cfg1.win 3).flush t = true) :
    (dat1 (F := Ideal) V c).flushed 3 t = ((cfg1.win 3).blk t).view.read (Elt Ideal) (res3 V c) := by
  have hN : cfg1.N = 20 := N_1
  have h19 : t.val = 19 := by have := (flush1_3 t).mp hf; have := t.isLt; omega
  obtain ⟨n, hn⟩ := t
  dsimp only at h19
  subst h19
  show (cfg1.win 3).cut (grid1.coords ⟨19, hn⟩) ((dat1 V c).after 3 ⟨19, hn⟩) = _
  rw [after1_3]
  have hz' : (fun a => win1_3.index ⟨19, hn⟩ a * main_v47_1.ty.shape.size a) = fun _ => 0 := funext fun a => by
    obtain ⟨-, -, -, -, e20, e21, e30, e31⟩ := idx_facts1 ⟨19, hn⟩
    match a with
    | ⟨0, _⟩ => show win1_3.index ⟨19, hn⟩ (0 : Fin 2) * 1 = 0; omega
    | ⟨1, _⟩ => show win1_3.index ⟨19, hn⟩ (1 : Fin 2) * 128 = 0; omega
  exact (Memref.read_access_unit_zero (Elt Ideal) main_v47_1 hz' (fun a => by rw [congrFun hz' a]; simp) (res3 V c)).symm

/-- An index of result array 3 is in point `t`'s block iff each coordinate is in the block's range on its axis. -/
theorem mem_blk3 (t : Fin cfg1.N) (i : S1x128.Idx) :
    i ∈ ((cfg1.win 3).blk t).view.set ↔ ∀ a : Fin 2, win1_3.index t a * S1x128.size a ≤ (i a).val
      ∧ (i a).val < win1_3.index t a * S1x128.size a + S1x128.size a := by
  show i ∈ ((View.whole main_v47_1).slice (win1_3.rect t)).set ↔ _
  rw [View.set_slice_whole, Rect.mem_set_unit]
  exact Iff.rfl

/-- The last point's block covers result array 3. -/
theorem cover3 (i : S1x128.Idx) :
    ∃ t : Fin cfg1.N, (cfg1.win 3).flush t = true ∧ i ∈ ((cfg1.win 3).blk t).view.set := by
  refine ⟨⟨19, lt19⟩, (flush1_3 _).mpr rfl, ?_⟩
  rw [mem_blk3]
  obtain ⟨-, -, -, -, e20, e21, e30, e31⟩ := idx_facts1 ⟨19, lt19⟩
  have h0 : (i 0).val < 1 := (i 0).isLt
  have h1 : (i 1).val < 128 := (i 1).isLt
  intro a
  match a with
  | ⟨0, _⟩ =>
    show win1_3.index ⟨19, lt19⟩ (0 : Fin 2) * 1 ≤ (i 0).val ∧ (i 0).val < win1_3.index ⟨19, lt19⟩ (0 : Fin 2) * 1 + 1
    omega
  | ⟨1, _⟩ =>
    show win1_3.index ⟨19, lt19⟩ (1 : Fin 2) * 128 ≤ (i 1).val ∧ (i 1).val < win1_3.index ⟨19, lt19⟩ (1 : Fin 2) * 128 + 128
    omega

/-- Result array 3 after the run is what the last point leaves. -/
theorem final3 (c : Dev nD) : (dat1 (F := Ideal) V c).arrAt 3 cfg1.N = res3 V c :=
  (dat1 V c).arrAt_eq_of_cover 3 (res3 V c) (flushed3_eq V c) cover3

/-! ## The two results at a column, over the arrays' readers -/

/-- The sums' array after the region, at column `j`. -/
theorem sum_at (c : Dev nD) (j : Fin 128) :
    ((dat1 (F := Ideal) V c).arrAt 2 cfg1.N : FVec Ideal S1x128 .f32) (ix2 (0 : Fin 1) j)
      = ∑ i : Fin 100000, (aggAt V c i j + biasAt V c j) :=
  (congrFun (final2 V c) (ix2 (0 : Fin 1) j)).trans ((outsAt_sum V c j 19 lt19).trans (total_sum V c j))

/-- The sums of squares' array after the region, at column `j`. -/
theorem sumsq_at (c : Dev nD) (j : Fin 128) :
    ((dat1 (F := Ideal) V c).arrAt 3 cfg1.N : FVec Ideal S1x128 .f32) (ix2 (0 : Fin 1) j)
      = ∑ i : Fin 100000, (aggAt V c i j + biasAt V c j) * (aggAt V c i j + biasAt V c j) :=
  (congrFun (final3 V c) (ix2 (0 : Fin 1) j)).trans ((outsAt_sq V c j 19 lt19).trans (total_sq V c j))

end Cert.KSide.R1

namespace Cert.KSide

open Cert.KernelIdeal Cert.KernelIdeal.Gen

variable [Cert.KernelIdeal.Facts]

/-- REGION 1, first result: after the region the sums' array holds, at column `j`, the sum over all 100000 rows of the
    first operand plus the row operand, both as the region finds them. -/
theorem region1_sum (V : (c : Dev nD) → (b : Ref sig .tc) → Buf (Elt Ideal) ((c : Thread nD τ).loc b)) (c : Dev nD) (j : Fin 128) :
    atRow ((Gen.dat1 (F := Ideal) V c).arrAt 2 cfg1.N) j = sumOf (V c main_v43) (V c main_v44) j := by
  unfold atRow sumOf
  exact R1.sum_at V c j

/-- REGION 1, second result: the sums of squares' array holds, at column `j`, the sum over all rows of the square of
    the same entry. -/
theorem region1_sumsq (V : (c : Dev nD) → (b : Ref sig .tc) → Buf (Elt Ideal) ((c : Thread nD τ).loc b)) (c : Dev nD) (j : Fin 128) :
    atRow ((Gen.dat1 (F := Ideal) V c).arrAt 3 cfg1.N) j = sumsqOf (V c main_v43) (V c main_v44) j := by
  unfold atRow sumsqOf
  exact R1.sumsq_at V c j

end Cert.KSide
-- ==== Proof.KRegion2.lean ====
/-
  The normalising region, read as one function of its index.

  The region walks twenty row blocks of 5000 rows of a 100000 × 128 aggregate. At each block the body adds a bias
  row to the block, subtracts the row of column means, multiplies by the scale row, then by the inverse square root
  of the row of column variances plus a regulariser, and adds the shift row; the one-row operands are the same at
  every block. The body's result at row p, column q of block t is therefore a function of row 5000·t + p of the
  aggregate and of column q of the five one-row arrays. Since the twenty blocks tile the array, the array the
  region leaves is that function at every index: entry (i, j) is
      γ_j · ((a_ij + b_j) − μ_j) · rsqrt(v_j + ε) + β_j,
  the products and sums taken in this order (on the extended reals the order matters).
-/
import proofs.«159551_j41910290874470_1_alg».proof.Proof.Gen.KernelIdeal.Frame
import proofs.«159551_j41910290874470_1_alg».proof.Proof.Spec
import proofs.«159551_j41910290874470_1_alg».proof.Proof.KSpec
import Idealize.ShloMosaic.Lib.Pipeline.Value
import Idealize.ShloMosaic.Lib.ValueIdx
import Idealize.ShloMosaic.Lib.ValueLayout

noncomputable section

namespace Cert.KSide

open Idealize.ShloMosaic Idealize.ShloMosaic.ValueIdx Idealize.ShloMosaic.TcCoe Idealize.SL.Sem
open Idealize.ShloMosaic.Pipeline (Dat)
open Cert.KernelIdeal Cert.KernelIdeal.Gen

theorem rsqrt_vec_apply {s : Shape} {φ : FTy} (a : FVec Ideal s φ) (i : s.Idx) : rsqrt a i = Ideal.rsqrt (a i) := rfl

/-- The body's arithmetic at row p, column q of a block: the one-row operands are read at column q. -/
theorem normalize_payload_apply [Cert.KernelIdeal.Facts] (x0 : Vec Ideal S5000x128 .f32) (xb xv xg xm xe : Vec Ideal S1x128 .f32)
    (p : Fin 5000) (q : Fin 128) :
    k2_pay1 x0 xb xv xg xm xe (ix2 p q)
      = xg (ix2 (0 : Fin 1) q) * ((x0 (ix2 p q) + xb (ix2 (0 : Fin 1) q)) - xm (ix2 (0 : Fin 1) q))
          * Ideal.rsqrt (xv (ix2 (0 : Fin 1) q) + Cert.Spec.epsW) + xe (ix2 (0 : Fin 1) q) := by
  unfold k2_pay1
  simp only [addf_apply, mulf_apply, subf_apply, shapeCast_self, broadcastTo_1b_ab_apply, rsqrt_vec_apply, broadcast_apply]
  rfl

variable (V : (c : Dev nD) → (b : Ref sig .tc) → Buf (Elt Ideal) ((c : Thread nD τ).loc b))

/-- The offset (0, 0), as the constant zero function. -/
theorem norm_hz : (![0, 0] : Fin 2 → Nat) = fun _ => 0 := funext fun a => by fin_cases a <;> rfl

/-- The windows' block indices at each of the twenty grid points: the two row windows sit at block (t, 0), the five
    one-row windows at block (0, 0). -/
theorem norm_index_facts : ∀ t : Fin cfg2.N,
    win2_0.index t (0 : Fin 2) = t.val ∧ win2_0.index t (1 : Fin 2) = 0
    ∧ win2_6.index t (0 : Fin 2) = t.val ∧ win2_6.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- Row p, column q of the aggregate's block at point t is row 5000·t + p of the aggregate. -/
theorem agg_block_apply (c : Dev nD) (t : Fin cfg2.N) (p : Fin 5000) (q : Fin 128) (r : Fin 100000)
    (hr : r.val = t.val * 5000 + p.val) :
    (iblk2 V c 0 t : Vec Ideal S5000x128 .f32) (ix2 p q) = (V c main_v43 : S100000x128.Idx → EReal) (ix2 r q) := by
  obtain ⟨e0, e1, -⟩ := norm_index_facts t
  unfold iblk2
  rw [View.read_apply]
  show V c main_v43 _ = V c main_v43 _
  congr 1
  funext a
  apply Fin.ext
  match a with
  | ⟨0, _⟩ => show win2_0.index t (0 : Fin 2) * 5000 + 1 * p.val = r.val; rw [e0, hr]; omega
  | ⟨1, _⟩ => show win2_0.index t (1 : Fin 2) * 128 + 1 * q.val = q.val; rw [e1]; omega

/-- The bias window's block at every point is the whole one-row bias array. -/
theorem bias_block_apply (c : Dev nD) (t : Fin cfg2.N) (q : Fin 128) :
    (iblk2 V c 1 t : Vec Ideal S1x128 .f32) (ix2 (0 : Fin 1) q) = (V c main_v44 : S1x128.Idx → EReal) (ix2 (0 : Fin 1) q) := by
  have e := norm_index_facts t
  unfold iblk2
  rw [View.read_apply]
  show V c main_v44 _ = V c main_v44 _
  congr 1
  funext a
  apply Fin.ext
  match a with
  | ⟨0, _⟩ => show win2_1.index t (0 : Fin 2) * 1 + 1 * 0 = 0; omega
  | ⟨1, _⟩ => show win2_1.index t (1 : Fin 2) * 128 + 1 * q.val = q.val; omega

/-- The mean window's block at every point is the whole one-row array of column means. -/
theorem mean_block_apply (c : Dev nD) (t : Fin cfg2.N) (q : Fin 128) :
    (iblk2 V c 2 t : Vec Ideal S1x128 .f32) (ix2 (0 : Fin 1) q) = (V c main_v49 : S1x128.Idx → EReal) (ix2 (0 : Fin 1) q) := by
  have e := norm_index_facts t
  unfold iblk2
  rw [View.read_apply]
  show V c main_v49 _ = V c main_v49 _
  congr 1
  funext a
  apply Fin.ext
  match a with
  | ⟨0, _⟩ => show win2_2.index t (0 : Fin 2) * 1 + 1 * 0 = 0; omega
  | ⟨1, _⟩ => show win2_2.index t (1 : Fin 2) * 128 + 1 * q.val = q.val; omega

/-- The variance window's block at every point is the whole one-row array of column variances. -/
theorem var_block_apply (c : Dev nD) (t : Fin cfg2.N) (q : Fin 128) :
    (iblk2 V c 3 t : Vec Ideal S1x128 .f32) (ix2 (0 : Fin 1) q) = (V c main_v53 : S1x128.Idx → EReal) (ix2 (0 : Fin 1) q) := by
  have e := norm_index_facts t
  unfold iblk2
  rw [View.read_apply]
  show V c main_v53 _ = V c main_v53 _
  congr 1
  funext a
  apply Fin.ext
  match a with
  | ⟨0, _⟩ => show win2_3.index t (0 : Fin 2) * 1 + 1 * 0 = 0; omega
  | ⟨1, _⟩ => show win2_3.index t (1 : Fin 2) * 128 + 1 * q.val = q.val; omega

/-- The scale window's block at every point is the whole one-row scale array. -/
theorem gamma_block_apply (c : Dev nD) (t : Fin cfg2.N) (q : Fin 128) :
    (iblk2 V c 4 t : Vec Ideal S1x128 .f32) (ix2 (0 : Fin 1) q) = (V c main_v45 : S1x128.Idx → EReal) (ix2 (0 : Fin 1) q) := by
  have e := norm_index_facts t
  unfold iblk2
  rw [View.read_apply]
  show V c main_v45 _ = V c main_v45 _
  congr 1
  funext a
  apply Fin.ext
  match a with
  | ⟨0, _⟩ => show win2_4.index t (0 : Fin 2) * 1 + 1 * 0 = 0; omega
  | ⟨1, _⟩ => show win2_4.index t (1 : Fin 2) * 128 + 1 * q.val = q.val; omega

/-- The shift window's block at every point is the whole one-row shift array. -/
theorem beta_block_apply (c : Dev nD) (t : Fin cfg2.N) (q : Fin 128) :
    (iblk2 V c 5 t : Vec Ideal S1x128 .f32) (ix2 (0 : Fin 1) q) = (V c main_v46 : S1x128.Idx → EReal) (ix2 (0 : Fin 1) q) := by
  have e := norm_index_facts t
  unfold iblk2
  rw [View.read_apply]
  show V c main_v46 _ = V c main_v46 _
  congr 1
  funext a
  apply Fin.ext
  match a with
  | ⟨0, _⟩ => show win2_5.index t (0 : Fin 2) * 1 + 1 * 0 = 0; omega
  | ⟨1, _⟩ => show win2_5.index t (1 : Fin 2) * 128 + 1 * q.val = q.val; omega

/-- Entry (i, j) of what the normalising body computes from an aggregate, a bias row, the column means and variances,
    a scale row and a shift row: the scale of column j times the aggregate plus the bias minus the column mean, times the
    inverse square root of the column variance plus the regulariser, plus the shift of column j — the products and sums
    taken in the order the body takes them. -/
def normK (agg : Fin 100000 → Fin 128 → EReal) (bias mean var gamma beta : Fin 128 → EReal) (i : Fin 100000) (j : Fin 128) : EReal :=
  gamma j * ((agg i j + bias j) - mean j) * Ideal.rsqrt (var j + Cert.Spec.epsW) + beta j

/-- Entry (i, j) of what the region writes, in terms of the arrays it finds. -/
def normEntry (c : Dev nD) (i : Fin 100000) (j : Fin 128) : EReal :=
  normK (fun i j => V c main_v43 (ix2 i j)) (fun j => V c main_v44 (ix2 (0 : Fin 1) j)) (fun j => V c main_v49 (ix2 (0 : Fin 1) j))
    (fun j => V c main_v53 (ix2 (0 : Fin 1) j)) (fun j => V c main_v45 (ix2 (0 : Fin 1) j)) (fun j => V c main_v46 (ix2 (0 : Fin 1) j)) i j

/-- The whole output array as one function of its index. -/
def normArr (c : Dev nD) : S100000x128.Idx → EReal :=
  fun idx => normEntry V c ⟨(idx 0).val, idx2_lt0 idx⟩ ⟨(idx 1).val, idx2_lt1 idx⟩

/-- What point t writes back is block t of that one function: rows 5000·t … 5000·t + 4999. -/
theorem norm_flushed_eq [Cert.KernelIdeal.Facts] (c : Dev nD) (t : Fin cfg2.N) :
    (dat2 (F := Ideal) V c).flushed 6 t = ((cfg2.win 6).blk t).view.read (Elt Ideal) (normArr V c) := by
  show (cfg2.win 6).cut (grid2.coords t) ((dat2 V c).after 6 t) = _
  rw [after2_6]
  unfold out2_6
  rw [View.canon_unit_zero norm_hz]
  simp only [View.ld_unit_zero (S := S5000x128) norm_hz, View.ld_unit_zero (S := S1x128) norm_hz]
  funext y
  have hy0 : (y (0 : Fin 2)).val < 5000 := (y (0 : Fin 2)).isLt
  have hy1 : (y (1 : Fin 2)).val < 128 := (y (1 : Fin 2)).isLt
  have hN : t.val < 20 := by have h1 := t.isLt; have h2 : cfg2.N = 20 := N_2; omega
  obtain ⟨-, -, e0, e1, -⟩ := norm_index_facts t
  have hx : (cfg2.win 6).xinj (grid2.coords t) y = ix2 (⟨(y (0 : Fin 2)).val, hy0⟩ : Fin 5000) (⟨(y (1 : Fin 2)).val, hy1⟩ : Fin 128) := by
    funext a; match a with | ⟨0, _⟩ => rfl | ⟨1, _⟩ => rfl
  refine (congrArg (k2_pay1 (iblk2 V c 0 t) (iblk2 V c 1 t) (iblk2 V c 3 t) (iblk2 V c 4 t) (iblk2 V c 2 t) (iblk2 V c 5 t)) hx).trans ?_
  refine (normalize_payload_apply (iblk2 V c 0 t) (iblk2 V c 1 t) (iblk2 V c 3 t) (iblk2 V c 4 t) (iblk2 V c 2 t) (iblk2 V c 5 t) ⟨(y (0 : Fin 2)).val, hy0⟩ ⟨(y (1 : Fin 2)).val, hy1⟩).trans ?_
  rw [agg_block_apply V c t ⟨(y (0 : Fin 2)).val, hy0⟩ ⟨(y (1 : Fin 2)).val, hy1⟩ ⟨t.val * 5000 + (y (0 : Fin 2)).val, by omega⟩ rfl,
    bias_block_apply V c t ⟨(y (1 : Fin 2)).val, hy1⟩, mean_block_apply V c t ⟨(y (1 : Fin 2)).val, hy1⟩,
    var_block_apply V c t ⟨(y (1 : Fin 2)).val, hy1⟩, gamma_block_apply V c t ⟨(y (1 : Fin 2)).val, hy1⟩,
    beta_block_apply V c t ⟨(y (1 : Fin 2)).val, hy1⟩]
  have hr : (⟨((((cfg2.win 6).blk t).view.emb y) (0 : Fin 2)).val, idx2_lt0 _⟩ : Fin 100000) = ⟨t.val * 5000 + (y (0 : Fin 2)).val, by omega⟩ :=
    Fin.ext (by show win2_6.index t (0 : Fin 2) * 5000 + 1 * (y (0 : Fin 2)).val = t.val * 5000 + (y (0 : Fin 2)).val; rw [e0]; omega)
  have hq : (⟨((((cfg2.win 6).blk t).view.emb y) (1 : Fin 2)).val, idx2_lt1 _⟩ : Fin 128) = ⟨(y (1 : Fin 2)).val, hy1⟩ :=
    Fin.ext (by show win2_6.index t (1 : Fin 2) * 128 + 1 * (y (1 : Fin 2)).val = (y (1 : Fin 2)).val; rw [e1]; omega)
  show _ = normEntry V c ⟨((((cfg2.win 6).blk t).view.emb y) (0 : Fin 2)).val, idx2_lt0 _⟩ ⟨((((cfg2.win 6).blk t).view.emb y) (1 : Fin 2)).val, idx2_lt1 _⟩
  rw [hr, hq]
  rfl

/-- An index of the array is in point t's block iff each coordinate is in the block's range on its axis. -/
theorem norm_mem_blk (t : Fin cfg2.N) (i : S100000x128.Idx) :
    i ∈ ((cfg2.win 6).blk t).view.set ↔ ∀ a : Fin 2, win2_6.index t a * S5000x128.size a ≤ (i a).val
      ∧ (i a).val < win2_6.index t a * S5000x128.size a + S5000x128.size a := by
  show i ∈ ((View.whole main_v54).slice (win2_6.rect t)).set ↔ _
  rw [View.set_slice_whole, Rect.mem_set_unit]
  exact Iff.rfl

/-- Every index of the array is in some point's block: row r is in the block of point r / 5000. -/
theorem norm_cover (i : S100000x128.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  have hN : cfg2.N = 20 := N_2
  obtain ⟨t, ht⟩ : ∃ t : Fin cfg2.N, t.val = (i 0).val / 5000 := ⟨⟨(i 0).val / 5000, by omega⟩, rfl⟩
  obtain ⟨-, -, e0, e1, -⟩ := norm_index_facts t
  refine ⟨t, flush2_6 t, ?_⟩
  rw [norm_mem_blk]
  intro a
  match a with
  | ⟨0, _⟩ =>
    show win2_6.index t (0 : Fin 2) * 5000 ≤ (i 0).val ∧ (i 0).val < win2_6.index t (0 : Fin 2) * 5000 + 5000
    rw [e0, ht]; omega
  | ⟨1, _⟩ =>
    show win2_6.index t (1 : Fin 2) * 128 ≤ (i 1).val ∧ (i 1).val < win2_6.index t (1 : Fin 2) * 128 + 128
    rw [e1]; omega

/-- The array after the region: the one function, everywhere. -/
theorem norm_final [Cert.KernelIdeal.Facts] (c : Dev nD) : (dat2 (F := Ideal) V c).arrAt 6 cfg2.N = normArr V c :=
  (dat2 V c).arrAt_eq_of_cover 6 (normArr V c) (fun t _ => norm_flushed_eq V c t) norm_cover

/-- Entry (i, j) of the region's output array, in terms of the entries of the arrays the region finds. -/
theorem region2_entry [Cert.KernelIdeal.Facts] (c : Dev nD) (i : Fin 100000) (j : Fin 128) :
    (dat2 (F := Ideal) V c).arrAt 6 cfg2.N (ix2 i j)
      = normK (fun i j => V c main_v43 (ix2 i j)) (fun j => V c main_v44 (ix2 (0 : Fin 1) j)) (fun j => V c main_v49 (ix2 (0 : Fin 1) j))
          (fun j => V c main_v53 (ix2 (0 : Fin 1) j)) (fun j => V c main_v45 (ix2 (0 : Fin 1) j)) (fun j => V c main_v46 (ix2 (0 : Fin 1) j)) i j :=
  (congrFun (norm_final V c) (ix2 i j)).trans rfl

/-- The same entry with the six operand entries named: whatever values the entries of the arrays the region finds are
    known to equal, the output entry is the body's formula of those values. -/
theorem region2_value_of_entries [Cert.KernelIdeal.Facts] (c : Dev nD) (i : Fin 100000) (j : Fin 128) (g a b m v e : EReal)
    (hg : g = V c main_v45 (ix2 (0 : Fin 1) j)) (ha : a = V c main_v43 (ix2 i j)) (hb : b = V c main_v44 (ix2 (0 : Fin 1) j))
    (hm : m = V c main_v49 (ix2 (0 : Fin 1) j)) (hv : v = V c main_v53 (ix2 (0 : Fin 1) j))
    (he : e = V c main_v46 (ix2 (0 : Fin 1) j)) :
    (dat2 (F := Ideal) V c).arrAt 6 cfg2.N (ix2 i j) = g * ((a + b) - m) * Ideal.rsqrt (v + Cert.Spec.epsW) + e := by
  subst hg ha hb hm hv he
  exact region2_entry V c i j

/-- Entry (i, j) of the region's output array as the normalising formula of the six arrays the region finds. -/
theorem region2_value [Cert.KernelIdeal.Facts] (c : Dev nD) (i : Fin 100000) (j : Fin 128) :
    atN ((Gen.dat2 (F := Ideal) V c).arrAt 6 cfg2.N) i j
      = normOf (V c main_v43) (V c main_v44) (V c main_v49) (V c main_v53) (V c main_v45) (V c main_v46) i j := by
  unfold atN normOf
  exact region2_value_of_entries V c i j _ _ _ _ _ _ rfl rfl rfl rfl rfl rfl

end Cert.KSide

end
-- ==== Proof.VarLaw.lean ====
/-
  The two variance formulas agree on real-valued columns.

  For a column with real entries r_1 … r_N (N = 100000), put S = Σ r_i and Q = Σ r_i². The centred formula is
  (1/N) Σ (r_i − S/N)² and the moment formula is Q/N − (S/N)². Expanding the square,
  Σ (r_i − S/N)² = Q − 2 (S/N) S + N (S/N)² = Q − S²/N, so both equal Q/N − S²/N². Over the extended reals the
  identity fails at ±∞ (there ∞ − ∞ appears), which is why it is stated for real-valued columns only: on such
  columns every sum, product, difference and quotient by N stays inside the reals, the inclusion of the reals
  commutes with each of them, and the claim reduces to the identity above.
-/
import proofs.«159551_j41910290874470_1_alg».proof.Proof.Spec

noncomputable section

namespace Cert.Spec

open Idealize.ShloMosaic

/-- The word 0x47C35000 has sign 0, exponent field 143 and fraction field 4411392, so it denotes
    (2^23 + 4411392) · 2^(143 − 127 − 23) = 12800000 / 128 = 100000. -/
theorem nW_eq : nW = ((100000 : ℝ) : EReal) := by
  unfold nW
  simp [Ideal.ofBits, Ideal.ieee, -EReal.coe_mul]; norm_num

/-- The inclusion of the reals in the extended reals commutes with finite sums. -/
theorem coe_finsum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The law over the reals, for any finite index type with N ≠ 0 elements: with S = Σ r_i and Q = Σ r_i²,
    Σ (r_i − S/N)² = Q − 2 (S/N) S + N (S/N)² = Q − S²/N, so both sides are Q/N − (S/N)². -/
theorem real_var_law {ι : Type*} [Fintype ι] (N : ℝ) (hN : N ≠ 0) (hc : (Fintype.card ι : ℝ) = N)
    (r : ι → ℝ) :
    (∑ i, r i * r i) / N - (∑ i, r i) / N * ((∑ i, r i) / N)
      = (∑ i, (r i - (∑ i, r i) / N) * (r i - (∑ i, r i) / N)) / N := by
  set S : ℝ := ∑ i, r i with hS
  set Q : ℝ := ∑ i, r i * r i with hQ
  have hexp : ∑ i, (r i - S / N) * (r i - S / N) = Q - 2 * (S / N) * S + N * (S / N * (S / N)) := by
    have h1 : ∀ i, (r i - S / N) * (r i - S / N) = r i * r i - 2 * (S / N) * r i + S / N * (S / N) := by
      intro i; ring
    simp only [h1]
    rw [Finset.sum_add_distrib, Finset.sum_sub_distrib, ← Finset.mul_sum, Finset.sum_const,
      Finset.card_univ, nsmul_eq_mul, hc]
  rw [hexp]
  field_simp
  ring

/-- Division of a real by the row count stays real: a / N. -/
theorem div_nW_coe (a : ℝ) : Ideal.div (a : EReal) nW = ((a / 100000 : ℝ) : EReal) := by
  rw [nW_eq, Ideal.div_coe (by norm_num : (100000 : ℝ) ≠ 0), ← EReal.coe_mul, mul_one_div]

/-- On a real-valued column the column sum is the real sum, so the mean is the real S / N. -/
theorem mean_eq_coe (v : Fin 100000 → Fin 128 → EReal) (r : Fin 100000 → Fin 128 → ℝ)
    (hr : ∀ i j, v i j = (r i j : EReal)) (j : Fin 128) :
    mean v j = (((∑ i, r i j) / 100000 : ℝ) : EReal) := by
  have hS : colSum v j = ((∑ i, r i j : ℝ) : EReal) := by
    unfold colSum
    rw [coe_finsum]
    exact Finset.sum_congr rfl (fun i _ => hr i j)
  unfold mean
  rw [hS, div_nW_coe]

/-- The mean of a real-valued column is real. -/
theorem mean_real (v : Fin 100000 → Fin 128 → EReal) (hv : ∀ i j, ∃ r : ℝ, v i j = (r : EReal))
    (j : Fin 128) : ∃ r : ℝ, mean v j = (r : EReal) := by
  choose r hr using hv
  exact ⟨_, mean_eq_coe v r hr j⟩

/-- On real-valued columns every term of both variance formulas is real, so both formulas are the
    images of their real counterparts, and those agree by the law over the reals with N = 100000. -/
theorem varMoments_eq_varCentered (v : Fin 100000 → Fin 128 → EReal)
    (hv : ∀ i j, ∃ r : ℝ, v i j = (r : EReal)) (j : Fin 128) : varMoments v j = varCentered v j := by
  choose r hr using hv
  have hm := mean_eq_coe v r hr j
  have hQ : (∑ i : Fin 100000, v i j * v i j) = ((∑ i, r i j * r i j : ℝ) : EReal) := by
    rw [coe_finsum]
    exact Finset.sum_congr rfl (fun i _ => by rw [hr i j, EReal.coe_mul])
  have hC : (∑ i : Fin 100000, (v i j - mean v j) * (v i j - mean v j))
      = ((∑ i, (r i j - (∑ i, r i j) / 100000) * (r i j - (∑ i, r i j) / 100000) : ℝ) : EReal) := by
    rw [coe_finsum]
    exact Finset.sum_congr rfl (fun i _ => by rw [hr i j, hm, ← EReal.coe_sub, ← EReal.coe_mul])
  unfold varMoments varCentered
  rw [hQ, hC, hm, div_nW_coe, div_nW_coe, ← EReal.coe_mul, ← EReal.coe_sub]
  rw [EReal.coe_eq_coe_iff]
  exact real_var_law 100000 (by norm_num) (by simp) (fun i => r i j)

end Cert.Spec

end
-- ==== Proof.HidReal.lean ====
/-
  The hidden layer of a real-valued input under real-valued weights is real-valued.

  Row i, column j of relu(x) · W is Σ_k max(x_ik, 0) · W_kj. If x_ik and W_kj are real, then so are max(x_ik, 0),
  each product, and the finite sum: the inclusion of the reals in the extended reals commutes with max, with
  products and with finite sums.
-/
import proofs.«159551_j41910290874470_1_alg».proof.Proof.Spec
import proofs.«159551_j41910290874470_1_alg».proof.Proof.VarLaw

noncomputable section

namespace Cert.Spec

/-- The inclusion of the reals is monotone, so it commutes with max; in particular max(a, 0) of a real a is real. -/
theorem coe_max_zero (a : ℝ) : max (a : EReal) 0 = ((max a 0 : ℝ) : EReal) := by
  rw [← EReal.coe_zero]
  exact (EReal.coe_strictMono.monotone.map_max).symm

/-- With x_ik = a_ik and W_kj = b_kj real, the entry is the real Σ_k max(a_ik, 0) · b_kj. -/
theorem hid_real (x : Fin 100000 → Fin 128 → EReal) (W : Fin 128 → Fin 128 → EReal)
    (hx : ∀ i k, ∃ r : ℝ, x i k = (r : EReal)) (hW : ∀ k j, ∃ r : ℝ, W k j = (r : EReal))
    (i : Fin 100000) (j : Fin 128) : ∃ r : ℝ, hid x W i j = (r : EReal) := by
  choose a ha using hx
  choose b hb using hW
  refine ⟨∑ k, max (a i k) 0 * b k j, ?_⟩
  unfold hid
  rw [coe_finsum]
  refine Finset.sum_congr rfl (fun k _ => ?_)
  rw [ha i k, hb k j, EReal.coe_mul, coe_max_zero]

end Cert.Spec

end
-- ==== Proof.LibScatterAddRows.lean ====
/-
  A scatter-add of rows into a table, read at an entry. The operand is a table [N, C] (or a vector [N]), the scatter
  indices a column [E, 1], the updates [E, C] (or [E]), and the dimension numbers are those of a segment sum: the row
  axis is the one inserted window axis and the one the start index names, the column axis (if any) the one window axis.
  Update row e lands on operand row p exactly when its start index idx[e, 0], read as a signed integer and NOT clamped,
  equals p; it is dropped otherwise. So on the extended reals entry (p, k) of the result is the operand's entry plus
  the sum over the update rows e with idx[e, 0] = p of the update's entry (e, k). Stated for any record with those
  dimension numbers, whatever the number of updates.
-/
import Idealize.ShloMosaic.Lib.ValueIdx
import Idealize.ShloMosaic.PureOps.Ideal

noncomputable section

open scoped BigOperators

namespace Cert.LibScatterAddRows

open Idealize.ShloMosaic Idealize.ShloMosaic.ValueIdx

/-- The start index of update row `e` on the row axis: the scatter index `idx[e, 0]` read signed. -/
theorem rows_start0 {N C E w : Nat} (d : ScatterDims ⟨2, ![N, C]⟩ ⟨2, ![E, 1]⟩ ⟨2, ![E, C]⟩)
    (h1 : d.updateWindowDims = [1]) (h3 : d.scatterDimsToOperandDims = [0]) (h4 : d.indexVectorDim = 1)
    (idx : IVec ⟨2, ![E, 1]⟩ w) (e : Fin E) (c : Fin C) :
    d.start (ix2 e c) idx 0 = (idx (ix2 e (0 : Fin 1))).toInt := by
  obtain ⟨uw, iw, sd, iv, wf⟩ := d
  dsimp only at h1 h3 h4
  subst h1 h3 h4
  unfold ScatterDims.start
  rw [dif_pos (List.mem_singleton.mpr rfl)]
  refine congrArg (fun z : (⟨2, ![E, 1]⟩ : Shape).Idx => (idx z).toInt) ?_
  funext b; refine Fin.ext ?_
  match b with
  | ⟨0, _⟩ => rfl
  | ⟨1, _⟩ => rfl

/-- The column axis is not named by the start index: the window starts at column 0. -/
theorem rows_start1 {N C E w : Nat} (d : ScatterDims ⟨2, ![N, C]⟩ ⟨2, ![E, 1]⟩ ⟨2, ![E, C]⟩)
    (h3 : d.scatterDimsToOperandDims = [0]) (idx : IVec ⟨2, ![E, 1]⟩ w) (j : (⟨2, ![E, C]⟩ : Shape).Idx) :
    d.start j idx 1 = 0 := by
  obtain ⟨uw, iw, sd, iv, wf⟩ := d
  dsimp only at h3
  subst h3
  unfold ScatterDims.start
  rw [dif_neg (show ¬ ((1 : Fin 2) ∈ ([0] : List (Fin 2))) by decide)]

/-- The row axis is inserted: the window has no extent along it. -/
theorem rows_window0 {N C E : Nat} (d : ScatterDims ⟨2, ![N, C]⟩ ⟨2, ![E, 1]⟩ ⟨2, ![E, C]⟩)
    (h2 : d.insertedWindowDims = [0]) (j : (⟨2, ![E, C]⟩ : Shape).Idx) :
    d.window j 0 = 0 := by
  obtain ⟨uw, iw, sd, iv, wf⟩ := d
  dsimp only at h2
  subst h2
  unfold ScatterDims.window
  rw [dif_neg (by simp [ScatterDims.sKept, Shape.kept])]

/-- Along the column axis the window coordinate is the update's column. -/
theorem rows_window1 {N C E : Nat} (d : ScatterDims ⟨2, ![N, C]⟩ ⟨2, ![E, 1]⟩ ⟨2, ![E, C]⟩)
    (h1 : d.updateWindowDims = [1]) (h2 : d.insertedWindowDims = [0]) (e : Fin E) (c : Fin C) :
    d.window (ix2 e c) 1 = c.val := by
  obtain ⟨uw, iw, sd, iv, wf⟩ := d
  dsimp only at h1 h2
  subst h1 h2
  unfold ScatterDims.window
  rw [dif_pos (by simp [ScatterDims.sKept, Shape.kept])]
  rfl

/-- Update entry `(e, c)` of a row scatter lands on operand entry `(p, k)` exactly when the start index of row `e`
    is `p` and the columns agree. -/
theorem rows_resultIdx {N C E w : Nat} (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (idx : IVec ⟨2, ![E, 1]⟩ w) (e : Fin E) (c : Fin C) (p : Fin N) (k : Fin C) :
    d.resultIdx? (ix2 e c) idx = some (ix2 p k) ↔ (idx (ix2 e (0 : Fin 1))).toInt = (p.val : Int) ∧ c = k := by
  have hs0 := rows_start0 d h1 h3 h4 idx e c
  have hs1 := rows_start1 d h3 idx (ix2 e c)
  have hw0 := rows_window0 d h2 (ix2 e c)
  have hw1 := rows_window1 d h1 h2 e c
  constructor
  · intro h
    unfold ScatterDims.resultIdx? at h
    split at h
    · next hall =>
      have hv := Option.some.inj h
      have v0 : (d.start (ix2 e c) idx 0 + d.window (ix2 e c) 0).toNat = p.val := congrArg Fin.val (congrFun hv 0)
      have v1 : (d.start (ix2 e c) idx 1 + d.window (ix2 e c) 1).toNat = k.val := congrArg Fin.val (congrFun hv 1)
      have h0 := (hall 0).1
      rw [hs0, hw0] at v0 h0
      rw [hs1, hw1] at v1
      exact ⟨by omega, Fin.ext (by omega)⟩
    · exact absurd h (by simp)
  · rintro ⟨ht, rfl⟩
    unfold ScatterDims.resultIdx?
    have hall : ∀ a, 0 ≤ d.start (ix2 e c) idx a + d.window (ix2 e c) a ∧
        d.start (ix2 e c) idx a + d.window (ix2 e c) a < (⟨2, ![N, C]⟩ : Shape).size a := by
      intro a
      match a with
      | ⟨0, _⟩ =>
        have := p.isLt
        show 0 ≤ d.start (ix2 e c) idx 0 + d.window (ix2 e c) 0 ∧ d.start (ix2 e c) idx 0 + d.window (ix2 e c) 0 < (N : Int)
        rw [hs0, hw0, ht]; omega
      | ⟨1, _⟩ =>
        have := c.isLt
        show 0 ≤ d.start (ix2 e c) idx 1 + d.window (ix2 e c) 1 ∧ d.start (ix2 e c) idx 1 + d.window (ix2 e c) 1 < (C : Int)
        rw [hs1, hw1]; omega
    rw [dif_pos hall]
    congr 1; funext a; refine Fin.ext ?_
    match a with
    | ⟨0, _⟩ =>
      show (d.start (ix2 e c) idx 0 + d.window (ix2 e c) 0).toNat = p.val
      rw [hs0, hw0, ht]; omega
    | ⟨1, _⟩ =>
      show (d.start (ix2 e c) idx 1 + d.window (ix2 e c) 1).toNat = c.val
      rw [hs1, hw1]; omega

/-- A row scatter-add at entry `(p, k)`: the operand's entry plus the update entries `(e, k)` of the rows `e` whose
    start index is `p`. -/
theorem scatterAdd_rows_apply {N C E w : Nat} (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (x : (⟨2, ![N, C]⟩ : Shape).Idx → EReal) (idx : IVec ⟨2, ![E, 1]⟩ w)
    (upd : (⟨2, ![E, C]⟩ : Shape).Idx → EReal) (p : Fin N) (k : Fin C) :
    Ideal.hostScatterAdd d x idx upd (ix2 p k)
      = x (ix2 p k) + ∑ e : Fin E, if (idx (ix2 e (0 : Fin 1))).toInt = (p.val : Int) then upd (ix2 e k) else 0 := by
  unfold Ideal.hostScatterAdd
  congr 1
  rw [Finset.sum_filter, sum_idx2]
  refine Finset.sum_congr rfl fun e _ => ?_
  by_cases ht : (idx (ix2 e (0 : Fin 1))).toInt = (p.val : Int)
  · rw [if_pos ht, Finset.sum_eq_single k]
    · rw [if_pos ((rows_resultIdx d h1 h2 h3 h4 idx e k p k).mpr ⟨ht, rfl⟩)]
    · intro c _ hc
      rw [if_neg (fun h => hc ((rows_resultIdx d h1 h2 h3 h4 idx e c p k).mp h).2)]
    · intro h; exact absurd (Finset.mem_univ k) h
  · rw [if_neg ht]
    refine Finset.sum_eq_zero fun c _ => ?_
    rw [if_neg (fun h => ht ((rows_resultIdx d h1 h2 h3 h4 idx e c p k).mp h).1)]

/-! ## The same for a vector: operand [N], scatter indices [E, 1], updates [E] -/

/-- A rank-1 index set is its one coordinate range, so a sum over it is the sum over the coordinate. -/
theorem sum_idx1 {M : Type*} [AddCommMonoid M] {n : Nat} (f : (⟨1, ![n]⟩ : Shape).Idx → M) :
    ∑ i, f i = ∑ a : Fin n, f (ix1 a) := by
  let eqv : (⟨1, ![n]⟩ : Shape).Idx ≃ Fin n :=
    { toFun := fun i => i 0, invFun := fun a => ix1 a, left_inv := fun i => (eq_ix1 i).symm, right_inv := fun _ => rfl }
  rw [← Equiv.sum_comp eqv.symm f]
  rfl

/-- Update entry `e` of a vector scatter lands on operand entry `p` exactly when its start index is `p`. -/
theorem elems_resultIdx {N E w : Nat} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (idx : IVec ⟨2, ![E, 1]⟩ w) (e : Fin E) (p : Fin N) :
    d.resultIdx? (ix1 e) idx = some (ix1 p) ↔ (idx (ix2 e (0 : Fin 1))).toInt = (p.val : Int) := by
  have hs0 : d.start (ix1 e) idx 0 = (idx (ix2 e (0 : Fin 1))).toInt := by
    obtain ⟨uw, iw, sd, iv, wf⟩ := d
    dsimp only at h1 h2 h3 h4
    subst h1 h2 h3 h4
    unfold ScatterDims.start
    rw [dif_pos (List.mem_singleton.mpr rfl)]
    refine congrArg (fun z : (⟨2, ![E, 1]⟩ : Shape).Idx => (idx z).toInt) ?_
    funext b; refine Fin.ext ?_
    match b with
    | ⟨0, _⟩ => rfl
    | ⟨1, _⟩ => rfl
  have hw0 : d.window (ix1 e) 0 = 0 := by
    obtain ⟨uw, iw, sd, iv, wf⟩ := d
    dsimp only at h1 h2 h3 h4
    subst h1 h2 h3 h4
    unfold ScatterDims.window
    rw [dif_neg (by simp [ScatterDims.sKept, Shape.kept])]
  constructor
  · intro h
    unfold ScatterDims.resultIdx? at h
    split at h
    · next hall =>
      have hv := Option.some.inj h
      have v0 : (d.start (ix1 e) idx 0 + d.window (ix1 e) 0).toNat = p.val := congrArg Fin.val (congrFun hv 0)
      have h0 := (hall 0).1
      rw [hs0, hw0] at v0 h0
      omega
    · exact absurd h (by simp)
  · intro ht
    unfold ScatterDims.resultIdx?
    have hall : ∀ a, 0 ≤ d.start (ix1 e) idx a + d.window (ix1 e) a ∧
        d.start (ix1 e) idx a + d.window (ix1 e) a < (⟨1, ![N]⟩ : Shape).size a := by
      intro a
      match a with
      | ⟨0, _⟩ =>
        have := p.isLt
        show 0 ≤ d.start (ix1 e) idx 0 + d.window (ix1 e) 0 ∧ d.start (ix1 e) idx 0 + d.window (ix1 e) 0 < (N : Int)
        rw [hs0, hw0, ht]; omega
    rw [dif_pos hall]
    congr 1; funext a; refine Fin.ext ?_
    match a with
    | ⟨0, _⟩ =>
      show (d.start (ix1 e) idx 0 + d.window (ix1 e) 0).toNat = p.val
      rw [hs0, hw0, ht]; omega

/-- A vector scatter-add at entry `p`: the operand's entry plus the update entries `e` whose start index is `p`. -/
theorem scatterAdd_elems_apply {N E w : Nat} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (x : (⟨1, ![N]⟩ : Shape).Idx → EReal) (idx : IVec ⟨2, ![E, 1]⟩ w)
    (upd : (⟨1, ![E]⟩ : Shape).Idx → EReal) (p : Fin N) :
    Ideal.hostScatterAdd d x idx upd (ix1 p)
      = x (ix1 p) + ∑ e : Fin E, if (idx (ix2 e (0 : Fin 1))).toInt = (p.val : Int) then upd (ix1 e) else 0 := by
  unfold Ideal.hostScatterAdd
  congr 1
  rw [Finset.sum_filter, sum_idx1]
  refine Finset.sum_congr rfl fun e _ => ?_
  by_cases ht : (idx (ix2 e (0 : Fin 1))).toInt = (p.val : Int)
  · rw [if_pos ht, if_pos ((elems_resultIdx d h1 h2 h3 h4 idx e p).mpr ht)]
  · rw [if_neg ht, if_neg (fun h => ht ((elems_resultIdx d h1 h2 h3 h4 idx e p).mp h))]

end Cert.LibScatterAddRows

end
-- ==== Proof.LibRealMask.lean ====
/-
  Masks as Booleans, and comparisons and roots of real numbers, on the extended reals.
  A one-bit mask built from comparisons is the bit of a Boolean: "and" of two such bits is the bit of the conjunction, "not" the bit
  of the negation, and a select on such a bit is an if on the Boolean. A comparison of two real numbers read on the extended reals is
  the bit of the real comparison. The square root of a non-negative real is its real square root; the inverse square root of a
  positive real is the inverse of its real square root, so a positive real times its inverse square root is its square root.
  Two natural numbers below 2^32, as 32-bit words, are equal exactly when the numbers are.
-/
import Mathlib
import Idealize.ShloMosaic.Lib.ValueIdx
import Idealize.ShloMosaic.PureOps.Ideal.Laws

noncomputable section

namespace Cert.LibRealMask

open Idealize.ShloMosaic

/-- A select on the bit of a Boolean is an if on the Boolean. -/
theorem sel_bool {α : Type} (a : Bool) (u v : α) : Scalar.select (BitVec.ofBool a) u v = if a = true then u else v := by
  cases a <;> rfl

/-- The "and" of two Booleans' bits is the bit of their conjunction. -/
theorem and_bool (a b : Bool) : IntOp.andi (BitVec.ofBool a) (BitVec.ofBool b) = BitVec.ofBool (a && b) := by
  cases a <;> cases b <;> rfl

/-- The complement of a Boolean's bit is the bit of its negation. -/
theorem not_bool (a : Bool) : ~~~(BitVec.ofBool a) = BitVec.ofBool (!a) := by cases a <;> rfl

/-- "Less than" between two reals, read on the extended reals. -/
theorem cmp_olt_coe (a b : ℝ) : Ideal.cmp .olt (a : EReal) (b : EReal) = BitVec.ofBool (decide (a < b)) := by
  simp only [Ideal.cmp, EReal.coe_lt_coe_iff]

/-- "Greater than" between two reals, read on the extended reals. -/
theorem cmp_ogt_coe (a b : ℝ) : Ideal.cmp .ogt (a : EReal) (b : EReal) = BitVec.ofBool (decide (b < a)) := by
  simp only [Ideal.cmp, EReal.coe_lt_coe_iff]

/-- The square root of a non-negative real. -/
theorem sqrt_coe (r : ℝ) (h : 0 ≤ r) : Ideal.sqrt (r : EReal) = ((Real.sqrt r : ℝ) : EReal) := by
  show (if r < 0 then (⊥ : EReal) else (Real.sqrt r : EReal)) = _
  rw [if_neg (not_lt.mpr h)]

/-- The inverse square root of a positive real. -/
theorem rsqrt_coe (r : ℝ) (h : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr h.le), if_neg h.ne']

/-- A positive real times its inverse square root is its square root. -/
theorem mul_rsqrt_coe (r : ℝ) (h : 0 < r) : ((r : ℝ) : EReal) * Ideal.rsqrt (r : EReal) = ((Real.sqrt r : ℝ) : EReal) := by
  rw [rsqrt_coe r h, ← EReal.coe_mul]
  congr 1
  have hpos : 0 < Real.sqrt r := Real.sqrt_pos.mpr h
  rw [mul_inv_eq_iff_eq_mul₀ hpos.ne']
  exact (Real.mul_self_sqrt h.le).symm

/-- Two naturals below 2^32, as 32-bit words, are equal exactly when the numbers are. -/
theorem word_eq_of_lt (i j : ℕ) (hi : i < 2 ^ 32) (hj : j < 2 ^ 32) :
    IntOp.cmpi .eq (BitVec.ofNat 32 i) (BitVec.ofNat 32 j) = BitVec.ofBool (decide (i = j)) := by
  simp only [IntOp.cmpi]
  congr 1
  rw [Bool.eq_iff_iff, beq_iff_eq, decide_eq_true_iff]
  constructor
  · intro h
    have := congrArg BitVec.toNat h
    simp only [BitVec.toNat_ofNat] at this
    omega
  · intro h; rw [h]

end Cert.LibRealMask

end
-- ==== Proof.LibDegreeNorm.lean ====
/-
  The degree normaliser is a non-negative real.

  A node's degree is a segment sum of ones over the edges that land on it: zero plus a finite sum of terms each 0 or 1,
  hence a non-negative real. The normaliser is 0 where the degree is not positive and the inverse square root of the
  degree where it is; the inverse square root of a positive real is the inverse of its real square root. Either way the
  normaliser is a real number and is not negative.
-/
import Mathlib
import proofs.«159551_j41910290874470_1_alg».proof.Proof.LibScatterAddRows
import proofs.«159551_j41910290874470_1_alg».proof.Proof.LibRealMask

open scoped BigOperators

namespace Cert.LibDegreeNorm

open Idealize.ShloMosaic Idealize.ShloMosaic.ValueIdx

/-- A finite sum of terms each 0 or 1 is a non-negative real. -/
theorem sum_zero_one {ι : Type*} (s : Finset ι) (f : ι → EReal) (hf : ∀ i, f i = 0 ∨ f i = 1) :
    ∃ r : ℝ, 0 ≤ r ∧ ∑ i ∈ s, f i = (r : EReal) := by
  classical
  induction s using Finset.induction_on with
  | empty => exact ⟨0, le_refl _, by simp⟩
  | insert a s ha ih =>
    obtain ⟨r, hr, e⟩ := ih
    rw [Finset.sum_insert ha, e]
    rcases hf a with h | h
    · exact ⟨r, hr, by rw [h, zero_add]⟩
    · refine ⟨1 + r, by positivity, ?_⟩
      rw [h, EReal.coe_add, EReal.coe_one]

/-- The normaliser of a degree that is a non-negative real: 0, or the inverse of a real square root. -/
theorem select_rsqrt (r : ℝ) (hr : 0 ≤ r) :
    0 ≤ Scalar.select (Ideal.cmp .ogt (r : EReal) 0) (Ideal.rsqrt (r : EReal)) (0 : EReal)
    ∧ Scalar.select (Ideal.cmp .ogt (r : EReal) 0) (Ideal.rsqrt (r : EReal)) (0 : EReal) ≠ ⊤ := by
  have hc : Ideal.cmp .ogt (r : EReal) 0 = BitVec.ofBool (decide ((0 : ℝ) < r)) := by
    rw [← EReal.coe_zero]; exact LibRealMask.cmp_ogt_coe r 0
  rw [hc, LibRealMask.sel_bool]
  by_cases h : (0 : ℝ) < r
  · rw [if_pos (decide_eq_true h), LibRealMask.rsqrt_coe r h]
    exact ⟨EReal.coe_nonneg.mpr (inv_nonneg.mpr (Real.sqrt_nonneg r)), EReal.coe_ne_top _⟩
  · rw [if_neg (by simpa using h)]
    exact ⟨le_refl _, EReal.zero_ne_top⟩

/-- The normaliser at node `p`, from the degree as a segment sum of ones into zeros. -/
theorem dinv_entry {N E w : Nat} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (z : (⟨1, ![N]⟩ : Shape).Idx → EReal) (hz : ∀ j, z j = 0)
    (dst : IVec ⟨2, ![E, 1]⟩ w) (ones : (⟨1, ![E]⟩ : Shape).Idx → EReal) (hones : ∀ j, ones j = 1) (p : Fin N) :
    0 ≤ Scalar.select (Ideal.cmp .ogt (Ideal.hostScatterAdd d z dst ones (ix1 p)) 0)
          (Ideal.rsqrt (Ideal.hostScatterAdd d z dst ones (ix1 p))) (0 : EReal)
    ∧ Scalar.select (Ideal.cmp .ogt (Ideal.hostScatterAdd d z dst ones (ix1 p)) 0)
          (Ideal.rsqrt (Ideal.hostScatterAdd d z dst ones (ix1 p))) (0 : EReal) ≠ ⊤ := by
  rw [LibScatterAddRows.scatterAdd_elems_apply d h1 h2 h3 h4, hz, zero_add]
  obtain ⟨r, hr, e⟩ := sum_zero_one Finset.univ
    (fun e : Fin E => if (dst (ix2 e (0 : Fin 1))).toInt = (p.val : Int) then ones (ix1 e) else 0)
    (fun e => by by_cases h : (dst (ix2 e (0 : Fin 1))).toInt = (p.val : Int)
                 · exact Or.inr (by rw [if_pos h, hones])
                 · exact Or.inl (by rw [if_neg h]))
  rw [e]
  exact select_rsqrt r hr

end Cert.LibDegreeNorm
-- ==== Proof.AggReal.lean ====
/-
  The graph aggregation of real-valued features is real-valued.

  Entry (i, k) of the aggregation is 0 plus the sum, over the list positions e whose target is i, of
  coefficient(e) · h(source row of e, k). A degree is 0 plus a finite sum of zeros and ones, so a non-negative
  real; a weight is 0 where the degree is not positive and the inverse of a real square root where it is, so a
  non-negative real too. A coefficient is a product of two weights read at some nodes, hence real; a contribution
  is a coefficient times an entry of h read at some row, hence real when h is; and a finite sum of reals (with
  zeros at the positions that do not land on row i) is real. Which node or row a read lands on, and which
  positions land on row i, never matters: every candidate is real.
-/
import proofs.«159551_j41910290874470_1_alg».proof.Proof.Agg
import proofs.«159551_j41910290874470_1_alg».proof.Proof.LibScatterAddRows
import proofs.«159551_j41910290874470_1_alg».proof.Proof.LibDegreeNorm
import proofs.«159551_j41910290874470_1_alg».proof.Proof.VarLaw
import Idealize.ShloMosaic.PureOps.Ideal.Laws

noncomputable section

namespace Cert.Agg

open Idealize.ShloMosaic Idealize.ShloMosaic.ValueIdx Cert.KernelIdeal

/-! ## Being real is kept by 0, +, ·, if, finite sums -/

theorem real_zero : ∃ r : ℝ, (0 : EReal) = (r : EReal) := ⟨0, EReal.coe_zero.symm⟩

theorem real_add {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

theorem real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

theorem real_ite {c : Prop} [Decidable c] {x y : EReal} (hx : ∃ r : ℝ, x = (r : EReal))
    (hy : ∃ r : ℝ, y = (r : EReal)) : ∃ r : ℝ, (if c then x else y) = (r : EReal) := by
  split
  · exact hx
  · exact hy

theorem real_sum {ι : Type*} (s : Finset ι) (f : ι → EReal) (hf : ∀ i, ∃ r : ℝ, f i = (r : EReal)) :
    ∃ r : ℝ, ∑ i ∈ s, f i = (r : EReal) := by
  choose g hg using hf
  refine ⟨∑ i ∈ s, g i, ?_⟩
  rw [Cert.Spec.coe_finsum]
  exact Finset.sum_congr rfl (fun i _ => hg i)

/-- An extended real that is neither negative nor +∞ is a real number. -/
theorem real_of_nonneg_ne_top {x : EReal} (h0 : 0 ≤ x) (ht : x ≠ ⊤) : ∃ r : ℝ, x = (r : EReal) :=
  ⟨x.toReal, (EReal.coe_toReal ht (lt_of_lt_of_le EReal.bot_lt_zero h0).ne').symm⟩

variable [hK : Cert.KernelIdeal.Facts]
open Cert.KernelIdeal.Facts₀ Cert.KernelIdeal.Facts

/-! ## The constant arrays -/

/-- The word 0x3F800000 has sign 0, exponent field 127 and fraction field 0: it denotes 2^23 · 2^(−23) = 1. -/
theorem ofBits_one_f32 : Ideal.ofBits .f32 0x3F800000#32 = 1 := by
  simp [Ideal.ofBits, Ideal.ieee, -EReal.coe_mul]; norm_num

theorem zeros1_apply (j : S100000.Idx) :
    broadcastInDim S100000 ![] bcast_S_S100000 (constant (F := Ideal) S_ .f32 0x00000000#32) j = 0 := by
  show Ideal.ofBits .f32 0x00000000#32 = 0
  exact Ideal.ofBits_zero_f32

theorem ones_apply (j : S700000.Idx) :
    broadcastInDim S700000 ![] bcast_S_S700000 (constant (F := Ideal) S_ .f32 0x3F800000#32) j = 1 := by
  show Ideal.ofBits .f32 0x3F800000#32 = 1
  exact ofBits_one_f32

theorem zeros2_apply (j : S100000x128.Idx) :
    broadcastInDim S100000x128 ![] bcast_S_S100000x128 (constant (F := Ideal) S_ .f32 0x00000000#32) j = 0 := by
  show Ideal.ofBits .f32 0x00000000#32 = 0
  exact Ideal.ofBits_zero_f32

/-! ## The array operations at an entry, for arbitrary arrays -/

theorem scatterAdd_eq {s si u : Shape} {w : Nat} (d : ScatterDims s si u) (x : FVec Ideal s .f32) (idx : IVec si w)
    (upd : FVec Ideal u .f32) : Host.scatterAdd d x idx upd = Ideal.hostScatterAdd d x idx upd := rfl

theorem sel_apply {s : Shape} (D Z Z' : FVec Ideal s .f32) (q : s.Idx) :
    select (cmpf .ogt D Z) (Host.rsqrt D) Z' q
      = Scalar.select (Ideal.cmp .ogt (D q) (Z q)) (Ideal.rsqrt (D q)) (Z' q) := rfl

theorem mulf_apply {s : Shape} (a b : FVec Ideal s .f32) (j : s.Idx) : mulf a b j = a j * b j := rfl

theorem gather_apply {s si t : Shape} {w : Nat} (d : GatherDims s si t) (x : FVec Ideal s .f32) (idx : IVec si w)
    (j : t.Idx) : Host.gather d x idx j = x (d.operandIdx j idx) := rfl

/-- A broadcast reads its operand at some index. -/
theorem bcast_apply {s t : Shape} {α : Type} (dims : Fin s.rank → Fin t.rank) (hb : s.BroadcastsInDim t dims)
    (x : s.Idx → α) (j : t.Idx) : ∃ j', broadcastInDim t dims hb x j = x j' := ⟨_, rfl⟩

/-! ## Weights -/

theorem zeros1id_apply (j : S100000.Idx) :
    broadcastInDim S100000 ![] bcast_S_S100000 (id (constant (F := Ideal) S_ .f32 0x00000000#32)) j = 0 := by
  show Ideal.ofBits .f32 0x00000000#32 = 0
  exact Ideal.ofBits_zero_f32

/-- The degree array is the exact segment sum of ones into zeros. -/
theorem deg_eq (ei : IVec S2x600000 32) :
    deg ei = Ideal.hostScatterAdd scatter_S100000_S700000x1_S700000_n_0_0_1
      (broadcastInDim S100000 ![] bcast_S_S100000 (constant (F := Ideal) S_ .f32 0x00000000#32))
      (col (dstIdx ei))
      (broadcastInDim S700000 ![] bcast_S_S700000 (constant (F := Ideal) S_ .f32 0x3F800000#32)) :=
  scatterAdd_eq scatter_S100000_S700000x1_S700000_n_0_0_1
    (broadcastInDim S100000 ![] bcast_S_S100000 (constant (F := Ideal) S_ .f32 0x00000000#32))
    (col (dstIdx ei))
    (broadcastInDim S700000 ![] bcast_S_S700000 (constant (F := Ideal) S_ .f32 0x3F800000#32))

/-- The weight of node p: a non-negative extended real other than +∞, hence a real. -/
theorem weight_real (ei : IVec S2x600000 32) (p : Fin 100000) : ∃ r : ℝ, weight ei (ix1 p) = (r : EReal) := by
  have h := LibDegreeNorm.dinv_entry scatter_S100000_S700000x1_S700000_n_0_0_1 rfl rfl rfl rfl
    (broadcastInDim S100000 ![] bcast_S_S100000 (constant (F := Ideal) S_ .f32 0x00000000#32)) zeros1_apply
    (col (dstIdx ei))
    (broadcastInDim S700000 ![] bcast_S_S700000 (constant (F := Ideal) S_ .f32 0x3F800000#32)) ones_apply p
  have hw : weight ei (ix1 p)
      = Scalar.select (Ideal.cmp .ogt (deg ei (ix1 p))
            (broadcastInDim S100000 ![] bcast_S_S100000 (constant (F := Ideal) S_ .f32 0x00000000#32) (ix1 p)))
          (Ideal.rsqrt (deg ei (ix1 p)))
          (broadcastInDim S100000 ![] bcast_S_S100000 (id (constant (F := Ideal) S_ .f32 0x00000000#32)) (ix1 p)) :=
    sel_apply (deg ei) _ _ (ix1 p)
  rw [hw, zeros1_apply, zeros1id_apply, deg_eq]
  exact real_of_nonneg_ne_top h.1 h.2

/-- The weight read at any index of the node array. -/
theorem weight_real_idx (ei : IVec S2x600000 32) (q : S100000.Idx) : ∃ r : ℝ, weight ei q = (r : EReal) := by
  rw [eq_ix1 q]
  exact weight_real ei _

/-! ## Coefficients and contributions -/

/-- A coefficient is a product of two weights, each read at some node. -/
theorem coef_real (ei : IVec S2x600000 32) (j : S700000.Idx) : ∃ r : ℝ, coef ei j = (r : EReal) := by
  have hc : coef ei j
      = Host.gather gather_S100000_S700000x1_S700000_n_0_n_n_0_1_1 (weight ei) (wrapped (srcIdx ei)) j
        * Host.gather gather_S100000_S700000x1_S700000_n_0_n_n_0_1_1 (weight ei) (wrapped (dstIdx ei)) j :=
    mulf_apply _ _ j
  rw [hc, gather_apply, gather_apply]
  exact real_mul (weight_real_idx ei _) (weight_real_idx ei _)

/-- A contribution is a coefficient, read at some list position, times an entry of h, read at some row. -/
theorem contrib_real (h : FVec Ideal S100000x128 .f32) (ei : IVec S2x600000 32)
    (hh : ∀ (i : Fin 100000) (k : Fin 128), ∃ r : ℝ, h (ix2 i k) = (r : EReal)) (j : S700000x128.Idx) :
    ∃ r : ℝ, contrib h ei j = (r : EReal) := by
  have hq : ∀ q : S100000x128.Idx, ∃ r : ℝ, h q = (r : EReal) := fun q => by
    rw [eq_ix2 q]
    exact hh _ _
  have hc : contrib h ei j
      = broadcastInDim S700000x128 ![0, 1] bcast_S700000x1_S700000x128_0_1
          (broadcastInDim S700000x1 ![0] bcast_S700000_S700000x1_0 (coef ei)) j
        * Host.gather gather_S100000x128_S700000x1_S700000x128_1_0_n_n_0_1_1128 h (wrapped (srcIdx ei)) j :=
    mulf_apply _ _ j
  obtain ⟨j1, e1⟩ := bcast_apply ![0, 1] bcast_S700000x1_S700000x128_0_1
    (broadcastInDim S700000x1 ![0] bcast_S700000_S700000x1_0 (coef ei)) j
  obtain ⟨j2, e2⟩ := bcast_apply ![0] bcast_S700000_S700000x1_0 (coef ei) j1
  rw [hc, e1, e2, gather_apply]
  exact real_mul (coef_real ei _) (hq _)

/-! ## The aggregation -/

theorem agg_real (h : FVec Ideal S100000x128 .f32) (ei : IVec S2x600000 32)
    (hh : ∀ (i : Fin 100000) (k : Fin 128), ∃ r : ℝ, h (ix2 i k) = (r : EReal)) (i : Fin 100000) (k : Fin 128) :
    ∃ r : ℝ, agg h ei (ix2 i k) = (r : EReal) := by
  have e : agg h ei
      = Ideal.hostScatterAdd scatter_S100000x128_S700000x1_S700000x128_1_0_0_1
          (broadcastInDim S100000x128 ![] bcast_S_S100000x128 (constant (F := Ideal) S_ .f32 0x00000000#32))
          (col (dstIdx ei)) (contrib h ei) :=
    scatterAdd_eq scatter_S100000x128_S700000x1_S700000x128_1_0_0_1
      (broadcastInDim S100000x128 ![] bcast_S_S100000x128 (constant (F := Ideal) S_ .f32 0x00000000#32))
      (col (dstIdx ei)) (contrib h ei)
  rw [e, LibScatterAddRows.scatterAdd_rows_apply scatter_S100000x128_S700000x1_S700000x128_1_0_0_1 rfl rfl rfl rfl,
    zeros2_apply, zero_add]
  exact real_sum _ _ (fun e => real_ite (contrib_real h ei hh _) real_zero)

end Cert.Agg

end
-- ==== Proof.KReal.lean ====
/-
  The kernel program's result with the variance of the centred values.

  Region 0's array is relu(x) · W entry by entry. The inputs being real-valued, so are the hidden features (finite
  sums of products of reals), their aggregation, and the aggregation plus bias: the matrix v whose columns are
  normalised. On a real-valued column the variance from the first two moments is the variance of the centred
  values, so the kernel program's result is γ_j · (v_ij − μ_j) · ((1/N) Σ_i (v_ij − μ_j)² + ε)^(−1/2) + β_j.
-/
import proofs.«159551_j41910290874470_1_alg».proof.Proof.KValue
import proofs.«159551_j41910290874470_1_alg».proof.Proof.KRegion0
import proofs.«159551_j41910290874470_1_alg».proof.Proof.KRegion1
import proofs.«159551_j41910290874470_1_alg».proof.Proof.KRegion2
import proofs.«159551_j41910290874470_1_alg».proof.Proof.VarLaw
import proofs.«159551_j41910290874470_1_alg».proof.Proof.HidReal
import proofs.«159551_j41910290874470_1_alg».proof.Proof.AggReal

set_option maxRecDepth 16384

noncomputable section

namespace Cert.KSide

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg) (c : Dev nD)

/-- The kernel program's hidden features, entry by entry: relu(x) · W of the launch arrays. -/
theorem hidK_apply (i : Fin 100000) (j : Fin 128) :
    atN (hidK m ρ c) i j = hidOf (m ((c : Thread nD τ).loc main_arg0)) (m ((c : Thread nD τ).loc main_arg2)) i j := by
  have h0 := region0_value (V0 m ρ) c i j
  show atN (W1 m ρ c (Proc.devRef .tc main_v0)) i j = _
  rw [W1_v0]
  exact h0

section Real
variable (hx : ∀ (i : Fin 100000) (k : Fin 128), ∃ r : ℝ, atN (m ((c : Thread nD τ).loc main_arg0)) i k = (r : EReal))
  (hW : ∀ (k j : Fin 128), ∃ r : ℝ, (m ((c : Thread nD τ).loc main_arg2) : FVec Ideal S128x128 .f32) (ix2 k j) = (r : EReal))
  (hb : ∀ j : Fin 128, ∃ r : ℝ, atVec (m ((c : Thread nD τ).loc main_arg3)) j = (r : EReal))
include hx hW hb

/-- The matrix whose columns are normalised is real-valued. -/
theorem biased_real (i : Fin 100000) (j : Fin 128) : ∃ r : ℝ, biasedK m ρ c i j = (r : EReal) := by
  have hh : ∀ (i : Fin 100000) (k : Fin 128), ∃ r : ℝ, hidK m ρ c (ix2 i k) = (r : EReal) := by
    intro i k
    have e := hidK_apply m ρ c i k
    unfold atN hidOf at e
    rw [e]
    exact Cert.Spec.hid_real _ _ (fun i k => hx i k) (fun k j => hW k j) i k
  obtain ⟨a, ha⟩ := Cert.Agg.agg_real (hidK m ρ c) (m ((c : Thread nD τ).loc main_arg1)) hh i j
  obtain ⟨b, hb'⟩ := hb j
  refine ⟨a + b, ?_⟩
  unfold biasedK atN
  rw [ha, hb', EReal.coe_add]

/-- The kernel program's result at (i, j), with the variance of the centred values. -/
theorem kernel_result (i : Fin 100000) (j : Fin 128) :
    atN (W7 m ρ c (Proc.devRef .tc main_v54)) i j
      = Cert.Spec.normalized (Cert.Spec.varCentered (biasedK m ρ c)) (biasedK m ρ c)
          (atVec (m ((c : Thread nD τ).loc main_arg4))) (atVec (m ((c : Thread nD τ).loc main_arg5))) i j := by
  have hk := kernel_value m ρ c (region1_sum (V4 m ρ) c) (region1_sumsq (V4 m ρ) c) (region2_value (V6 m ρ) c) i j
  have hvar : Cert.Spec.varMoments (biasedK m ρ c) = Cert.Spec.varCentered (biasedK m ρ c) :=
    funext fun j => Cert.Spec.varMoments_eq_varCentered (biasedK m ρ c) (biased_real m ρ c hx hW hb) j
  rw [← hvar]
  exact hk

end Real

end Cert.KSide

end
-- ==== Proof.RefRunOps.lean ====
/-
  The plain reference program as a straight line of host operations.

  Its entry function calls four outlined functions (a rectifier, two selects against a scalar, a column variance
  that itself calls one of the selects); here every call is replaced by the callee's own operations over the
  buffers that call names, so the whole program is one list of 107 operations. The list is cut into six
  stretches, each with one result that later stretches read:
    W1  the rectifier and the matrix product              -> the hidden features h
    W2  the aggregation of h along the edge list          -> the aggregated features
    W3  the bias added per column                         -> the pre-normalisation values v (and a zero scalar)
    W4  the column sums divided by the number of rows     -> the column means
    W5  the column variances of v (centred form)          -> the column variances
    W6  scale · (v − mean) · (variance + ε)^(−1/2) + shift -> the result
  For every stretch: each operation only names buffers of the device, none allocates, and the list of buffers the
  stretch writes (so that any other buffer is known to keep its contents through it).
-/
import proofs.«159551_j41910290874470_1_alg».proof.ReferenceIdeal
import Idealize.ShloMosaic.Lib.StableHlo.Run
import Idealize.ShloMosaic.PureOps.Ideal

noncomputable section

namespace Cert.RefSide

open Cert.ReferenceIdeal Idealize.ShloMosaic Idealize.ShloMosaic.TcCoe Idealize.SL.Sem Idealize.ShloMosaic.StableHlo

variable {F : FTy → Type} [FloatOps F] [hR : Cert.ReferenceIdeal.Facts]
open Cert.ReferenceIdeal.Facts₀ Cert.ReferenceIdeal.Facts

/-- Running two lists one after the other is running their concatenation. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Two lists of node numbers, 600000 and 100000 long, one after the other. -/
def cat (a : IVec S600000 32) (b : IVec S100000 32) : IVec S700000 32 :=
  concatenate S700000 0 [⟨S600000, a⟩, ⟨S100000, b⟩] concatenates_S600000_S100000_S700000_d0

/-- The operations of stretch W1, in order. -/
def W1 : List (HloOp τ sig (Elt F)) :=
  [ StableHlo.TRef.nullary main_call0.cst (constant S_ .f32 0x00000000#32),
    StableHlo.TRef.unary main_call0.cst main_call0.v0 (broadcastInDim S100000x128 ![] bcast_S_S100000x128),
    StableHlo.TRef.binary (StableHlo.TRef.of (T := ⟨S100000x128, .f32⟩) main_arg0) main_call0.v0 main_call0.v1 maximumf,
    StableHlo.binary main_v0 main_arg2 main_v1 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

set_option maxRecDepth 8192 in
theorem W1_sub : (W1 : List (HloOp τ sig (Elt F))).Forall fun op => op.bufs ⊆ tcRefs τ sig := by
  unfold W1
  exact ⟨nullary_bufs_sub .., unary_bufs_sub .., binary_bufs_sub .., binary_bufs_sub ..⟩

set_option maxRecDepth 8192 in
theorem W1_fresh : ∀ op ∈ (W1 : List (HloOp τ sig (Elt F))), op.fresh = ∅ := by
  unfold W1
  intro _ h; (repeat (cases h with | head => rfl | tail _ h => ?_)); exact nomatch h

/-- The buffers stretch W1 writes. -/
abbrev W1_W : List (Ref sig .tc) := [main_call0_cst, main_call0_v0, main_v0, main_v1]
set_option maxRecDepth 8192 in
theorem W1_writes : (W1 : List (HloOp τ sig (Elt F))).Forall fun op => op.writes ⊆ (W1_W.map (Proc.devRef (τ := τ) .tc)).toFinset := by
  simp only [W1, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer stretch W1 does not write keeps its contents through it. -/
theorem W1_keep (V : Valuation τ sig (Elt F)) (r : Ref sig .tc) (h : r ∉ W1_W) :
    after W1 V (Proc.devRef .tc r) = V (Proc.devRef .tc r) :=
  after_of_writes_sub W1 V W1_writes h

/-- The operations of stretch W2, in order. -/
def W2 : List (HloOp τ sig (Elt F)) :=
  [ StableHlo.nullary main_v2 (iotaInDim S100000 32 0),
    StableHlo.unary main_arg1 main_v3 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v3 main_v4 rfl shapeCasts_S1x600000_S600000,
    StableHlo.binary main_v4 main_v2 main_v5 (cat : (⟨S600000, .i32⟩ : BufTy).Contents (Elt F) → (⟨S100000, .i32⟩ : BufTy).Contents (Elt F) → (⟨S700000, .i32⟩ : BufTy).Contents (Elt F)),
    StableHlo.unary main_arg1 main_v6 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v6 main_v7 rfl shapeCasts_S1x600000_S600000,
    StableHlo.binary main_v7 main_v2 main_v8 (cat : (⟨S600000, .i32⟩ : BufTy).Contents (Elt F) → (⟨S100000, .i32⟩ : BufTy).Contents (Elt F) → (⟨S700000, .i32⟩ : BufTy).Contents (Elt F)),
    StableHlo.nullary main_cst (constant S_ .f32 0x3F800000#32),
    StableHlo.unary main_cst main_v9 (broadcastInDim S700000 ![] bcast_S_S700000 : (⟨S_, .f32⟩ : BufTy).Contents (Elt F) → (⟨S700000, .f32⟩ : BufTy).Contents (Elt F)),
    StableHlo.nullary main_cst_0 (constant S_ .f32 0x00000000#32),
    StableHlo.unary main_cst_0 main_v10 (broadcastInDim S100000 ![] bcast_S_S100000 : (⟨S_, .f32⟩ : BufTy).Contents (Elt F) → (⟨S100000, .f32⟩ : BufTy).Contents (Elt F)),
    StableHlo.unary main_v8 main_v11 (broadcastInDim S700000x1 ![0] bcast_S700000_S700000x1_0 : (⟨S700000, .i32⟩ : BufTy).Contents (Elt F) → (⟨S700000x1, .i32⟩ : BufTy).Contents (Elt F)),
    StableHlo.ternary main_v10 main_v11 main_v9 main_v12 ((fun x i u => Host.scatterAdd scatter_S100000_S700000x1_S700000_n_0_0_1 x i u) : (⟨S100000, .f32⟩ : BufTy).Contents (Elt F) → (⟨S700000x1, .i32⟩ : BufTy).Contents (Elt F) → (⟨S700000, .f32⟩ : BufTy).Contents (Elt F) → (⟨S100000, .f32⟩ : BufTy).Contents (Elt F)),
    StableHlo.nullary main_cst_1 (constant S_ .f32 0x00000000#32),
    StableHlo.unary main_cst_1 main_v13 (broadcastInDim S100000 ![] bcast_S_S100000 : (⟨S_, .f32⟩ : BufTy).Contents (Elt F) → (⟨S100000, .f32⟩ : BufTy).Contents (Elt F)),
    StableHlo.binary main_v12 main_v13 main_v14 (cmpf .ogt : (⟨S100000, .f32⟩ : BufTy).Contents (Elt F) → (⟨S100000, .f32⟩ : BufTy).Contents (Elt F) → (⟨S100000, .i1⟩ : BufTy).Contents (Elt F)),
    StableHlo.unary main_v12 main_v15 (Host.rsqrt : (⟨S100000, .f32⟩ : BufTy).Contents (Elt F) → (⟨S100000, .f32⟩ : BufTy).Contents (Elt F)),
    StableHlo.nullary main_cst_2 (constant S_ .f32 0x00000000#32),
    StableHlo.TRef.unary (StableHlo.TRef.of (T := ⟨S_, .f32⟩) main_cst_2) main_call1.v0 id,
    StableHlo.TRef.unary main_call1.v0 main_call1.v1 (broadcastInDim S100000 ![] bcast_S_S100000),
    StableHlo.TRef.ternary (StableHlo.TRef.of (T := ⟨S100000, .i1⟩) main_v14) (StableHlo.TRef.of (T := ⟨S100000, .f32⟩) main_v15) main_call1.v1 main_call1.v2 select,
    StableHlo.nullary main_c (constantI S_ 32 0#32),
    StableHlo.unary main_c main_v17 (broadcastInDim S700000 ![] bcast_S_S700000 : (⟨S_, .i32⟩ : BufTy).Contents (Elt F) → (⟨S700000, .i32⟩ : BufTy).Contents (Elt F)),
    StableHlo.binary main_v5 main_v17 main_v18 (cmpi .slt : (⟨S700000, .i32⟩ : BufTy).Contents (Elt F) → (⟨S700000, .i32⟩ : BufTy).Contents (Elt F) → (⟨S700000, .i1⟩ : BufTy).Contents (Elt F)),
    StableHlo.nullary main_c_3 (constantI S_ 32 100000#32),
    StableHlo.unary main_c_3 main_v19 (broadcastInDim S700000 ![] bcast_S_S700000 : (⟨S_, .i32⟩ : BufTy).Contents (Elt F) → (⟨S700000, .i32⟩ : BufTy).Contents (Elt F)),
    StableHlo.binary main_v5 main_v19 main_v20 (addi : (⟨S700000, .i32⟩ : BufTy).Contents (Elt F) → (⟨S700000, .i32⟩ : BufTy).Contents (Elt F) → (⟨S700000, .i32⟩ : BufTy).Contents (Elt F)),
    StableHlo.ternary main_v18 main_v20 main_v5 main_v21 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    StableHlo.unary main_v21 main_v22 (broadcastInDim S700000x1 ![0] bcast_S700000_S700000x1_0 : (⟨S700000, .i32⟩ : BufTy).Contents (Elt F) → (⟨S700000x1, .i32⟩ : BufTy).Contents (Elt F)),
    StableHlo.binary main_v16 main_v22 main_v23 ((fun x i => Host.gather gather_S100000_S700000x1_S700000_n_0_n_n_0_1_1 x i) : (⟨S100000, .f32⟩ : BufTy).Contents (Elt F) → (⟨S700000x1, .i32⟩ : BufTy).Contents (Elt F) → (⟨S700000, .f32⟩ : BufTy).Contents (Elt F)),
    StableHlo.nullary main_c_4 (constantI S_ 32 0#32),
    StableHlo.unary main_c_4 main_v24 (broadcastInDim S700000 ![] bcast_S_S700000 : (⟨S_, .i32⟩ : BufTy).Contents (Elt F) → (⟨S700000, .i32⟩ : BufTy).Contents (Elt F)),
    StableHlo.binary main_v8 main_v24 main_v25 (cmpi .slt : (⟨S700000, .i32⟩ : BufTy).Contents (Elt F) → (⟨S700000, .i32⟩ : BufTy).Contents (Elt F) → (⟨S700000, .i1⟩ : BufTy).Contents (Elt F)),
    StableHlo.nullary main_c_5 (constantI S_ 32 100000#32),
    StableHlo.unary main_c_5 main_v26 (broadcastInDim S700000 ![] bcast_S_S700000 : (⟨S_, .i32⟩ : BufTy).Contents (Elt F) → (⟨S700000, .i32⟩ : BufTy).Contents (Elt F)),
    StableHlo.binary main_v8 main_v26 main_v27 (addi : (⟨S700000, .i32⟩ : BufTy).Contents (Elt F) → (⟨S700000, .i32⟩ : BufTy).Contents (Elt F) → (⟨S700000, .i32⟩ : BufTy).Contents (Elt F)),
    StableHlo.ternary main_v25 main_v27 main_v8 main_v28 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    StableHlo.unary main_v28 main_v29 (broadcastInDim S700000x1 ![0] bcast_S700000_S700000x1_0 : (⟨S700000, .i32⟩ : BufTy).Contents (Elt F) → (⟨S700000x1, .i32⟩ : BufTy).Contents (Elt F)),
    StableHlo.binary main_v16 main_v29 main_v30 ((fun x i => Host.gather gather_S100000_S700000x1_S700000_n_0_n_n_0_1_1 x i) : (⟨S100000, .f32⟩ : BufTy).Contents (Elt F) → (⟨S700000x1, .i32⟩ : BufTy).Contents (Elt F) → (⟨S700000, .f32⟩ : BufTy).Contents (Elt F)),
    StableHlo.binary main_v23 main_v30 main_v31 (mulf : (⟨S700000, .f32⟩ : BufTy).Contents (Elt F) → (⟨S700000, .f32⟩ : BufTy).Contents (Elt F) → (⟨S700000, .f32⟩ : BufTy).Contents (Elt F)),
    StableHlo.unary main_v31 main_v32 (broadcastInDim S700000x1 ![0] bcast_S700000_S700000x1_0 : (⟨S700000, .f32⟩ : BufTy).Contents (Elt F) → (⟨S700000x1, .f32⟩ : BufTy).Contents (Elt F)),
    StableHlo.nullary main_c_6 (constantI S_ 32 0#32),
    StableHlo.unary main_c_6 main_v33 (broadcastInDim S700000 ![] bcast_S_S700000 : (⟨S_, .i32⟩ : BufTy).Contents (Elt F) → (⟨S700000, .i32⟩ : BufTy).Contents (Elt F)),
    StableHlo.binary main_v5 main_v33 main_v34 (cmpi .slt : (⟨S700000, .i32⟩ : BufTy).Contents (Elt F) → (⟨S700000, .i32⟩ : BufTy).Contents (Elt F) → (⟨S700000, .i1⟩ : BufTy).Contents (Elt F)),
    StableHlo.nullary main_c_7 (constantI S_ 32 100000#32),
    StableHlo.unary main_c_7 main_v35 (broadcastInDim S700000 ![] bcast_S_S700000 : (⟨S_, .i32⟩ : BufTy).Contents (Elt F) → (⟨S700000, .i32⟩ : BufTy).Contents (Elt F)),
    StableHlo.binary main_v5 main_v35 main_v36 (addi : (⟨S700000, .i32⟩ : BufTy).Contents (Elt F) → (⟨S700000, .i32⟩ : BufTy).Contents (Elt F) → (⟨S700000, .i32⟩ : BufTy).Contents (Elt F)),
    StableHlo.ternary main_v34 main_v36 main_v5 main_v37 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    StableHlo.unary main_v37 main_v38 (broadcastInDim S700000x1 ![0] bcast_S700000_S700000x1_0 : (⟨S700000, .i32⟩ : BufTy).Contents (Elt F) → (⟨S700000x1, .i32⟩ : BufTy).Contents (Elt F)),
    StableHlo.binary main_v1 main_v38 main_v39 ((fun x i => Host.gather gather_S100000x128_S700000x1_S700000x128_1_0_n_n_0_1_1128 x i) : (⟨S100000x128, .f32⟩ : BufTy).Contents (Elt F) → (⟨S700000x1, .i32⟩ : BufTy).Contents (Elt F) → (⟨S700000x128, .f32⟩ : BufTy).Contents (Elt F)),
    StableHlo.unary main_v32 main_v40 (broadcastInDim S700000x128 ![0, 1] bcast_S700000x1_S700000x128_0_1 : (⟨S700000x1, .f32⟩ : BufTy).Contents (Elt F) → (⟨S700000x128, .f32⟩ : BufTy).Contents (Elt F)),
    StableHlo.binary main_v40 main_v39 main_v41 (mulf : (⟨S700000x128, .f32⟩ : BufTy).Contents (Elt F) → (⟨S700000x128, .f32⟩ : BufTy).Contents (Elt F) → (⟨S700000x128, .f32⟩ : BufTy).Contents (Elt F)),
    StableHlo.nullary main_cst_8 (constant S_ .f32 0x00000000#32),
    StableHlo.unary main_cst_8 main_v42 (broadcastInDim S100000x128 ![] bcast_S_S100000x128 : (⟨S_, .f32⟩ : BufTy).Contents (Elt F) → (⟨S100000x128, .f32⟩ : BufTy).Contents (Elt F)),
    StableHlo.unary main_v8 main_v43 (broadcastInDim S700000x1 ![0] bcast_S700000_S700000x1_0 : (⟨S700000, .i32⟩ : BufTy).Contents (Elt F) → (⟨S700000x1, .i32⟩ : BufTy).Contents (Elt F)),
    StableHlo.ternary main_v42 main_v43 main_v41 main_v44 ((fun x i u => Host.scatterAdd scatter_S100000x128_S700000x1_S700000x128_1_0_0_1 x i u) : (⟨S100000x128, .f32⟩ : BufTy).Contents (Elt F) → (⟨S700000x1, .i32⟩ : BufTy).Contents (Elt F) → (⟨S700000x128, .f32⟩ : BufTy).Contents (Elt F) → (⟨S100000x128, .f32⟩ : BufTy).Contents (Elt F)) ]

set_option maxRecDepth 8192 in
theorem W2_sub : (W2 : List (HloOp τ sig (Elt F))).Forall fun op => op.bufs ⊆ tcRefs τ sig := by
  unfold W2
  exact ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩

set_option maxRecDepth 8192 in
theorem W2_fresh : ∀ op ∈ (W2 : List (HloOp τ sig (Elt F))), op.fresh = ∅ := by
  unfold W2
  intro _ h; (repeat (cases h with | head => rfl | tail _ h => ?_)); exact nomatch h

/-- The buffers stretch W2 writes. -/
abbrev W2_W : List (Ref sig .tc) := [main_v2, main_v3, main_v4, main_v5, main_v6, main_v7, main_v8, main_cst, main_v9, main_cst_0, main_v10, main_v11, main_v12, main_cst_1, main_v13, main_v14, main_v15, main_cst_2, main_call1_v0, main_call1_v1, main_v16, main_c, main_v17, main_v18, main_c_3, main_v19, main_v20, main_v21, main_v22, main_v23, main_c_4, main_v24, main_v25, main_c_5, main_v26, main_v27, main_v28, main_v29, main_v30, main_v31, main_v32, main_c_6, main_v33, main_v34, main_c_7, main_v35, main_v36, main_v37, main_v38, main_v39, main_v40, main_v41, main_cst_8, main_v42, main_v43, main_v44]
set_option maxRecDepth 8192 in
theorem W2_writes : (W2 : List (HloOp τ sig (Elt F))).Forall fun op => op.writes ⊆ (W2_W.map (Proc.devRef (τ := τ) .tc)).toFinset := by
  simp only [W2, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer stretch W2 does not write keeps its contents through it. -/
theorem W2_keep (V : Valuation τ sig (Elt F)) (r : Ref sig .tc) (h : r ∉ W2_W) :
    after W2 V (Proc.devRef .tc r) = V (Proc.devRef .tc r) :=
  after_of_writes_sub W2 V W2_writes h

/-- The operations of stretch W3, in order. -/
def W3 : List (HloOp τ sig (Elt F)) :=
  [ StableHlo.unary main_arg3 main_v45 (broadcastInDim S1x128 ![1] bcast_S128_S1x128_1 : (⟨S128, .f32⟩ : BufTy).Contents (Elt F) → (⟨S1x128, .f32⟩ : BufTy).Contents (Elt F)),
    StableHlo.unary main_v45 main_v46 (broadcastInDim S100000x128 ![0, 1] bcast_S1x128_S100000x128_0_1 : (⟨S1x128, .f32⟩ : BufTy).Contents (Elt F) → (⟨S100000x128, .f32⟩ : BufTy).Contents (Elt F)),
    StableHlo.binary main_v44 main_v46 main_v47 (addf : (⟨S100000x128, .f32⟩ : BufTy).Contents (Elt F) → (⟨S100000x128, .f32⟩ : BufTy).Contents (Elt F) → (⟨S100000x128, .f32⟩ : BufTy).Contents (Elt F)),
    StableHlo.nullary main_cst_9 (constant S_ .f32 0x00000000#32) ]

set_option maxRecDepth 8192 in
theorem W3_sub : (W3 : List (HloOp τ sig (Elt F))).Forall fun op => op.bufs ⊆ tcRefs τ sig := by
  unfold W3
  exact ⟨unary_bufs_sub .., unary_bufs_sub .., binary_bufs_sub .., nullary_bufs_sub ..⟩

set_option maxRecDepth 8192 in
theorem W3_fresh : ∀ op ∈ (W3 : List (HloOp τ sig (Elt F))), op.fresh = ∅ := by
  unfold W3
  intro _ h; (repeat (cases h with | head => rfl | tail _ h => ?_)); exact nomatch h

/-- The buffers stretch W3 writes. -/
abbrev W3_W : List (Ref sig .tc) := [main_v45, main_v46, main_v47, main_cst_9]
set_option maxRecDepth 8192 in
theorem W3_writes : (W3 : List (HloOp τ sig (Elt F))).Forall fun op => op.writes ⊆ (W3_W.map (Proc.devRef (τ := τ) .tc)).toFinset := by
  simp only [W3, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer stretch W3 does not write keeps its contents through it. -/
theorem W3_keep (V : Valuation τ sig (Elt F)) (r : Ref sig .tc) (h : r ∉ W3_W) :
    after W3 V (Proc.devRef .tc r) = V (Proc.devRef .tc r) :=
  after_of_writes_sub W3 V W3_writes h

/-- The operations of stretch W4, in order. -/
def W4 : List (HloOp τ sig (Elt F)) :=
  [ StableHlo.binary main_v47 main_cst_9 main_v48 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_10 (constant S_ .f32 0x47C35000#32),
    StableHlo.unary main_cst_10 main_v49 (broadcastInDim S128 ![] bcast_S_S128 : (⟨S_, .f32⟩ : BufTy).Contents (Elt F) → (⟨S128, .f32⟩ : BufTy).Contents (Elt F)),
    StableHlo.binary main_v48 main_v49 main_v50 (Host.divf : (⟨S128, .f32⟩ : BufTy).Contents (Elt F) → (⟨S128, .f32⟩ : BufTy).Contents (Elt F) → (⟨S128, .f32⟩ : BufTy).Contents (Elt F)) ]

set_option maxRecDepth 8192 in
theorem W4_sub : (W4 : List (HloOp τ sig (Elt F))).Forall fun op => op.bufs ⊆ tcRefs τ sig := by
  unfold W4
  exact ⟨binary_bufs_sub .., nullary_bufs_sub .., unary_bufs_sub .., binary_bufs_sub ..⟩

set_option maxRecDepth 8192 in
theorem W4_fresh : ∀ op ∈ (W4 : List (HloOp τ sig (Elt F))), op.fresh = ∅ := by
  unfold W4
  intro _ h; (repeat (cases h with | head => rfl | tail _ h => ?_)); exact nomatch h

/-- The buffers stretch W4 writes. -/
abbrev W4_W : List (Ref sig .tc) := [main_v48, main_cst_10, main_v49, main_v50]
set_option maxRecDepth 8192 in
theorem W4_writes : (W4 : List (HloOp τ sig (Elt F))).Forall fun op => op.writes ⊆ (W4_W.map (Proc.devRef (τ := τ) .tc)).toFinset := by
  simp only [W4, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer stretch W4 does not write keeps its contents through it. -/
theorem W4_keep (V : Valuation τ sig (Elt F)) (r : Ref sig .tc) (h : r ∉ W4_W) :
    after W4 V (Proc.devRef .tc r) = V (Proc.devRef .tc r) :=
  after_of_writes_sub W4 V W4_writes h

/-- The operations of stretch W5, in order. -/
def W5 : List (HloOp τ sig (Elt F)) :=
  [ StableHlo.nullary main_c_11 (constantI S_ 32 0#32),
    StableHlo.TRef.nullary main_call2.cst (constant S_ .f32 0x00000000#32),
    StableHlo.TRef.binary (StableHlo.TRef.of (T := ⟨S100000x128, .f32⟩) main_v47) main_call2.cst main_call2.v0 (fun x v => Host.reduceAdd x v reducesTo_S100000x128_S128_d0 h_S_),
    StableHlo.TRef.unary main_call2.v0 main_call2.v1 (broadcastInDim S1x128 ![1] bcast_S128_S1x128_1),
    StableHlo.TRef.nullary main_call2.cst_0 (constant S_ .f32 0x47C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S100000x128 ![0, 1] bcast_S1x128_S100000x128_0_1),
    StableHlo.TRef.binary (StableHlo.TRef.of (T := ⟨S100000x128, .f32⟩) main_v47) main_call2.v4 main_call2.v5 subf,
    StableHlo.TRef.binary main_call2.v5 main_call2.v5 main_call2.v6 mulf,
    StableHlo.TRef.unary (StableHlo.TRef.of (T := ⟨S_, .i32⟩) main_c_11) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b) ]

set_option maxRecDepth 8192 in
theorem W5_sub : (W5 : List (HloOp τ sig (Elt F))).Forall fun op => op.bufs ⊆ tcRefs τ sig := by
  unfold W5
  exact ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

set_option maxRecDepth 8192 in
theorem W5_fresh : ∀ op ∈ (W5 : List (HloOp τ sig (Elt F))), op.fresh = ∅ := by
  unfold W5
  intro _ h; (repeat (cases h with | head => rfl | tail _ h => ?_)); exact nomatch h

/-- The buffers stretch W5 writes. -/
abbrev W5_W : List (Ref sig .tc) := [main_c_11, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v51]
set_option maxRecDepth 8192 in
theorem W5_writes : (W5 : List (HloOp τ sig (Elt F))).Forall fun op => op.writes ⊆ (W5_W.map (Proc.devRef (τ := τ) .tc)).toFinset := by
  simp only [W5, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer stretch W5 does not write keeps its contents through it. -/
theorem W5_keep (V : Valuation τ sig (Elt F)) (r : Ref sig .tc) (h : r ∉ W5_W) :
    after W5 V (Proc.devRef .tc r) = V (Proc.devRef .tc r) :=
  after_of_writes_sub W5 V W5_writes h

/-- The operations of stretch W6, in order. -/
def W6 : List (HloOp τ sig (Elt F)) :=
  [ StableHlo.unary main_v50 main_v52 (broadcastInDim S1x128 ![1] bcast_S128_S1x128_1 : (⟨S128, .f32⟩ : BufTy).Contents (Elt F) → (⟨S1x128, .f32⟩ : BufTy).Contents (Elt F)),
    StableHlo.unary main_v52 main_v53 (broadcastInDim S100000x128 ![0, 1] bcast_S1x128_S100000x128_0_1 : (⟨S1x128, .f32⟩ : BufTy).Contents (Elt F) → (⟨S100000x128, .f32⟩ : BufTy).Contents (Elt F)),
    StableHlo.binary main_v47 main_v53 main_v54 (subf : (⟨S100000x128, .f32⟩ : BufTy).Contents (Elt F) → (⟨S100000x128, .f32⟩ : BufTy).Contents (Elt F) → (⟨S100000x128, .f32⟩ : BufTy).Contents (Elt F)),
    StableHlo.unary main_arg4 main_v55 (broadcastInDim S1x128 ![1] bcast_S128_S1x128_1 : (⟨S128, .f32⟩ : BufTy).Contents (Elt F) → (⟨S1x128, .f32⟩ : BufTy).Contents (Elt F)),
    StableHlo.unary main_v55 main_v56 (broadcastInDim S100000x128 ![0, 1] bcast_S1x128_S100000x128_0_1 : (⟨S1x128, .f32⟩ : BufTy).Contents (Elt F) → (⟨S100000x128, .f32⟩ : BufTy).Contents (Elt F)),
    StableHlo.binary main_v56 main_v54 main_v57 (mulf : (⟨S100000x128, .f32⟩ : BufTy).Contents (Elt F) → (⟨S100000x128, .f32⟩ : BufTy).Contents (Elt F) → (⟨S100000x128, .f32⟩ : BufTy).Contents (Elt F)),
    StableHlo.nullary main_cst_12 (constant S_ .f32 0x3727C5AC#32),
    StableHlo.unary main_cst_12 main_v58 (broadcastInDim S128 ![] bcast_S_S128 : (⟨S_, .f32⟩ : BufTy).Contents (Elt F) → (⟨S128, .f32⟩ : BufTy).Contents (Elt F)),
    StableHlo.binary main_v51 main_v58 main_v59 (addf : (⟨S128, .f32⟩ : BufTy).Contents (Elt F) → (⟨S128, .f32⟩ : BufTy).Contents (Elt F) → (⟨S128, .f32⟩ : BufTy).Contents (Elt F)),
    StableHlo.unary main_v59 main_v60 (Host.rsqrt : (⟨S128, .f32⟩ : BufTy).Contents (Elt F) → (⟨S128, .f32⟩ : BufTy).Contents (Elt F)),
    StableHlo.unary main_v60 main_v61 (broadcastInDim S1x128 ![1] bcast_S128_S1x128_1 : (⟨S128, .f32⟩ : BufTy).Contents (Elt F) → (⟨S1x128, .f32⟩ : BufTy).Contents (Elt F)),
    StableHlo.unary main_v61 main_v62 (broadcastInDim S100000x128 ![0, 1] bcast_S1x128_S100000x128_0_1 : (⟨S1x128, .f32⟩ : BufTy).Contents (Elt F) → (⟨S100000x128, .f32⟩ : BufTy).Contents (Elt F)),
    StableHlo.binary main_v57 main_v62 main_v63 (mulf : (⟨S100000x128, .f32⟩ : BufTy).Contents (Elt F) → (⟨S100000x128, .f32⟩ : BufTy).Contents (Elt F) → (⟨S100000x128, .f32⟩ : BufTy).Contents (Elt F)),
    StableHlo.unary main_arg5 main_v64 (broadcastInDim S1x128 ![1] bcast_S128_S1x128_1 : (⟨S128, .f32⟩ : BufTy).Contents (Elt F) → (⟨S1x128, .f32⟩ : BufTy).Contents (Elt F)),
    StableHlo.unary main_v64 main_v65 (broadcastInDim S100000x128 ![0, 1] bcast_S1x128_S100000x128_0_1 : (⟨S1x128, .f32⟩ : BufTy).Contents (Elt F) → (⟨S100000x128, .f32⟩ : BufTy).Contents (Elt F)),
    StableHlo.binary main_v63 main_v65 main_v66 (addf : (⟨S100000x128, .f32⟩ : BufTy).Contents (Elt F) → (⟨S100000x128, .f32⟩ : BufTy).Contents (Elt F) → (⟨S100000x128, .f32⟩ : BufTy).Contents (Elt F)) ]

set_option maxRecDepth 8192 in
theorem W6_sub : (W6 : List (HloOp τ sig (Elt F))).Forall fun op => op.bufs ⊆ tcRefs τ sig := by
  unfold W6
  exact ⟨unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub ..⟩

set_option maxRecDepth 8192 in
theorem W6_fresh : ∀ op ∈ (W6 : List (HloOp τ sig (Elt F))), op.fresh = ∅ := by
  unfold W6
  intro _ h; (repeat (cases h with | head => rfl | tail _ h => ?_)); exact nomatch h

/-- The buffers stretch W6 writes. -/
abbrev W6_W : List (Ref sig .tc) := [main_v52, main_v53, main_v54, main_v55, main_v56, main_v57, main_cst_12, main_v58, main_v59, main_v60, main_v61, main_v62, main_v63, main_v64, main_v65, main_v66]
set_option maxRecDepth 8192 in
theorem W6_writes : (W6 : List (HloOp τ sig (Elt F))).Forall fun op => op.writes ⊆ (W6_W.map (Proc.devRef (τ := τ) .tc)).toFinset := by
  simp only [W6, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer stretch W6 does not write keeps its contents through it. -/
theorem W6_keep (V : Valuation τ sig (Elt F)) (r : Ref sig .tc) (h : r ∉ W6_W) :
    after W6 V (Proc.devRef .tc r) = V (Proc.devRef .tc r) :=
  after_of_writes_sub W6 V W6_writes h

/-- The whole program: the six stretches in order. -/
def ops : List (HloOp τ sig (Elt F)) := (W1 ++ (W2 ++ W3)) ++ (W4 ++ (W5 ++ W6))

set_option maxRecDepth 16384 in
set_option maxHeartbeats 4000000 in
/-- The first window of the entry function is the first three stretches. -/
theorem part0_eq (c : Dev nD) : main_part0 (F := F) c = seq (W1 ++ (W2 ++ W3)) := rfl

set_option maxRecDepth 16384 in
set_option maxHeartbeats 4000000 in
/-- The second window of the entry function is the last three stretches. -/
theorem part1_eq (c : Dev nD) : main_part1 (F := F) c = seq (W4 ++ (W5 ++ W6)) := rfl

/-- The entry function is the straight line of the 107 operations. -/
theorem main_eq (c : Dev nD) : main (F := F) c = seq ops := by
  show (main_part0 (F := F) c >>= fun _ => main_part1 (F := F) c) = _
  rw [part0_eq, part1_eq, ← seq_append]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with (h | h | h) | (h | h | h)
    exacts [List.forall_iff_forall_mem.mp W1_sub op h, List.forall_iff_forall_mem.mp W2_sub op h, List.forall_iff_forall_mem.mp W3_sub op h,
      List.forall_iff_forall_mem.mp W4_sub op h, List.forall_iff_forall_mem.mp W5_sub op h, List.forall_iff_forall_mem.mp W6_sub op h]

theorem ops_fresh : ∀ op ∈ (ops : List (HloOp τ sig (Elt F))), op.fresh = ∅ := by
  intro op h
  simp only [ops, List.mem_append] at h
  rcases h with (h | h | h) | (h | h | h)
  exacts [W1_fresh op h, W2_fresh op h, W3_fresh op h, W4_fresh op h, W5_fresh op h, W6_fresh op h]

/-- A buffer none of the six stretches writes holds at the end what it held at the start. -/
theorem ops_keep (V : Valuation τ sig (Elt F)) (r : Ref sig .tc) (h1 : r ∉ W1_W) (h2 : r ∉ W2_W) (h3 : r ∉ W3_W)
    (h4 : r ∉ W4_W) (h5 : r ∉ W5_W) (h6 : r ∉ W6_W) :
    after ops V (Proc.devRef .tc r) = V (Proc.devRef .tc r) := by
  simp only [ops, after_append]
  rw [W6_keep _ r h6, W5_keep _ r h5, W4_keep _ r h4, W3_keep _ r h3, W2_keep _ r h2, W1_keep _ r h1]

end Cert.RefSide

end
-- ==== Proof.RefDefs.lean ====
/-
  What the plain reference program computes, as pure functions of its six argument arrays.

  With x the node features, ei the edge list, W the weights, b the bias, g the scale and be the shift:
    h    = relu(x) · W                                        (hostH)
    v    = aggregate(h, ei) + b, b repeated along the rows       (refV; the aggregation is the shared chain Cert.Agg.agg)
    mean = (column sums of v) / 100000                           (colMean)
    var  = (column sums of (v − mean)²) / (100000 − 0), kept where 100000 − 0 > 0 and NaN elsewhere   (colVar)
    out  = g · (v − mean) · (var + ε)^(−1/2) + be, the four row vectors repeated along the rows       (normalize)
-/
import proofs.«159551_j41910290874470_1_alg».proof.ReferenceIdeal
import proofs.«159551_j41910290874470_1_alg».proof.Proof.Agg
import proofs.«159551_j41910290874470_1_alg».proof.Proof.RefRunOps
import Idealize.ShloMosaic.PureOps.Ideal

noncomputable section

namespace Cert.RefSide

open Cert.ReferenceIdeal Idealize.ShloMosaic

variable [hK : Cert.KernelIdeal.Facts] [hR : Cert.ReferenceIdeal.Facts]
open Cert.ReferenceIdeal.Facts₀ Cert.ReferenceIdeal.Facts

/-! ## The aggregation, over the reference's own records -/

/-- Source node of every list position: row 0 of the edge list, then the self loops. -/
def rSrc (ei : IVec S2x600000 32) : IVec S700000 32 :=
  cat (shapeCast S600000 (extractStridedSlice S1x600000 ![0, 0] ei slices_S2x600000_S1x600000_0_0) shapeCasts_S1x600000_S600000)
    (iotaInDim S100000 32 0)

/-- Target node of every list position: row 1 of the edge list, then the self loops. -/
def rDst (ei : IVec S2x600000 32) : IVec S700000 32 :=
  cat (shapeCast S600000 (extractStridedSlice S1x600000 ![1, 0] ei slices_S2x600000_S1x600000_1_0) shapeCasts_S1x600000_S600000)
    (iotaInDim S100000 32 0)

/-- A list of node numbers as a one-column index array. -/
def rCol (v : IVec S700000 32) : IVec S700000x1 32 := broadcastInDim S700000x1 ![0] bcast_S700000_S700000x1_0 v

/-- The degree of every node. -/
def rDeg (ei : IVec S2x600000 32) : FVec Ideal S100000 .f32 :=
  Host.scatterAdd scatter_S100000_S700000x1_S700000_n_0_0_1
    (broadcastInDim S100000 ![] bcast_S_S100000 (constant (F := Ideal) S_ .f32 0x00000000#32))
    (rCol (rDst ei))
    (broadcastInDim S700000 ![] bcast_S_S700000 (constant (F := Ideal) S_ .f32 0x3F800000#32))

/-- The weight of every node: deg^(−1/2) where the degree is positive, 0 elsewhere. -/
def rWeight (ei : IVec S2x600000 32) : FVec Ideal S100000 .f32 :=
  select (cmpf .ogt (rDeg ei) (broadcastInDim S100000 ![] bcast_S_S100000 (constant (F := Ideal) S_ .f32 0x00000000#32)))
    (Host.rsqrt (rDeg ei))
    (broadcastInDim S100000 ![] bcast_S_S100000 (id (constant (F := Ideal) S_ .f32 0x00000000#32)))

/-- Negative node numbers wrapped by the number of nodes, as an index column. -/
def rWrapped (v : IVec S700000 32) : IVec S700000x1 32 :=
  rCol (select (cmpi .slt v (broadcastInDim S700000 ![] bcast_S_S700000 (constantI S_ 32 0#32)))
    (addi v (broadcastInDim S700000 ![] bcast_S_S700000 (constantI S_ 32 100000#32))) v)

/-- The coefficient of every list position. -/
def rCoef (ei : IVec S2x600000 32) : FVec Ideal S700000 .f32 :=
  mulf (Host.gather gather_S100000_S700000x1_S700000_n_0_n_n_0_1_1 (rWeight ei) (rWrapped (rSrc ei)))
    (Host.gather gather_S100000_S700000x1_S700000_n_0_n_n_0_1_1 (rWeight ei) (rWrapped (rDst ei)))

/-- What every list position contributes: its coefficient times the row of h at its source. -/
def rContrib (h : FVec Ideal S100000x128 .f32) (ei : IVec S2x600000 32) : FVec Ideal S700000x128 .f32 :=
  mulf (broadcastInDim S700000x128 ![0, 1] bcast_S700000x1_S700000x128_0_1
      (broadcastInDim S700000x1 ![0] bcast_S700000_S700000x1_0 (rCoef ei)))
    (Host.gather gather_S100000x128_S700000x1_S700000x128_1_0_n_n_0_1_1128 h (rWrapped (rSrc ei)))

/-- The aggregated features. -/
def refAgg (h : FVec Ideal S100000x128 .f32) (ei : IVec S2x600000 32) : FVec Ideal S100000x128 .f32 :=
  Host.scatterAdd scatter_S100000x128_S700000x1_S700000x128_1_0_0_1
    (broadcastInDim S100000x128 ![] bcast_S_S100000x128 (constant (F := Ideal) S_ .f32 0x00000000#32))
    (rCol (rDst ei))
    (rContrib h ei)

/-! ## The pure functions of the six stretches -/

/-- The hidden features: relu(x) · W. -/
def hostH (x : FVec Ideal S100000x128 .f32) (W : FVec Ideal S128x128 .f32) : FVec Ideal S100000x128 .f32 :=
  Host.dotGeneral dot_S100000x128_S128x128_S100000x128_1_0_0_1_n_n none
    (maximumf x (broadcastInDim S100000x128 ![] bcast_S_S100000x128 (constant (F := Ideal) S_ .f32 0x00000000#32))) W

/-- A vector of 128 entries repeated along the 100000 rows. -/
def rows (u : FVec Ideal S128 .f32) : FVec Ideal S100000x128 .f32 :=
  broadcastInDim S100000x128 ![0, 1] bcast_S1x128_S100000x128_0_1 (broadcastInDim S1x128 ![1] bcast_S128_S1x128_1 u)

/-- The pre-normalisation values: the aggregated features plus the bias of their column. -/
def refV (a : FVec Ideal S100000x128 .f32) (b : FVec Ideal S128 .f32) : FVec Ideal S100000x128 .f32 :=
  addf a (rows b)

/-- The column sums. -/
def colSums (v : FVec Ideal S100000x128 .f32) : FVec Ideal S128 .f32 :=
  Host.reduceAdd v (constant (F := Ideal) S_ .f32 0x00000000#32) reducesTo_S100000x128_S128_d0 h_S_

/-- The column means: the column sums divided by the number of rows. -/
def colMean (v : FVec Ideal S100000x128 .f32) : FVec Ideal S128 .f32 :=
  Host.divf (colSums v) (broadcastInDim S128 ![] bcast_S_S128 (constant (F := Ideal) S_ .f32 0x47C35000#32))

/-- The values minus the mean of their column, the mean computed on a one-row matrix and repeated along the rows. -/
def centred (v : FVec Ideal S100000x128 .f32) : FVec Ideal S100000x128 .f32 :=
  subf v (broadcastInDim S100000x128 ![0, 1] bcast_S1x128_S100000x128_0_1
    (Host.divf (broadcastInDim S1x128 ![1] bcast_S128_S1x128_1 (colSums v))
      (broadcastInDim S1x128 ![] bcast_S_S1x128 (constant (F := Ideal) S_ .f32 0x47C35000#32))))

/-- The divisor of the variance: the number of rows minus zero degrees of freedom. -/
def nEff : FVec Ideal S_ .f32 :=
  subf (constant (F := Ideal) S_ .f32 0x47C35000#32) (sitofp .f32 (constantI S_ 32 0#32))

/-- The column variances: the column sums of the squared centred values over the divisor, kept where the divisor is
    positive, NaN elsewhere. -/
def colVar (v : FVec Ideal S100000x128 .f32) : FVec Ideal S128 .f32 :=
  select (broadcastInDim S128 ![] bcast_S_S128 (cmpf .ogt nEff (constant (F := Ideal) S_ .f32 0x00000000#32)))
    (Host.divf (colSums (mulf (centred v) (centred v))) (broadcastInDim S128 ![] bcast_S_S128 nEff))
    (broadcastInDim S128 ![] bcast_S_S128 (id (constant (F := Ideal) S_ .f32 0x7FC00000#32)))

/-- The normalised, scaled and shifted values. -/
def normalize (v : FVec Ideal S100000x128 .f32) (mean var g be : FVec Ideal S128 .f32) : FVec Ideal S100000x128 .f32 :=
  addf (mulf (mulf (rows g) (subf v (rows mean)))
      (rows (Host.rsqrt (addf var (broadcastInDim S128 ![] bcast_S_S128 (constant (F := Ideal) S_ .f32 0x3727C5AC#32))))))
    (rows be)

/-- The pre-normalisation values as a function of the arguments. -/
def refOutV (x : FVec Ideal S100000x128 .f32) (ei : IVec S2x600000 32) (W : FVec Ideal S128x128 .f32) (b : FVec Ideal S128 .f32) :
    FVec Ideal S100000x128 .f32 :=
  refV (Cert.Agg.agg (hostH x W) ei) b

/-- The program's result as a function of its six arguments. -/
def refOut (x : FVec Ideal S100000x128 .f32) (ei : IVec S2x600000 32) (W : FVec Ideal S128x128 .f32) (b g be : FVec Ideal S128 .f32) :
    FVec Ideal S100000x128 .f32 :=
  normalize (refOutV x ei W b) (colMean (refOutV x ei W b)) (colVar (refOutV x ei W b)) g be

end Cert.RefSide

end
-- ==== Proof.RefHid.lean ====
/-
  The hidden features read at an entry.

  The reference's matrix product contracts axis 1 of its left operand (the rectified features, 100000 × 128) with
  axis 0 of its right one (the weights, 128 × 128), so entry (i, j) of the product is the sum over k of the entries
  (i, k) and (k, j) multiplied; the rectifier is a maximum with a zero repeated over the matrix. Hence entry (i, j) of
  the hidden features is Σ_k max(x_ik, 0) · W_kj.
-/
import proofs.«159551_j41910290874470_1_alg».proof.Proof.RefDefs
import proofs.«159551_j41910290874470_1_alg».proof.Proof.Spec
import proofs.«159551_j41910290874470_1_alg».proof.Proof.LibDot

noncomputable section

namespace Cert.RefSide

open Cert.ReferenceIdeal Idealize.ShloMosaic Idealize.ShloMosaic.ValueIdx

variable [hK : Cert.KernelIdeal.Facts] [hR : Cert.ReferenceIdeal.Facts]
open Cert.ReferenceIdeal.Facts₀ Cert.ReferenceIdeal.Facts

/-- The reference's matrix product contracts axis 1 of its left operand with axis 0 of its right one. -/
theorem dot_plain : Cert.LibDot.Plain (M := 100000) (K := 128) (N := 128) dot_S100000x128_S128x128_S100000x128_1_0_0_1_n_n where
  hrank := rfl
  hs := rfl
  hl0 := fun _ _ => rfl
  hl1 := fun j k => DotDims.lhsIdx_val_of_single _ rfl j k
  hr0 := fun j k => DotDims.rhsIdx_val_of_single _ rfl j k
  hr1 := fun _ _ => rfl

/-- Row i, column j of the hidden features: the sum over k of max(x_ik, 0) · W_kj. -/
theorem hostH_apply (x : FVec Ideal S100000x128 .f32) (W : FVec Ideal S128x128 .f32) (i : Fin 100000) (j : Fin 128) :
    hostH x W (ValueIdx.ix2 i j) = Cert.Spec.hid (fun i k => x (ValueIdx.ix2 i k)) (fun k j => W (ValueIdx.ix2 k j)) i j := by
  unfold hostH Cert.Spec.hid
  rw [Cert.LibDot.dotGeneral_ix2 dot_plain]
  refine Finset.sum_congr rfl fun k _ => ?_
  rw [maximumf_apply]
  congr 2
  exact Ideal.ofBits_zero_f32

end Cert.RefSide

end
-- ==== Proof.RefNorm.lean ====
/-
  The reference's normalisation read at an index, over the extended reals.

  A vector of 128 entries repeated along the rows reads, at (i, j), its entry j. The column sums read at j are the
  sums over the 100000 rows (the zero they start from adds nothing); the column mean is that sum over the number of
  rows, whether the division is done on the vector or on its one-row layout. The variance's divisor is the number of
  rows minus the real number zero, that is the number of rows; it is a positive real, so the guard on it holds and the
  guarded quotient is the quotient. Entry (i, j) of the result is then
  g j · (v i j − mean j) · (var j + ε)^(−1/2) + be j with the centred variance.
-/
import proofs.«159551_j41910290874470_1_alg».proof.Proof.RefDefs
import proofs.«159551_j41910290874470_1_alg».proof.Proof.VarLaw
import proofs.«159551_j41910290874470_1_alg».proof.Proof.LibRealMask
import proofs.«159551_j41910290874470_1_alg».proof.Proof.LibRowSum
import Idealize.ShloMosaic.Lib.IdealHost
import Idealize.ShloMosaic.Lib.KernelVsHost

noncomputable section

namespace Cert.RefSide

open Cert.ReferenceIdeal Idealize.ShloMosaic Idealize.ShloMosaic.ValueIdx

/-! ## Two readings over any sizes -/

/-- A vector of `n` entries laid out as a one-row matrix reads, at `(z, t)`, its entry `t`. -/
theorem broadcastInDim_toRow_apply {α : Type} {n : ℕ}
    (h : (⟨1, ![n]⟩ : Shape).BroadcastsInDim ⟨2, ![1, n]⟩ ![1]) (u : (⟨1, ![n]⟩ : Shape).Idx → α) (z : Fin 1) (t : Fin n) :
    broadcastInDim ⟨2, ![1, n]⟩ ![1] h u (ix2 z t) = u (ix1 t) := by
  refine broadcastInDim_apply ![1] h u (ix2 z t) (ix1 t) ?_
  intro a
  fin_cases a
  show t.val = if n = 1 then 0 else t.val
  split_ifs with hn
  · have := t.isLt; omega
  · rfl

/-- The host's sum along the first axis of a `[K, b]` array, read at column `j`: the initial value plus `∑ k, x (k, j)`. -/
theorem hostReduceAdd_cols_apply {K b : ℕ} (x : FVec Ideal ⟨2, ![K, b]⟩ .f32) (init : (⟨0, ![]⟩ : Shape).Idx → Ideal .f32)
    (h : (⟨2, ![K, b]⟩ : Shape).ReducesTo [0] ⟨1, ![b]⟩) (hr : (⟨2, ![K, b]⟩ : Shape).Reduces [0] ⟨1, ![b]⟩)
    (hu : 0 < (⟨0, ![]⟩ : Shape).numel) (j : Fin b) :
    Host.reduceAdd x init h hu (ix1 j) = init (Shape.Idx.first hu) + ∑ k : Fin K, x (ix2 k j) :=
  (hostReduceAdd_apply x init h hu (ix1 j)).trans
    ((Ideal.hostReduceAdd_single h hr x _ (ix1 j)).trans
      (congrArg (init (Shape.Idx.first hu) + ·) (Finset.sum_congr rfl fun k _ => congrArg x (idx2_ext _ k j rfl rfl))))

variable [hK : Cert.KernelIdeal.Facts] [hR : Cert.ReferenceIdeal.Facts]
open Cert.ReferenceIdeal.Facts₀ Cert.ReferenceIdeal.Facts

/-! ## The reference's stages at an index -/

/-- A vector repeated along the rows reads, at `(i, j)`, its entry `j`. -/
theorem rows_apply (u : FVec Ideal S128 .f32) (i : Fin 100000) (j : Fin 128) : rows u (ix2 i j) = u (ix1 j) := by
  unfold rows
  exact (broadcastInDim_oneRow_apply _ _ i j).trans (broadcastInDim_toRow_apply _ u 0 j)

/-- The pre-normalisation value at `(i, j)`: the aggregated feature plus the bias of its column. -/
theorem refV_apply (a : FVec Ideal Cert.ReferenceIdeal.S100000x128 .f32) (b : FVec Ideal Cert.ReferenceIdeal.S128 .f32)
    (i : Fin 100000) (j : Fin 128) : refV a b (ix2 i j) = a (ix2 i j) + b (ix1 j) := by
  unfold refV
  exact (addf_apply a (rows b) (ix2 i j)).trans (congrArg (a (ix2 i j) + ·) (rows_apply b i j))

/-- The column sums at `j`: the sum over all rows. -/
theorem colSums_apply (v : FVec Ideal S100000x128 .f32) (j : Fin 128) :
    colSums v (ix1 j) = ∑ i : Fin 100000, v (ix2 i j) := by
  unfold colSums
  refine (hostReduceAdd_cols_apply v _ _ (by decide) _ j).trans ?_
  show Ideal.ofBits .f32 0x00000000#32 + _ = _
  rw [Ideal.ofBits_zero_f32, zero_add]

/-- The column mean at `j`. -/
theorem colMean_apply (v : FVec Ideal S100000x128 .f32) (j : Fin 128) :
    colMean v (ix1 j) = Cert.Spec.mean (fun i j => v (ix2 i j)) j := by
  unfold colMean Cert.Spec.mean Cert.Spec.colSum Cert.Spec.nW
  refine (hostDivf_apply _ _ _).trans ?_
  refine congrArg₂ Ideal.div (colSums_apply v j) ?_
  exact (broadcastInDim_scalar_apply _ _ _).trans rfl

/-- The centred value at `(i, j)`: the mean taken on the one-row layout is the same number. -/
theorem centred_apply (v : FVec Ideal S100000x128 .f32) (i : Fin 100000) (j : Fin 128) :
    centred v (ix2 i j) = v (ix2 i j) - Cert.Spec.mean (fun i j => v (ix2 i j)) j := by
  unfold centred Cert.Spec.mean Cert.Spec.colSum Cert.Spec.nW
  refine (subf_apply _ _ _).trans ?_
  refine congrArg (v (ix2 i j) - ·) ?_
  refine (broadcastInDim_oneRow_apply _ _ i j).trans ?_
  refine (hostDivf_apply _ _ _).trans ?_
  refine congrArg₂ Ideal.div ((broadcastInDim_toRow_apply _ _ 0 j).trans (colSums_apply v j)) ?_
  exact (broadcastInDim_scalar_apply _ _ _).trans rfl

/-- The variance's divisor is the number of rows: it is that number minus the real number zero. -/
theorem nEff_apply : nEff ix0 = Cert.Spec.nW := by
  unfold nEff Cert.Spec.nW
  show Ideal.ofBits .f32 0x47C35000#32 - (((0#32 : BitVec 32).toInt : ℝ) : EReal) = _
  simp

/-- The guard on the divisor holds: the number of rows is a positive real. -/
theorem guard_apply (j : Fin 128) :
    broadcastInDim S128 ![] bcast_S_S128 (cmpf .ogt nEff (constant (F := Ideal) S_ .f32 0x00000000#32)) (ix1 j) = 1#1 := by
  refine (broadcastInDim_scalar_apply _ _ _).trans ?_
  show Ideal.cmp .ogt (nEff ix0) (Ideal.ofBits .f32 0x00000000#32) = 1#1
  rw [nEff_apply, Cert.Spec.nW_eq, Ideal.ofBits_zero_f32, ← EReal.coe_zero, Cert.LibRealMask.cmp_ogt_coe,
    decide_eq_true (by norm_num : (0 : ℝ) < 100000)]
  rfl

/-- The column variance at `j` is the centred variance. -/
theorem colVar_apply (v : FVec Ideal S100000x128 .f32) (j : Fin 128) :
    colVar v (ix1 j) = Cert.Spec.varCentered (fun i j => v (ix2 i j)) j := by
  unfold colVar
  refine (select_apply _ _ _ _).trans ?_
  refine (congrArg (fun b => Scalar.select b _ _) (guard_apply j)).trans ?_
  refine (select_one _ _).trans ?_
  unfold Cert.Spec.varCentered
  refine (hostDivf_apply _ _ _).trans ?_
  refine congrArg₂ Ideal.div ?_ ((broadcastInDim_scalar_apply _ _ _).trans nEff_apply)
  refine (colSums_apply _ j).trans (Finset.sum_congr rfl fun i _ => ?_)
  refine (mulf_apply _ _ _).trans ?_
  rw [centred_apply]

/-- The normalised entry at `(i, j)`, for any mean and variance vectors. -/
theorem normalize_at (v : FVec Ideal S100000x128 .f32) (mean var g be : FVec Ideal S128 .f32) (i : Fin 100000) (j : Fin 128) :
    normalize v mean var g be (ix2 i j)
      = g (ix1 j) * (v (ix2 i j) - mean (ix1 j)) * Ideal.rsqrt (var (ix1 j) + Cert.Spec.epsW) + be (ix1 j) := by
  unfold normalize Cert.Spec.epsW
  refine (addf_apply _ _ _).trans ?_
  refine congrArg₂ (· + ·) ?_ (rows_apply be i j)
  refine (mulf_apply _ _ _).trans ?_
  refine congrArg₂ (· * ·) ?_ ?_
  · refine (mulf_apply _ _ _).trans ?_
    refine congrArg₂ (· * ·) (rows_apply g i j) ?_
    refine (subf_apply _ _ _).trans ?_
    exact congrArg (v (ix2 i j) - ·) (rows_apply mean i j)
  · refine (rows_apply _ i j).trans ?_
    show Ideal.rsqrt (addf var _ (ix1 j)) = _
    refine congrArg Ideal.rsqrt ?_
    refine (addf_apply _ _ _).trans ?_
    refine congrArg (var (ix1 j) + ·) ?_
    exact (broadcastInDim_scalar_apply _ _ _).trans rfl

/-- The reference's result at `(i, j)`: the normalised, scaled and shifted entry with the centred variance. -/
theorem normalize_apply (v : FVec Ideal Cert.ReferenceIdeal.S100000x128 .f32) (g be : FVec Ideal Cert.ReferenceIdeal.S128 .f32)
    (i : Fin 100000) (j : Fin 128) :
    normalize v (colMean v) (colVar v) g be (ix2 i j)
      = Cert.Spec.normalized (Cert.Spec.varCentered (fun i j => v (ix2 i j))) (fun i j => v (ix2 i j))
          (fun j => g (ix1 j)) (fun j => be (ix1 j)) i j := by
  rw [normalize_at, colMean_apply, colVar_apply]
  unfold Cert.Spec.normalized
  rfl

end Cert.RefSide
-- ==== Proof.Bridge.lean ====
/-
  The two programs' results are one array.

  Both programs aggregate the same hidden features relu(x) · W along the same edge list and add the same bias: one
  matrix v. Both normalise each column of v by its mean and the variance of its centred values — the reference as it
  is written, the kernel program after the law of the two variances on a real-valued column — and scale and shift
  the result by the same vectors, in the same order of operations. Entry by entry the two results are one expression.
-/
import proofs.«159551_j41910290874470_1_alg».proof.Proof.KReal
import proofs.«159551_j41910290874470_1_alg».proof.Proof.Gen.ReferenceIdeal
import proofs.«159551_j41910290874470_1_alg».proof.Proof.RefDefs
import proofs.«159551_j41910290874470_1_alg».proof.Proof.RefHid
import proofs.«159551_j41910290874470_1_alg».proof.Proof.RefNorm

set_option maxRecDepth 16384

noncomputable section

namespace Cert.Bridge

open Idealize.ShloMosaic Idealize.ShloMosaic.TcCoe Idealize.SL.Sem Idealize.ShloMosaic.ValueIdx
open Cert.KernelIdeal Cert.KernelIdeal.Gen Cert.KSide

/-- The reference's result at (i, j): the matrix v = aggregation of relu(x) · W plus bias, normalised by column. -/
theorem refOut_apply (x : FVec Ideal Cert.ReferenceIdeal.S100000x128 .f32) (ei : IVec Cert.ReferenceIdeal.S2x600000 32)
    (W : FVec Ideal Cert.ReferenceIdeal.S128x128 .f32) (b g be : FVec Ideal Cert.ReferenceIdeal.S128 .f32)
    (i : Fin 100000) (j : Fin 128) :
    Cert.RefSide.refOut x ei W b g be (ix2 i j)
      = Cert.Spec.normalized
          (Cert.Spec.varCentered (fun i j => Cert.Agg.agg (Cert.RefSide.hostH x W) ei (ix2 i j) + b (ix1 j)))
          (fun i j => Cert.Agg.agg (Cert.RefSide.hostH x W) ei (ix2 i j) + b (ix1 j))
          (fun j => g (ix1 j)) (fun j => be (ix1 j)) i j := by
  have e : (fun (i : Fin 100000) (j : Fin 128) => Cert.RefSide.refOutV x ei W b (ix2 i j))
      = fun i j => Cert.Agg.agg (Cert.RefSide.hostH x W) ei (ix2 i j) + b (ix1 j) := by
    funext i j
    unfold Cert.RefSide.refOutV
    rw [Cert.RefSide.refV_apply]
  unfold Cert.RefSide.refOut
  rw [Cert.RefSide.normalize_apply, e]

variable (m : (ℓ : Loc nD τ sig) → Buf (Elt Ideal) ℓ) (ρ : Dev nD → PrngReg) (c : Dev nD)

/-- The kernel program's hidden features are the reference's: both are relu(x) · W, entry by entry. -/
theorem hid_eq : hidK m ρ c = Cert.RefSide.hostH (m ((c : Thread nD τ).loc main_arg0)) (m ((c : Thread nD τ).loc main_arg2)) := by
  funext idx
  obtain ⟨i, j, rfl⟩ : ∃ (i : Fin 100000) (j : Fin 128), idx = ix2 i j := ⟨idx 0, idx 1, eq_ix2 idx⟩
  have hK := hidK_apply m ρ c i j
  unfold atN hidOf at hK
  rw [hK, Cert.RefSide.hostH_apply]

/-- The matrix both programs normalise, in the reference's spelling. -/
theorem biased_eq : biasedK m ρ c = fun i j =>
    Cert.Agg.agg (Cert.RefSide.hostH (m ((c : Thread nD τ).loc main_arg0)) (m ((c : Thread nD τ).loc main_arg2))) (m ((c : Thread nD τ).loc main_arg1)) (ix2 i j)
      + (m ((c : Thread nD τ).loc main_arg3) : FVec Ideal S128 .f32) (ix1 j) := by
  funext i j
  unfold biasedK atN atVec
  rw [hid_eq]

/-- The reference's result array, of the kernel program's arguments, is the array the kernel program leaves. -/
theorem result_eq
    (hx : ∀ (i : Fin 100000) (k : Fin 128), ∃ r : ℝ, atN (m ((c : Thread nD τ).loc main_arg0)) i k = (r : EReal))
    (hW : ∀ (k j : Fin 128), ∃ r : ℝ, (m ((c : Thread nD τ).loc main_arg2) : FVec Ideal S128x128 .f32) (ix2 k j) = (r : EReal))
    (hb : ∀ j : Fin 128, ∃ r : ℝ, atVec (m ((c : Thread nD τ).loc main_arg3)) j = (r : EReal)) :
    Cert.RefSide.refOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      = W7 m ρ c (Proc.devRef .tc main_v54) := by
  funext idx
  obtain ⟨i, j, rfl⟩ : ∃ (i : Fin 100000) (j : Fin 128), idx = ix2 i j := ⟨idx 0, idx 1, eq_ix2 idx⟩
  rw [refOut_apply, ← biased_eq m ρ c]
  exact (kernel_result m ρ c hx hW hb i j).symm

end Cert.Bridge

end
-- ==== Proof.RefAggEq.lean ====
/-
  The reference's aggregation chain is the shared aggregation.

  The reference program aggregates the hidden features with the same operations, in the same order, as the chain
  both programs share; its dimension-number records have the same fields as the other program's, and its shape
  facts are propositions. So the two chains are equal, link by link: source and target lists, index columns, degrees,
  weights, wrapped indices, coefficients, contributions, and the final scatter-add.
-/
import proofs.«159551_j41910290874470_1_alg».proof.Proof.RefDefs

noncomputable section

namespace Cert.RefSide

open Cert.ReferenceIdeal Idealize.ShloMosaic

variable [hK : Cert.KernelIdeal.Facts] [hR : Cert.ReferenceIdeal.Facts]
open Cert.ReferenceIdeal.Facts₀ Cert.ReferenceIdeal.Facts

section AggEq
variable (h : FVec Ideal S100000x128 .f32) (ei : IVec S2x600000 32)

theorem rSrc_eq : rSrc ei = Cert.Agg.srcIdx ei := rfl
theorem rDst_eq : rDst ei = Cert.Agg.dstIdx ei := rfl
theorem rCol_eq (v : IVec S700000 32) : rCol v = Cert.Agg.col v := rfl
/-- The two programs' dimension-number records have the same fields. -/
theorem rec1_eq : Cert.ReferenceIdeal.scatter_S100000_S700000x1_S700000_n_0_0_1 = Cert.KernelIdeal.scatter_S100000_S700000x1_S700000_n_0_0_1 := rfl
theorem rec2_eq : Cert.ReferenceIdeal.scatter_S100000x128_S700000x1_S700000x128_1_0_0_1 = Cert.KernelIdeal.scatter_S100000x128_S700000x1_S700000x128_1_0_0_1 := rfl
theorem rec3_eq : Cert.ReferenceIdeal.gather_S100000_S700000x1_S700000_n_0_n_n_0_1_1 = Cert.KernelIdeal.gather_S100000_S700000x1_S700000_n_0_n_n_0_1_1 := rfl
theorem rec4_eq : Cert.ReferenceIdeal.gather_S100000x128_S700000x1_S700000x128_1_0_n_n_0_1_1128 = Cert.KernelIdeal.gather_S100000x128_S700000x1_S700000x128_1_0_n_n_0_1_1128 := rfl

theorem rDeg_eq : rDeg ei = Cert.Agg.deg ei := by
  unfold rDeg Cert.Agg.deg
  rw [rDst_eq, rCol_eq, rec1_eq]

theorem rWeight_eq : rWeight ei = Cert.Agg.weight ei := by
  unfold rWeight Cert.Agg.weight
  rw [rDeg_eq]

theorem rWrapped_eq (v : IVec S700000 32) : rWrapped v = Cert.Agg.wrapped v := by
  unfold rWrapped Cert.Agg.wrapped
  rw [rCol_eq]

theorem rCoef_eq : rCoef ei = Cert.Agg.coef ei := by
  unfold rCoef Cert.Agg.coef
  rw [rWeight_eq, rWrapped_eq, rWrapped_eq, rSrc_eq, rDst_eq, rec3_eq]

theorem rContrib_eq : rContrib h ei = Cert.Agg.contrib h ei := by
  unfold rContrib Cert.Agg.contrib
  rw [rCoef_eq, rWrapped_eq, rSrc_eq, rec4_eq]

/-- The reference's aggregation chain is, operation for operation, the shared aggregation. -/
theorem refAgg_eq : refAgg h ei = Cert.Agg.agg h ei := by
  unfold refAgg Cert.Agg.agg
  rw [rContrib_eq, rDst_eq, rCol_eq, rec2_eq]

end AggEq

end Cert.RefSide

end
-- ==== Proof.RefRun.lean ====
/-
  The run of the plain reference program, read back as one pure function of its six argument arrays.

  The program is a straight line of 107 host operations in six stretches; each stretch's result is a pure function of
  the buffers it reads (the hidden features; their aggregation; the bias added; the column means; the column
  variances; the normalised, scaled and shifted values), and every other buffer passes through a stretch unchanged.
  Composing the six: every weakly fair execution of the program terminates with its result buffer holding the
  composed function of the six argument arrays, and the argument buffers unchanged.
-/
import proofs.«159551_j41910290874470_1_alg».proof.Proof.RefRunOps
import proofs.«159551_j41910290874470_1_alg».proof.Proof.RefDefs
import proofs.«159551_j41910290874470_1_alg».proof.Proof.RefAggEq

noncomputable section

namespace Cert.RefSide

open Cert.ReferenceIdeal Idealize.ShloMosaic Idealize.ShloMosaic.TcCoe Idealize.SL.Sem Idealize.ShloMosaic.StableHlo

variable [hK : Cert.KernelIdeal.Facts] [hR : Cert.ReferenceIdeal.Facts]
open Cert.ReferenceIdeal.Facts₀ Cert.ReferenceIdeal.Facts

/-! ## Each stretch's result from any contents of the device's buffers -/

section Windows

attribute [local irreducible] Host.reduceAdd Host.gather Host.scatterAdd Host.divf Host.rsqrt

variable (V : Valuation τ sig (Elt Ideal))

theorem W1_v1 : after (W1 (F := Ideal)) V (Proc.devRef .tc main_v1)
    = hostH (V (Proc.devRef .tc main_arg0)) (V (Proc.devRef .tc main_arg2)) := by
  unfold W1
  after_results_simp
  rfl

set_option maxRecDepth 8192 in
set_option maxHeartbeats 4000000 in
theorem W2_v44 : after (W2 (F := Ideal)) V (Proc.devRef .tc main_v44)
    = refAgg (V (Proc.devRef .tc main_v1)) (V (Proc.devRef .tc main_arg1)) := by
  unfold W2
  after_results_simp
  rfl

theorem W3_v47 : after (W3 (F := Ideal)) V (Proc.devRef .tc main_v47)
    = refV (V (Proc.devRef .tc main_v44)) (V (Proc.devRef .tc main_arg3)) := by
  unfold W3
  after_results_simp
  rfl

theorem W3_cst9 : after (W3 (F := Ideal)) V (Proc.devRef .tc main_cst_9) = constant (F := Ideal) S_ .f32 0x00000000#32 := by
  unfold W3
  after_results_simp

theorem W4_v50 : after (W4 (F := Ideal)) V (Proc.devRef .tc main_v50)
    = Host.divf (Host.reduceAdd (V (Proc.devRef .tc main_v47)) (V (Proc.devRef .tc main_cst_9)) reducesTo_S100000x128_S128_d0 h_S_)
        (broadcastInDim S128 ![] bcast_S_S128 (constant (F := Ideal) S_ .f32 0x47C35000#32)) := by
  unfold W4
  after_results_simp

set_option maxRecDepth 8192 in
set_option maxHeartbeats 2000000 in
theorem W5_v51 : after (W5 (F := Ideal)) V (Proc.devRef .tc main_v51) = colVar (V (Proc.devRef .tc main_v47)) := by
  unfold W5
  after_results_simp
  rfl

set_option maxRecDepth 8192 in
set_option maxHeartbeats 2000000 in
theorem W6_v66 : after (W6 (F := Ideal)) V (Proc.devRef .tc main_v66)
    = normalize (V (Proc.devRef .tc main_v47)) (V (Proc.devRef .tc main_v50)) (V (Proc.devRef .tc main_v51))
        (V (Proc.devRef .tc main_arg4)) (V (Proc.devRef .tc main_arg5)) := by
  unfold W6
  after_results_simp
  rfl

end Windows

/-! ## The whole line -/

/-- After the 107 operations the result buffer holds the composed function of the six argument buffers' contents. -/
theorem out_eq (V : Valuation τ sig (Elt Ideal)) :
    after (ops (F := Ideal)) V (Proc.devRef .tc main_v66)
      = refOut (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  simp only [ops, after_append]
  rw [W6_v66]
  rw [W5_v51, W5_keep _ main_v47 (by decide), W5_keep _ main_v50 (by decide), W5_keep _ main_arg4 (by decide),
    W5_keep _ main_arg5 (by decide)]
  rw [W4_v50, W4_keep _ main_v47 (by decide), W4_keep _ main_arg4 (by decide), W4_keep _ main_arg5 (by decide)]
  rw [W3_v47, W3_cst9, W3_keep _ main_arg4 (by decide), W3_keep _ main_arg5 (by decide)]
  rw [W2_v44, refAgg_eq, W2_keep _ main_arg3 (by decide), W2_keep _ main_arg4 (by decide), W2_keep _ main_arg5 (by decide)]
  rw [W1_v1, W1_keep _ main_arg1 (by decide), W1_keep _ main_arg3 (by decide), W1_keep _ main_arg4 (by decide),
    W1_keep _ main_arg5 (by decide)]
  unfold refOut refOutV colMean colSums
  rfl

/-- On every device, from any memory with zero counters: every weakly fair execution of the reference program
    terminates with its result at `refOut` of the six argument arrays, and the arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread Cert.ReferenceIdeal.nD Cert.ReferenceIdeal.τ).loc Cert.ReferenceIdeal.main_v66)
          = refOut (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
              (m ((c.tc : Thread Cert.ReferenceIdeal.nD Cert.ReferenceIdeal.τ).loc Cert.ReferenceIdeal.main_arg3))
              (m ((c.tc : Thread Cert.ReferenceIdeal.nD Cert.ReferenceIdeal.τ).loc Cert.ReferenceIdeal.main_arg4))
              (m ((c.tc : Thread Cert.ReferenceIdeal.nD Cert.ReferenceIdeal.τ).loc Cert.ReferenceIdeal.main_arg5))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)) :=
  (θ_run Cert.ReferenceIdeal.defs _ _).mono (fun _ h c =>
      ⟨(h c main_v66).trans (out_eq (launchContents m c)),
       (h c main_arg0).trans (ops_keep _ main_arg0 (by decide) (by decide) (by decide) (by decide) (by decide) (by decide)),
       (h c main_arg1).trans (ops_keep _ main_arg1 (by decide) (by decide) (by decide) (by decide) (by decide) (by decide)),
       (h c main_arg2).trans (ops_keep _ main_arg2 (by decide) (by decide) (by decide) (by decide) (by decide) (by decide)),
       (h c main_arg3).trans (ops_keep _ main_arg3 (by decide) (by decide) (by decide) (by decide) (by decide) (by decide)),
       (h c main_arg4).trans (ops_keep _ main_arg4 (by decide) (by decide) (by decide) (by decide) (by decide) (by decide)),
       (h c main_arg5).trans (ops_keep _ main_arg5 (by decide) (by decide) (by decide) (by decide) (by decide) (by decide))⟩)
    (run_seq scopedRefs_eq scopedSems_eq Cert.ReferenceIdeal.defs Cert.ReferenceIdeal.main (fun _ => ops (F := Ideal)) main_eq (fun _ => ops_sub) m ρ
      (fun _ => ops_fresh))

end Cert.RefSide

end
-- ==== Proof.PreReal.lean ====
/-
  From the stated precondition (every float input finite) to: every entry of the first, third and fourth float inputs is a
  real number, over the extended reals.

  The precondition is a conjunction of five conditions "all of |v| < +∞", one per float array. An "all" is a reduction by
  "and" of an array of one-bit words from the word 1; such a reduction coming out 1 had a 1 at every index. At an index the
  one-bit word is the comparison of max (v i) (−(v i)) with the value the pattern 0x7F800000 denotes, which is +∞. Of the
  three kinds of extended real only a real has max x (−x) < +∞: at −∞ and at +∞ that maximum is +∞ itself.
-/
import proofs.«159551_j41910290874470_1_alg».proof.Pre_finite_inputs
import Idealize.ShloMosaic.Lib.ReduceAll
import Idealize.ShloMosaic.Lib.ValueIdx
import Idealize.ShloMosaic.PureOps.Ideal

noncomputable section

namespace Cert.PreReal

open Idealize.ShloMosaic
open Cert.Pre_finite_inputs

/-- The pattern 0x7F800000 (sign 0, exponent all ones, significand 0) denotes +∞. -/
theorem inf_bits : Ideal.ofBits .f32 0x7F800000#32 = (⊤ : EReal) := by
  simp [Ideal.ofBits, Ideal.ieee]

/-- An extended real whose absolute value max x (−x) lies strictly below +∞ is a real: at −∞ and at +∞ the maximum
    is +∞. -/
theorem real_of_abs_lt_top (x : EReal) (h : max x (-x) < ⊤) : ∃ r : ℝ, x = (r : EReal) := by
  induction x using EReal.rec with
  | bot => simp at h
  | coe r => exact ⟨r, rfl⟩
  | top => simp at h

/-- A truth value as a one-bit word is the word 1 exactly when it is true. -/
theorem ofBool_eq_one (b : Bool) : BitVec.ofBool b = 1#1 ↔ b = true := by cases b <;> decide

/-- The comparison |x| < +∞ coming out 1 says x is a real. -/
theorem real_of_cmp (x : EReal)
    (h : Ideal.cmp .olt (max x (-x)) (Ideal.ofBits .f32 0x7F800000#32) = 1#1) : ∃ r : ℝ, x = (r : EReal) := by
  rw [inf_bits] at h
  unfold Ideal.cmp at h
  rw [ofBool_eq_one] at h
  exact real_of_abs_lt_top x (of_decide_eq_true h)

/-- One entry of the compared array: it is the comparison of |x i| with the +∞ pattern, the scalar constant read at
    every index of the broadcast. -/
theorem real_of_elem {s : Shape} (bc : S_.BroadcastsInDim s (![] : Fin 0 → Fin s.rank)) (x : FVec Ideal s .f32) (i : s.Idx)
    (h : cmpf .olt (Host.absf x) (broadcastInDim s ![] bc (constant S_ .f32 0x7F800000#32)) i = 1#1) :
    ∃ r : ℝ, x i = (r : EReal) :=
  real_of_cmp (x i) h

/-- The scalar shape has one index. -/
instance : Subsingleton S_.Idx := ⟨fun a b => funext fun d => d.elim0⟩

/-- "All of |x| < +∞" coming out 1 (at the one index of the scalar result) makes every entry of x a real. -/
theorem reals_of_all {s : Shape} {axes : List (Fin s.rank)} (bc : S_.BroadcastsInDim s (![] : Fin 0 → Fin s.rank))
    (hr : s.ReducesTo axes S_) (hu : 0 < S_.numel) (x : FVec Ideal s .f32) (j : S_.Idx)
    (h : Host.reduce IntOp.andi (cmpf .olt (Host.absf x) (broadcastInDim s ![] bc (constant S_ .f32 0x7F800000#32)))
        (constantI S_ 1 1#1) hr hu j = 1#1) (i : s.Idx) : ∃ r : ℝ, x i = (r : EReal) :=
  real_of_elem bc x i (Host.reduce_andi_all _ _ hr hu j h i)

/-- The precondition's conjunction, read at the first, third and fourth arrays. -/
theorem reals_of_pre [Cert.Pre_finite_inputs.Facts] (x : FVec Ideal Cert.Pre_finite_inputs.S100000x128 .f32)
    (ei : IVec Cert.Pre_finite_inputs.S2x600000 32) (W : FVec Ideal Cert.Pre_finite_inputs.S128x128 .f32)
    (b g be : FVec Ideal Cert.Pre_finite_inputs.S128 .f32)
    (h : Cert.Pre_finite_inputs.fn (F := Ideal) x ei W b g be = fun _ => 1#1) :
    (∀ (i : Fin 100000) (k : Fin 128), ∃ r : ℝ, x (ValueIdx.ix2 i k) = (r : EReal)) ∧
    (∀ (k j : Fin 128), ∃ r : ℝ, W (ValueIdx.ix2 k j) = (r : EReal)) ∧
    (∀ j : Fin 128, ∃ r : ℝ, b (ValueIdx.ix1 j) = (r : EReal)) := by
  have h0 := congrFun h ValueIdx.ix0
  dsimp only [fn, fn_part1] at h0
  obtain ⟨h1, -⟩ := IntOp.andi_eq_one.1 h0
  obtain ⟨h2, -⟩ := IntOp.andi_eq_one.1 h1
  obtain ⟨h3, hb⟩ := IntOp.andi_eq_one.1 h2
  obtain ⟨hx, hW⟩ := IntOp.andi_eq_one.1 h3
  exact ⟨fun i k => reals_of_all _ _ _ x _ hx _, fun k j => reals_of_all _ _ _ W _ hW _,
    fun j => reals_of_all _ _ _ b _ hb _⟩

end Cert.PreReal
-- ==== Proof.lean ====
/-
  The certificate: the word-level kernel program, its idealization and the idealized reference each run to the end
  with their arguments unchanged; the idealization rewrote nothing; and at the ideal instance the idealized kernel
  program and the reference, run from memories that agree on the six arguments, leave equal results.

  The three frames are the generated frame proofs (the reference's is its run with the result dropped). For the
  equality: the kernel program's run names its result buffer's contents after the last region; reading those
  contents back through the three regions and the host operations between them gives, entry by entry,
  γ_j · (v_ij − μ_j) · (Q_j / N − μ_j² + ε)^(−1/2) + β_j with v the aggregated hidden features plus bias, μ_j its
  column means and Q_j its column sums of squares; the reference's run gives the same expression with the variance
  (1/N) Σ_i (v_ij − μ_j)². The inputs are finite, so v is real-valued and the two variances agree.
-/
import proofs.«159551_j41910290874470_1_alg».proof.Defs
import proofs.«159551_j41910290874470_1_alg».proof.Proof.Gen.Kernel
import proofs.«159551_j41910290874470_1_alg».proof.Proof.Gen.Kernel.Frame
import proofs.«159551_j41910290874470_1_alg».proof.Proof.Gen.KernelIdeal
import proofs.«159551_j41910290874470_1_alg».proof.Proof.Gen.KernelIdeal.Frame
import proofs.«159551_j41910290874470_1_alg».proof.Proof.Gen.ReferenceIdeal
import proofs.«159551_j41910290874470_1_alg».proof.Proof.Gen.Pre_finite_inputs
import proofs.«159551_j41910290874470_1_alg».proof.Proof.KRun
import proofs.«159551_j41910290874470_1_alg».proof.Proof.Bridge
import proofs.«159551_j41910290874470_1_alg».proof.Proof.RefRun
import proofs.«159551_j41910290874470_1_alg».proof.Proof.PreReal
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the idealized reference: its run, the result dropped. -/
theorem frame_ri : Cert.frame_ReferenceIdeal := fun m ρ _ =>
  (θ_run Cert.ReferenceIdeal.defs _ _).mono (fun _ h c => (h c).2) (Cert.RefSide.run m ρ)

/-- The idealization rewrote no operation. -/
theorem preserves : Cert.preserves_Kernel_KernelIdeal := trivial

/-- From memories agreeing on the arguments, both idealized programs end with the same result array: the contents the
    kernel program's last boundary holds at its result buffer. -/
theorem algebraic : Cert.algebraic_KernelIdeal_ReferenceIdeal := by
  intro m ρ m' ρ' hpre hagree
  refine ⟨fun c => Cert.KernelIdeal.Gen.W7 m ρ c (Proc.devRef .tc Cert.KernelIdeal.main_v54), Cert.KSide.run_value m ρ, ?_⟩
  refine (θ_run Cert.ReferenceIdeal.defs _ _).mono (fun _ h c => ⟨(h c).1.trans ?_, (h c).2⟩) (Cert.RefSide.run m' ρ')
  rw [(hagree c).1, (hagree c).2.1, (hagree c).2.2.1, (hagree c).2.2.2.1, (hagree c).2.2.2.2.1, (hagree c).2.2.2.2.2]
  obtain ⟨hx, hW, hb⟩ := Cert.PreReal.reals_of_pre _ _ _ _ _ _ (hpre c)
  exact Cert.Bridge.result_eq m ρ c hx hW hb

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
